-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S4x1024x256 : Shape := ⟨3, ![4, 1024, 256]⟩
abbrev S4x1024 : Shape := ⟨2, ![4, 1024]⟩
abbrev S3x1024x1024 : Shape := ⟨3, ![3, 1024, 1024]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S4x1024x256 : S_.BroadcastsInDim S4x1024x256 (![] : Fin 0 → Fin S4x1024x256.rank)
  reducesTo_S4x1024x256_S_d0_1_2 : S4x1024x256.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S3x1024x1024 : S_.BroadcastsInDim S3x1024x1024 (![] : Fin 0 → Fin S3x1024x1024.rank)
  reducesTo_S3x1024x1024_S_d0_1_2 : S3x1024x1024.ReducesTo [0, 1, 2] S_

variable [Facts]

def fn_part2 {F : FTy → Type} [FloatOps F] (main_arg7 : FVec F S4x1024 .f32) (main_arg8 : FVec F S3x1024x1024 .f32) (main_v33 : IVec S_ 1) : IVec S_ 1 :=
  let main_v34 : FVec F S4x1024 .f32 := Host.absf main_arg7
  let main_cst_12 : FVec F S_ .f32 := constant S_ .f32 0x7F800000#32
  let main_v35 : FVec F S4x1024 .f32 := broadcastInDim S4x1024 ![] bcast_S_S4x1024 main_cst_12
  let main_v36 : IVec S4x1024 1 := cmpf .olt main_v34 main_v35
  let main_c_13 : IVec S_ 1 := constantI S_ 1 1#1
  let main_v37 : IVec S_ 1 := (fun x v => Host.reduce IntOp.andi x v reducesTo_S4x1024_S_d0_1 h_S_) main_v36 main_c_13
  let main_v38 : IVec S_ 1 := andi main_v33 main_v37
  let main_v39 : FVec F S3x1024x1024 .f32 := Host.absf main_arg8
  let main_cst_14 : FVec F S_ .f32 := constant S_ .f32 0x7F800000#32
  let main_v40 : FVec F S3x1024x1024 .f32 := broadcastInDim S3x1024x1024 ![] bcast_S_S3x1024x1024 main_cst_14
  let main_v41 : IVec S3x1024x1024 1 := cmpf .olt main_v39 main_v40
  let main_c_15 : IVec S_ 1 := constantI S_ 1 1#1
  let main_v42 : IVec S_ 1 := (fun x v => Host.reduce IntOp.andi x v reducesTo_S3x1024x1024_S_d0_1_2 h_S_) main_v41 main_c_15
  let main_v43 : IVec S_ 1 := andi main_v38 main_v42
  main_v43

def fn_part1 {F : FTy → Type} [FloatOps F] (main_arg4 : FVec F S4x1024x256 .f32) (main_arg5 : FVec F S4x1024 .f32) (main_arg6 : FVec F S4x1024x256 .f32) (main_arg7 : FVec F S4x1024 .f32) (main_arg8 : FVec F S3x1024x1024 .f32) (main_v13 : IVec S_ 1) (main_v16 : IVec S4x1024 1) : IVec S_ 1 :=
  let main_c_5 : IVec S_ 1 := constantI S_ 1 1#1
  let main_v17 : IVec S_ 1 := (fun x v => Host.reduce IntOp.andi x v reducesTo_S4x1024_S_d0_1 h_S_) main_v16 main_c_5
  let main_v18 : IVec S_ 1 := andi main_v13 main_v17
  let main_v19 : FVec F S4x1024x256 .f32 := Host.absf main_arg4
  let main_cst_6 : FVec F S_ .f32 := constant S_ .f32 0x7F800000#32
  let main_v20 : FVec F S4x1024x256 .f32 := broadcastInDim S4x1024x256 ![] bcast_S_S4x1024x256 main_cst_6
  let main_v21 : IVec S4x1024x256 1 := cmpf .olt main_v19 main_v20
  let main_c_7 : IVec S_ 1 := constantI S_ 1 1#1
  let main_v22 : IVec S_ 1 := (fun x v => Host.reduce IntOp.andi x v reducesTo_S4x1024x256_S_d0_1_2 h_S_) main_v21 main_c_7
  let main_v23 : IVec S_ 1 := andi main_v18 main_v22
  let main_v24 : FVec F S4x1024 .f32 := Host.absf main_arg5
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  let main_v29 : FVec F S4x1024x256 .f32 := Host.absf main_arg6
  let main_cst_10 : FVec F S_ .f32 := constant S_ .f32 0x7F800000#32
  let main_v30 : FVec F S4x1024x256 .f32 := broadcastInDim S4x1024x256 ![] bcast_S_S4x1024x256 main_cst_10
  let main_v31 : IVec S4x1024x256 1 := cmpf .olt main_v29 main_v30
  let main_c_11 : IVec S_ 1 := constantI S_ 1 1#1
  let main_v32 : IVec S_ 1 := (fun x v => Host.reduce IntOp.andi x v reducesTo_S4x1024x256_S_d0_1_2 h_S_) main_v31 main_c_11
  let main_v33 : IVec S_ 1 := andi main_v28 main_v32
  fn_part2 (F := F) main_arg7 main_arg8 main_v33

def fn {F : FTy → Type} [FloatOps F] (main_arg0 : FVec F S8192x256 .f32) (main_arg1 : FVec F S8192x256 .f32) (main_arg2 : FVec F S4x1024x256 .f32) (main_arg3 : FVec F S4x1024 .f32) (main_arg4 : FVec F S4x1024x256 .f32) (main_arg5 : FVec F S4x1024 .f32) (main_arg6 : FVec F S4x1024x256 .f32) (main_arg7 : FVec F S4x1024 .f32) (main_arg8 : FVec F S3x1024x1024 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S4x1024x256 .f32 := Host.absf main_arg2
  let main_cst_2 : FVec F S_ .f32 := constant S_ .f32 0x7F800000#32
  let main_v10 : FVec F S4x1024x256 .f32 := broadcastInDim S4x1024x256 ![] bcast_S_S4x1024x256 main_cst_2
  let main_v11 : IVec S4x1024x256 1 := cmpf .olt main_v9 main_v10
  let main_c_3 : IVec S_ 1 := constantI S_ 1 1#1
  let main_v12 : IVec S_ 1 := (fun x v => Host.reduce IntOp.andi x v reducesTo_S4x1024x256_S_d0_1_2 h_S_) main_v11 main_c_3
  let main_v13 : IVec S_ 1 := andi main_v8 main_v12
  let main_v14 : FVec F S4x1024 .f32 := Host.absf main_arg3
  let main_cst_4 : FVec F S_ .f32 := constant S_ .f32 0x7F800000#32
  let main_v15 : FVec F S4x1024 .f32 := broadcastInDim S4x1024 ![] bcast_S_S4x1024 main_cst_4
  let main_v16 : IVec S4x1024 1 := cmpf .olt main_v14 main_v15
  fn_part1 (F := F) main_arg4 main_arg5 main_arg6 main_arg7 main_arg8 main_v13 main_v16
-- ==== Kernel.lean ====
abbrev S8192x256 : Shape := ⟨2, ![8192, 256]⟩
abbrev S4x1024x256 : Shape := ⟨3, ![4, 1024, 256]⟩
abbrev S4x1024 : Shape := ⟨2, ![4, 1024]⟩
abbrev S3x1024x1024 : Shape := ⟨3, ![3, 1024, 1024]⟩
abbrev S256 : Shape := ⟨1, ![256]⟩
abbrev S_ : Shape := ⟨0, ![]⟩
abbrev S1x1x256 : Shape := ⟨3, ![1, 1, 256]⟩
abbrev S4x2048x256 : Shape := ⟨3, ![4, 2048, 256]⟩
abbrev S4x2048 : Shape := ⟨2, ![4, 2048]⟩
abbrev S8192x1024 : Shape := ⟨2, ![8192, 1024]⟩
abbrev S512x256 : Shape := ⟨2, ![512, 256]⟩
abbrev S512x1024 : Shape := ⟨2, ![512, 1024]⟩
abbrev S1x2048x256 : Shape := ⟨3, ![1, 2048, 256]⟩
abbrev S2048x256 : Shape := ⟨2, ![2048, 256]⟩
abbrev S512x2048 : Shape := ⟨2, ![512, 2048]⟩
abbrev S1x2048 : Shape := ⟨2, ![1, 2048]⟩
abbrev S2048 : Shape := ⟨1, ![2048]⟩
abbrev S1x1024x256 : Shape := ⟨3, ![1, 1024, 256]⟩
abbrev S1024x256 : Shape := ⟨2, ![1024, 256]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩

abbrev nBuf : Space → Nat
  | .hbm => 98
  | .vmem => 11
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S4x1024x256, .f32⟩
  | .hbm, ⟨3, _⟩ => ⟨S4x1024, .f32⟩
  | .hbm, ⟨4, _⟩ => ⟨S4x1024x256, .f32⟩
  | .hbm, ⟨5, _⟩ => ⟨S4x1024, .f32⟩
  | .hbm, ⟨6, _⟩ => ⟨S4x1024x256, .f32⟩
  | .hbm, ⟨7, _⟩ => ⟨S4x1024, .f32⟩
  | .hbm, ⟨8, _⟩ => ⟨S3x1024x1024, .f32⟩
  | .hbm, ⟨9, _⟩ => ⟨S256, .f32⟩
  | .hbm, ⟨10, _⟩ => ⟨S256, .f32⟩
  | .hbm, ⟨11, _⟩ => ⟨S_, .f32⟩
  | .hbm, ⟨12, _⟩ => ⟨S4x1024x256, .f32⟩
  | .hbm, ⟨13, _⟩ => ⟨S4x1024x256, .f32⟩
  | .hbm, ⟨14, _⟩ => ⟨S4x1024x256, .f32⟩
  | .hbm, ⟨15, _⟩ => ⟨S4x1024x256, .f32⟩
  | .hbm, ⟨16, _⟩ => ⟨S4x1024x256, .i1⟩
  | .hbm, ⟨17, _⟩ => ⟨S4x1024x256, .f32⟩
  | .hbm, ⟨18, _⟩ => ⟨S4x1024x256, .f32⟩
  | .hbm, ⟨19, _⟩ => ⟨S4x1024x256, .f32⟩
  | .hbm, ⟨20, _⟩ => ⟨S4x1024x256, .f32⟩
  | .hbm, ⟨21, _⟩ => ⟨S4x1024x256, .f32⟩
  | .hbm, ⟨22, _⟩ => ⟨S4x1024x256, .f32⟩
  | .hbm, ⟨23, _⟩ => ⟨S4x1024x256, .f32⟩
  | .hbm, ⟨24, _⟩ => ⟨S4x1024x256, .f32⟩
  | .hbm, ⟨25, _⟩ => ⟨S1x1x256, .f32⟩
  | .hbm, ⟨26, _⟩ => ⟨S_, .f32⟩
  | .hbm, ⟨27, _⟩ => ⟨S1x1x256, .f32⟩
  | .hbm, ⟨28, _⟩ => ⟨S1x1x256, .i1⟩
  | .hbm, ⟨29, _⟩ => ⟨S4x1024x256, .f32⟩
  | .hbm, ⟨30, _⟩ => ⟨S4x1024x256, .f32⟩
  | .hbm, ⟨31, _⟩ => ⟨S4x1024x256, .i1⟩
  | .hbm, ⟨32, _⟩ => ⟨S4x1024x256, .f32⟩
  | .hbm, ⟨33, _⟩ => ⟨S4x1024x256, .bf16⟩
  | .hbm, ⟨34, _⟩ => ⟨S_, .f32⟩
  | .hbm, ⟨35, _⟩ => ⟨S4x1024x256, .f32⟩
  | .hbm, ⟨36, _⟩ => ⟨S4x1024x256, .f32⟩
  | .hbm, ⟨37, _⟩ => ⟨S4x1024x256, .f32⟩
  | .hbm, ⟨38, _⟩ => ⟨S4x1024x256, .f32⟩
  | .hbm, ⟨39, _⟩ => ⟨S4x1024x256, .i1⟩
  | .hbm, ⟨40, _⟩ => ⟨S4x1024x256, .f32⟩
  | .hbm, ⟨41, _⟩ => ⟨S4x1024x256, .f32⟩
  | .hbm, ⟨42, _⟩ => ⟨S4x1024x256, .f32⟩
  | .hbm, ⟨43, _⟩ => ⟨S4x1024x256, .f32⟩
  | .hbm, ⟨44, _⟩ => ⟨S4x1024x256, .f32⟩
  | .hbm, ⟨45, _⟩ => ⟨S4x1024x256, .f32⟩
  | .hbm, ⟨46, _⟩ => ⟨S4x1024x256, .f32⟩
  | .hbm, ⟨47, _⟩ => ⟨S4x1024x256, .f32⟩
  | .hbm, ⟨48, _⟩ => ⟨S1x1x256, .f32⟩
  | .hbm, ⟨49, _⟩ => ⟨S_, .f32⟩
  | .hbm, ⟨50, _⟩ => ⟨S1x1x256, .f32⟩
  | .hbm, ⟨51, _⟩ => ⟨S1x1x256, .i1⟩
  | .hbm, ⟨52, _⟩ => ⟨S4x1024x256, .f32⟩
  | .hbm, ⟨53, _⟩ => ⟨S4x1024x256, .f32⟩
  | .hbm, ⟨54, _⟩ => ⟨S4x1024x256, .i1⟩
  | .hbm, ⟨55, _⟩ => ⟨S4x1024x256, .f32⟩
  | .hbm, ⟨56, _⟩ => ⟨S4x1024x256, .bf16⟩
  | .hbm, ⟨57, _⟩ => ⟨S_, .f32⟩
  | .hbm, ⟨58, _⟩ => ⟨S4x1024x256, .f32⟩
  | .hbm, ⟨59, _⟩ => ⟨S4x1024x256, .f32⟩
  | .hbm, ⟨60, _⟩ => ⟨S4x1024x256, .f32⟩
  | .hbm, ⟨61, _⟩ => ⟨S4x1024x256, .f32⟩
  | .hbm, ⟨62, _⟩ => ⟨S4x1024x256, .i1⟩
  | .hbm, ⟨63, _⟩ => ⟨S4x1024x256, .f32⟩
  | .hbm, ⟨64, _⟩ => ⟨S4x1024x256, .f32⟩
  | .hbm, ⟨65, _⟩ => ⟨S4x1024x256, .f32⟩
  | .hbm, ⟨66, _⟩ => ⟨S4x1024x256, .f32⟩
  | .hbm, ⟨67, _⟩ => ⟨S4x1024x256, .f32⟩
  | .hbm, ⟨68, _⟩ => ⟨S4x1024x256, .f32⟩
  | .hbm, ⟨69, _⟩ => ⟨S4x1024x256, .f32⟩
  | .hbm, ⟨70, _⟩ => ⟨S4x1024x256, .f32⟩
  | .hbm, ⟨71, _⟩ => ⟨S1x1x256, .f32⟩
  | .hbm, ⟨72, _⟩ => ⟨S_, .f32⟩
  | .hbm, ⟨73, _⟩ => ⟨S1x1x256, .f32⟩
  | .hbm, ⟨74, _⟩ => ⟨S1x1x256, .i1⟩
  | .hbm, ⟨75, _⟩ => ⟨S4x1024x256, .f32⟩
  | .hbm, ⟨76, _⟩ => ⟨S4x1024x256, .f32⟩
  | .hbm, ⟨77, _⟩ => ⟨S4x1024x256, .i1⟩
  | .hbm, ⟨78, _⟩ => ⟨S4x1024x256, .f32⟩
  | .hbm, ⟨79, _⟩ => ⟨S4x1024x256, .bf16⟩
  | .hbm, ⟨80, _⟩ => ⟨S_, .f32⟩
  | .hbm, ⟨81, _⟩ => ⟨S3x1024x1024, .f32⟩
  | .hbm, ⟨82, _⟩ => ⟨S3x1024x1024, .f32⟩
  | .hbm, ⟨83, _⟩ => ⟨S3x1024x1024, .f32⟩
  | .hbm, ⟨84, _⟩ => ⟨S3x1024x1024, .f32⟩
  | .hbm, ⟨85, _⟩ => ⟨S3x1024x1024, .i1⟩
  | .hbm, ⟨86, _⟩ => ⟨S3x1024x1024, .f32⟩
  | .hbm, ⟨87, _⟩ => ⟨S3x1024x1024, .f32⟩
  | .hbm, ⟨88, _⟩ => ⟨S3x1024x1024, .f32⟩
  | .hbm, ⟨89, _⟩ => ⟨S3x1024x1024, .f32⟩
  | .hbm, ⟨90, _⟩ => ⟨S3x1024x1024, .f32⟩
  | .hbm, ⟨91, _⟩ => ⟨S3x1024x1024, .f32⟩
  | .hbm, ⟨92, _⟩ => ⟨S3x1024x1024, .f32⟩
  | .hbm, ⟨93, _⟩ => ⟨S3x1024x1024, .f32⟩
  | .hbm, ⟨94, _⟩ => ⟨S3x1024x1024, .bf16⟩
  | .hbm, ⟨95, _⟩ => ⟨S4x2048x256, .bf16⟩
  | .hbm, ⟨96, _⟩ => ⟨S4x2048, .f32⟩
  | .hbm, ⟨97, _⟩ => ⟨S8192x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S4x1024x256, .bf16⟩
  | .local _ .vmem, ⟨5, _⟩ => ⟨S4x1024, .f32⟩
  | .local _ .vmem, ⟨6, _⟩ => ⟨S4x2048x256, .bf16⟩
  | .local _ .vmem, ⟨7, _⟩ => ⟨S4x2048, .f32⟩
  | .local _ .vmem, ⟨8, _⟩ => ⟨S3x1024x1024, .bf16⟩
  | .local _ .vmem, ⟨9, _⟩ => ⟨S512x1024, .f32⟩
  | .local _ .vmem, ⟨10, _⟩ => ⟨S512x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_cst : Ref sig .tc := ⟨.hbm, 9, rfl⟩
abbrev main_call0_cst_0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v0 : Ref sig .tc := ⟨.hbm, 24, rfl⟩
abbrev main_call0_v1 : Ref sig .tc := ⟨.hbm, 25, rfl⟩
abbrev main_call0_cst_1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_call1_v0 : Ref sig .tc := ⟨.hbm, 31, rfl⟩
abbrev main_call0_v6 : Ref sig .tc := ⟨.hbm, 32, rfl⟩
abbrev main_call0_v7 : Ref sig .tc := ⟨.hbm, 33, rfl⟩
abbrev main_call0_call2_cst : Ref sig .tc := ⟨.hbm, 34, rfl⟩
abbrev main_call0_call2_v0 : Ref sig .tc := ⟨.hbm, 35, rfl⟩
abbrev main_call0_call2_v1 : Ref sig .tc := ⟨.hbm, 36, rfl⟩
abbrev main_call0_call2_v2 : Ref sig .tc := ⟨.hbm, 37, rfl⟩
abbrev main_call0_call2_v3 : Ref sig .tc := ⟨.hbm, 38, rfl⟩
abbrev main_call0_call2_v4 : Ref sig .tc := ⟨.hbm, 39, rfl⟩
abbrev main_call0_call2_v5 : Ref sig .tc := ⟨.hbm, 40, rfl⟩
abbrev main_call0_call2_v6 : Ref sig .tc := ⟨.hbm, 41, rfl⟩
abbrev main_call0_call2_v7 : Ref sig .tc := ⟨.hbm, 42, rfl⟩
abbrev main_call0_call2_v8 : Ref sig .tc := ⟨.hbm, 43, rfl⟩
abbrev main_call0_call2_v9 : Ref sig .tc := ⟨.hbm, 44, rfl⟩
abbrev main_call0_call2_v10 : Ref sig .tc := ⟨.hbm, 45, rfl⟩
abbrev main_call0_call2_v11 : Ref sig .tc := ⟨.hbm, 46, rfl⟩
abbrev main_call0_v8 : Ref sig .tc := ⟨.hbm, 47, rfl⟩
abbrev main_call0_v9 : Ref sig .tc := ⟨.hbm, 48, rfl⟩
abbrev main_call0_cst_2 : Ref sig .tc := ⟨.hbm, 49, rfl⟩
abbrev main_call0_v10 : Ref sig .tc := ⟨.hbm, 50, rfl⟩
abbrev main_call0_v11 : Ref sig .tc := ⟨.hbm, 51, rfl⟩
abbrev main_call0_v12 : Ref sig .tc := ⟨.hbm, 52, rfl⟩
abbrev main_call0_v13 : Ref sig .tc := ⟨.hbm, 53, rfl⟩
abbrev main_call0_call3_v0 : Ref sig .tc := ⟨.hbm, 54, rfl⟩
abbrev main_call0_v14 : Ref sig .tc := ⟨.hbm, 55, rfl⟩
abbrev main_call0_v15 : Ref sig .tc := ⟨.hbm, 56, rfl⟩
abbrev main_call0_call4_cst : Ref sig .tc := ⟨.hbm, 57, rfl⟩
abbrev main_call0_call4_v0 : Ref sig .tc := ⟨.hbm, 58, rfl⟩
abbrev main_call0_call4_v1 : Ref sig .tc := ⟨.hbm, 59, rfl⟩
abbrev main_call0_call4_v2 : Ref sig .tc := ⟨.hbm, 60, rfl⟩
abbrev main_call0_call4_v3 : Ref sig .tc := ⟨.hbm, 61, rfl⟩
abbrev main_call0_call4_v4 : Ref sig .tc := ⟨.hbm, 62, rfl⟩
abbrev main_call0_call4_v5 : Ref sig .tc := ⟨.hbm, 63, rfl⟩
abbrev main_call0_call4_v6 : Ref sig .tc := ⟨.hbm, 64, rfl⟩
abbrev main_call0_call4_v7 : Ref sig .tc := ⟨.hbm, 65, rfl⟩
abbrev main_call0_call4_v8 : Ref sig .tc := ⟨.hbm, 66, rfl⟩
abbrev main_call0_call4_v9 : Ref sig .tc := ⟨.hbm, 67, rfl⟩
abbrev main_call0_call4_v10 : Ref sig .tc := ⟨.hbm, 68, rfl⟩
abbrev main_call0_call4_v11 : Ref sig .tc := ⟨.hbm, 69, rfl⟩
abbrev main_call0_v16 : Ref sig .tc := ⟨.hbm, 70, rfl⟩
abbrev main_call0_v17 : Ref sig .tc := ⟨.hbm, 71, rfl⟩
abbrev main_call0_cst_3 : Ref sig .tc := ⟨.hbm, 72, rfl⟩
abbrev main_call0_v18 : Ref sig .tc := ⟨.hbm, 73, rfl⟩
abbrev main_call0_v19 : Ref sig .tc := ⟨.hbm, 74, rfl⟩
abbrev main_call0_v20 : Ref sig .tc := ⟨.hbm, 75, rfl⟩
abbrev main_call0_v21 : Ref sig .tc := ⟨.hbm, 76, rfl⟩
abbrev main_call0_call5_v0 : Ref sig .tc := ⟨.hbm, 77, rfl⟩
abbrev main_call0_v22 : Ref sig .tc := ⟨.hbm, 78, rfl⟩
abbrev main_call0_v23 : Ref sig .tc := ⟨.hbm, 79, rfl⟩
abbrev main_call0_call6_cst : Ref sig .tc := ⟨.hbm, 80, rfl⟩
abbrev main_call0_call6_v0 : Ref sig .tc := ⟨.hbm, 81, rfl⟩
abbrev main_call0_call6_v1 : Ref sig .tc := ⟨.hbm, 82, rfl⟩
abbrev main_call0_call6_v2 : Ref sig .tc := ⟨.hbm, 83, rfl⟩
abbrev main_call0_call6_v3 : Ref sig .tc := ⟨.hbm, 84, rfl⟩
abbrev main_call0_call6_v4 : Ref sig .tc := ⟨.hbm, 85, rfl⟩
abbrev main_call0_call6_v5 : Ref sig .tc := ⟨.hbm, 86, rfl⟩
abbrev main_call0_call6_v6 : Ref sig .tc := ⟨.hbm, 87, rfl⟩
abbrev main_call0_call6_v7 : Ref sig .tc := ⟨.hbm, 88, rfl⟩
abbrev main_call0_call6_v8 : Ref sig .tc := ⟨.hbm, 89, rfl⟩
abbrev main_call0_call6_v9 : Ref sig .tc := ⟨.hbm, 90, rfl⟩
abbrev main_call0_call6_v10 : Ref sig .tc := ⟨.hbm, 91, rfl⟩
abbrev main_call0_call6_v11 : Ref sig .tc := ⟨.hbm, 92, rfl⟩
abbrev main_call0_v24 : Ref sig .tc := ⟨.hbm, 93, rfl⟩
abbrev main_call0_v25 : Ref sig .tc := ⟨.hbm, 94, rfl⟩
abbrev main_call0_v26 : Ref sig .tc := ⟨.hbm, 95, rfl⟩
abbrev main_call0_v27 : Ref sig .tc := ⟨.hbm, 96, rfl⟩
abbrev main_v0 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S4x1024x256 : S_.BroadcastsInDim S4x1024x256 (![] : Fin 0 → Fin S4x1024x256.rank)
  shapeCasts_S256_S1x1x256 : S256.ShapeCasts S1x1x256
  bcast_S_S1x1x256 : S_.BroadcastsInDim S1x1x256 (![] : Fin 0 → Fin S1x1x256.rank)
  bcast_S1x1x256_S4x1024x256_0_1_2 : S1x1x256.BroadcastsInDim S4x1024x256 (![0, 1, 2] : Fin 3 → Fin S4x1024x256.rank)
  bitsLt_bf16_f32 : FTy.bits .bf16 < FTy.bits .f32
  bcast_S_S3x1024x1024 : S_.BroadcastsInDim S3x1024x1024 (![] : Fin 0 → Fin S3x1024x1024.rank)
  concatenates_S4x1024x256_S4x1024x256_S4x2048x256_d1 : Shape.Concatenates [S4x1024x256, S4x1024x256] S4x2048x256 1
  concatenates_S4x1024_S4x1024_S4x2048_d1 : Shape.Concatenates [S4x1024, S4x1024] S4x2048 1
  inb_S512x256_S512x256_0_0 : ∀ a, (![0, 0] : Fin 2 → Nat) a + S512x256.size a ≤ S512x256.size a
  h_S512x256 : 0 < S512x256.numel
  inb_S4x2048x256_S1x2048x256_0_0_0 : ∀ a, (![0, 0, 0] : Fin 3 → Nat) a + S1x2048x256.size a ≤ S4x2048x256.size a
  h_S1x2048x256 : 0 < S1x2048x256.numel
  shapeCasts_S1x2048x256_S2048x256 : S1x2048x256.ShapeCasts S2048x256
  inb_S4x2048_S1x2048_0_0 : ∀ a, (![0, 0] : Fin 2 → Nat) a + S1x2048.size a ≤ S4x2048.size a
  h_S1x2048 : 0 < S1x2048.numel
  shapeCasts_S1x2048_S2048 : S1x2048.ShapeCasts S2048
  shapeCasts_S2048_S1x2048 : S2048.ShapeCasts S1x2048
  broadcasts_S1x2048_S512x2048 : S1x2048.Broadcasts S512x2048
  slices_S512x2048_o0_0_S512x1024 : S512x2048.Slices ![0, 0] S512x1024
  slices_S512x2048_o0_1024_S512x1024 : S512x2048.Slices ![0, 1024] S512x1024
  inb_S4x1024x256_S1x1024x256_0_0_0 : ∀ a, (![0, 0, 0] : Fin 3 → Nat) a + S1x1024x256.size a ≤ S4x1024x256.size a
  h_S1x1024x256 : 0 < S1x1024x256.numel
  shapeCasts_S1x1024x256_S1024x256 : S1x1024x256.ShapeCasts S1024x256
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  shapeCasts_S1024_S1x1024 : S1024.ShapeCasts S1x1024
  broadcasts_S1x1024_S512x1024 : S1x1024.Broadcasts S512x1024
  inb_S4x2048x256_S1x2048x256_1_0_0 : ∀ a, (![1, 0, 0] : Fin 3 → Nat) a + S1x2048x256.size a ≤ S4x2048x256.size a
  inb_S4x2048_S1x2048_1_0 : ∀ a, (![1, 0] : Fin 2 → Nat) a + S1x2048.size a ≤ S4x2048.size a
  inb_S4x1024x256_S1x1024x256_1_0_0 : ∀ a, (![1, 0, 0] : Fin 3 → Nat) a + S1x1024x256.size a ≤ S4x1024x256.size a
  inb_S4x1024_S1x1024_1_0 : ∀ a, (![1, 0] : Fin 2 → Nat) a + S1x1024.size a ≤ S4x1024.size a
  inb_S3x1024x1024_S1x1024x1024_0_0_0 : ∀ a, (![0, 0, 0] : Fin 3 → Nat) a + S1x1024x1024.size a ≤ S3x1024x1024.size a
  h_S1x1024x1024 : 0 < S1x1024x1024.numel
  shapeCasts_S1x1024x1024_S1024x1024 : S1x1024x1024.ShapeCasts S1024x1024
  inb_S4x2048x256_S1x2048x256_2_0_0 : ∀ a, (![2, 0, 0] : Fin 3 → Nat) a + S1x2048x256.size a ≤ S4x2048x256.size a
  inb_S4x2048_S1x2048_2_0 : ∀ a, (![2, 0] : Fin 2 → Nat) a + S1x2048.size a ≤ S4x2048.size a
  inb_S4x1024x256_S1x1024x256_2_0_0 : ∀ a, (![2, 0, 0] : Fin 3 → Nat) a + S1x1024x256.size a ≤ S4x1024x256.size a
  inb_S4x1024_S1x1024_2_0 : ∀ a, (![2, 0] : Fin 2 → Nat) a + S1x1024.size a ≤ S4x1024.size a
  inb_S3x1024x1024_S1x1024x1024_1_0_0 : ∀ a, (![1, 0, 0] : Fin 3 → Nat) a + S1x1024x1024.size a ≤ S3x1024x1024.size a
  inb_S4x2048x256_S1x2048x256_3_0_0 : ∀ a, (![3, 0, 0] : Fin 3 → Nat) a + S1x2048x256.size a ≤ S4x2048x256.size a
  inb_S4x2048_S1x2048_3_0 : ∀ a, (![3, 0] : Fin 2 → Nat) a + S1x2048.size a ≤ S4x2048.size a
  inb_S4x1024x256_S1x1024x256_3_0_0 : ∀ a, (![3, 0, 0] : Fin 3 → Nat) a + S1x1024x256.size a ≤ S4x1024x256.size a
  inb_S4x1024_S1x1024_3_0 : ∀ a, (![3, 0] : Fin 2 → Nat) a + S1x1024.size a ≤ S4x1024.size a
  inb_S3x1024x1024_S1x1024x1024_2_0_0 : ∀ a, (![2, 0, 0] : Fin 3 → Nat) a + S1x1024x1024.size a ≤ S3x1024x1024.size a
  inb_S512x1024_S512x1024_0_0 : ∀ a, (![0, 0] : Fin 2 → Nat) a + S512x1024.size a ≤ S512x1024.size a
  h_S512x1024 : 0 < S512x1024.numel
  dot_S512x256_S2048x256_S512x2048_1_1_0_0_n_n_wf : DotDims.WF S512x256 S2048x256 S512x2048 [1] [1] [0] [0] [] []
  dot_S512x256_S1024x256_S512x1024_1_1_0_0_n_n_wf : DotDims.WF S512x256 S1024x256 S512x1024 [1] [1] [0] [0] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1024x256.size a ≤ S4x1024x256.size a
  hwx0_2 : ∀ i : grid0.Coords, EltTy.bits .bf16 = 32 ∨ (Rect.block (s := S4x1024x256) S4x1024x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1024.size a ≤ S4x1024.size a
  hwx0_3 : ∀ i : grid0.Coords, EltTy.bits .f32 = 32 ∨ (Rect.block (s := S4x1024) S4x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x2048x256.size a ≤ S4x2048x256.size a
  hwx0_4 : ∀ i : grid0.Coords, EltTy.bits .bf16 = 32 ∨ (Rect.block (s := S4x2048x256) S4x2048x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x2048.size a ≤ S4x2048.size a
  hwx0_5 : ∀ i : grid0.Coords, EltTy.bits .f32 = 32 ∨ (Rect.block (s := S4x2048) S4x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x1024x1024.size a ≤ S3x1024x1024.size a
  hwx0_6 : ∀ i : grid0.Coords, EltTy.bits .bf16 = 32 ∨ (Rect.block (s := S3x1024x1024) S3x1024x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .f32 = 32 ∨ (Rect.block (s := S8192x1024) S512x1024.size (cc0_transform_7 i) (hinb0_7 i)).WholeWords (EltTy.packing .f32)

variable [Facts₀]

def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf
def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v7) S4x1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v26) S4x2048x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v27) S4x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v25) S3x1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x256 : Shape := ⟨2, ![8192, 256]⟩
abbrev S4x1024x256 : Shape := ⟨3, ![4, 1024, 256]⟩
abbrev S4x1024 : Shape := ⟨2, ![4, 1024]⟩
abbrev S3x1024x1024 : Shape := ⟨3, ![3, 1024, 1024]⟩
abbrev S256 : Shape := ⟨1, ![256]⟩
abbrev S1x1024x256 : Shape := ⟨3, ![1, 1024, 256]⟩
abbrev S1024x256 : Shape := ⟨2, ![1024, 256]⟩
abbrev S_ : Shape := ⟨0, ![]⟩
abbrev S1x256 : Shape := ⟨2, ![1, 256]⟩
abbrev S256x1024 : Shape := ⟨2, ![256, 1024]⟩
abbrev S8192x1024 : Shape := ⟨2, ![8192, 1024]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩

abbrev nBuf : Space → Nat
  | .hbm => 472
  | .vmem => 0
  | .smem => 0
  | _ => 0

abbrev hbmTy0_0 (i : Nat) : BufTy := match i % 128 with
  | 0 => ⟨S8192x256, .f32⟩
  | 1 => ⟨S8192x256, .f32⟩
  | 2 => ⟨S4x1024x256, .f32⟩
  | 3 => ⟨S4x1024, .f32⟩
  | 4 => ⟨S4x1024x256, .f32⟩
  | 5 => ⟨S4x1024, .f32⟩
  | 6 => ⟨S4x1024x256, .f32⟩
  | 7 => ⟨S4x1024, .f32⟩
  | 8 => ⟨S3x1024x1024, .f32⟩
  | 9 => ⟨S256, .f32⟩
  | 10 => ⟨S256, .f32⟩
  | 11 => ⟨S1x1024x256, .f32⟩
  | 12 => ⟨S1024x256, .f32⟩
  | 13 => ⟨S_, .f32⟩
  | 14 => ⟨S1024x256, .f32⟩
  | 15 => ⟨S1024x256, .f32⟩
  | 16 => ⟨S1024x256, .f32⟩
  | 17 => ⟨S1024x256, .f32⟩
  | 18 => ⟨S1024x256, .i1⟩
  | 19 => ⟨S1024x256, .f32⟩
  | 20 => ⟨S1024x256, .f32⟩
  | 21 => ⟨S1024x256, .f32⟩
  | 22 => ⟨S1024x256, .f32⟩
  | 23 => ⟨S1024x256, .f32⟩
  | 24 => ⟨S1024x256, .f32⟩
  | 25 => ⟨S1024x256, .f32⟩
  | 26 => ⟨S1024x256, .f32⟩
  | 27 => ⟨S_, .f32⟩
  | 28 => ⟨S256, .f32⟩
  | 29 => ⟨S256, .i1⟩
  | 30 => ⟨S1x256, .f32⟩
  | 31 => ⟨S1024x256, .f32⟩
  | 32 => ⟨S1024x256, .f32⟩
  | 33 => ⟨S1024x256, .i1⟩
  | 34 => ⟨S1024x256, .f32⟩
  | 35 => ⟨S256x1024, .f32⟩
  | 36 => ⟨S8192x1024, .f32⟩
  | 37 => ⟨S1x1024, .f32⟩
  | 38 => ⟨S1024, .f32⟩
  | 39 => ⟨S1x1024, .f32⟩
  | 40 => ⟨S8192x1024, .f32⟩
  | 41 => ⟨S8192x1024, .f32⟩
  | 42 => ⟨S_, .f32⟩
  | 43 => ⟨S8192x1024, .f32⟩
  | 44 => ⟨S8192x1024, .f32⟩
  | 45 => ⟨S1x1024x256, .f32⟩
  | 46 => ⟨S1024x256, .f32⟩
  | 47 => ⟨S_, .f32⟩
  | 48 => ⟨S1024x256, .f32⟩
  | 49 => ⟨S1024x256, .f32⟩
  | 50 => ⟨S1024x256, .f32⟩
  | 51 => ⟨S1024x256, .f32⟩
  | 52 => ⟨S1024x256, .i1⟩
  | 53 => ⟨S1024x256, .f32⟩
  | 54 => ⟨S1024x256, .f32⟩
  | 55 => ⟨S1024x256, .f32⟩
  | 56 => ⟨S1024x256, .f32⟩
  | 57 => ⟨S1024x256, .f32⟩
  | 58 => ⟨S1024x256, .f32⟩
  | 59 => ⟨S1024x256, .f32⟩
  | 60 => ⟨S1024x256, .f32⟩
  | 61 => ⟨S_, .f32⟩
  | 62 => ⟨S256, .f32⟩
  | 63 => ⟨S256, .i1⟩
  | 64 => ⟨S1x256, .f32⟩
  | 65 => ⟨S1024x256, .f32⟩
  | 66 => ⟨S1024x256, .f32⟩
  | 67 => ⟨S1024x256, .i1⟩
  | 68 => ⟨S1024x256, .f32⟩
  | 69 => ⟨S256x1024, .f32⟩
  | 70 => ⟨S8192x1024, .f32⟩
  | 71 => ⟨S1x1024, .f32⟩
  | 72 => ⟨S1024, .f32⟩
  | 73 => ⟨S1x1024, .f32⟩
  | 74 => ⟨S8192x1024, .f32⟩
  | 75 => ⟨S8192x1024, .f32⟩
  | 76 => ⟨S1x1024x256, .f32⟩
  | 77 => ⟨S1024x256, .f32⟩
  | 78 => ⟨S_, .f32⟩
  | 79 => ⟨S1024x256, .f32⟩
  | 80 => ⟨S1024x256, .f32⟩
  | 81 => ⟨S1024x256, .f32⟩
  | 82 => ⟨S1024x256, .f32⟩
  | 83 => ⟨S1024x256, .i1⟩
  | 84 => ⟨S1024x256, .f32⟩
  | 85 => ⟨S1024x256, .f32⟩
  | 86 => ⟨S1024x256, .f32⟩
  | 87 => ⟨S1024x256, .f32⟩
  | 88 => ⟨S1024x256, .f32⟩
  | 89 => ⟨S1024x256, .f32⟩
  | 90 => ⟨S1024x256, .f32⟩
  | 91 => ⟨S1024x256, .f32⟩
  | 92 => ⟨S_, .f32⟩
  | 93 => ⟨S256, .f32⟩
  | 94 => ⟨S256, .i1⟩
  | 95 => ⟨S1x256, .f32⟩
  | 96 => ⟨S1024x256, .f32⟩
  | 97 => ⟨S1024x256, .f32⟩
  | 98 => ⟨S1024x256, .i1⟩
  | 99 => ⟨S1024x256, .f32⟩
  | 100 => ⟨S256x1024, .f32⟩
  | 101 => ⟨S8192x1024, .f32⟩
  | 102 => ⟨S8192x1024, .f32⟩
  | 103 => ⟨S1x1024, .f32⟩
  | 104 => ⟨S1024, .f32⟩
  | 105 => ⟨S1x1024, .f32⟩
  | 106 => ⟨S8192x1024, .f32⟩
  | 107 => ⟨S8192x1024, .f32⟩
  | 108 => ⟨S8192x1024, .f32⟩
  | 109 => ⟨S_, .f32⟩
  | 110 => ⟨S8192x1024, .f32⟩
  | 111 => ⟨S8192x1024, .f32⟩
  | 112 => ⟨S1x1024x256, .f32⟩
  | 113 => ⟨S1024x256, .f32⟩
  | 114 => ⟨S_, .f32⟩
  | 115 => ⟨S1024x256, .f32⟩
  | 116 => ⟨S1024x256, .f32⟩
  | 117 => ⟨S1024x256, .f32⟩
  | 118 => ⟨S1024x256, .f32⟩
  | 119 => ⟨S1024x256, .i1⟩
  | 120 => ⟨S1024x256, .f32⟩
  | 121 => ⟨S1024x256, .f32⟩
  | 122 => ⟨S1024x256, .f32⟩
  | 123 => ⟨S1024x256, .f32⟩
  | 124 => ⟨S1024x256, .f32⟩
  | 125 => ⟨S1024x256, .f32⟩
  | 126 => ⟨S1024x256, .f32⟩
  | 127 => ⟨S1024x256, .f32⟩
  | _ => ⟨S8192x256, .f32⟩

abbrev hbmTy0_1 (i : Nat) : BufTy := match i % 128 with
  | 0 => ⟨S_, .f32⟩
  | 1 => ⟨S256, .f32⟩
  | 2 => ⟨S256, .i1⟩
  | 3 => ⟨S1x256, .f32⟩
  | 4 => ⟨S1024x256, .f32⟩
  | 5 => ⟨S1024x256, .f32⟩
  | 6 => ⟨S1024x256, .i1⟩
  | 7 => ⟨S1024x256, .f32⟩
  | 8 => ⟨S256x1024, .f32⟩
  | 9 => ⟨S8192x1024, .f32⟩
  | 10 => ⟨S1x1024, .f32⟩
  | 11 => ⟨S1024, .f32⟩
  | 12 => ⟨S1x1024, .f32⟩
  | 13 => ⟨S8192x1024, .f32⟩
  | 14 => ⟨S8192x1024, .f32⟩
  | 15 => ⟨S_, .f32⟩
  | 16 => ⟨S8192x1024, .f32⟩
  | 17 => ⟨S8192x1024, .f32⟩
  | 18 => ⟨S1x1024x256, .f32⟩
  | 19 => ⟨S1024x256, .f32⟩
  | 20 => ⟨S_, .f32⟩
  | 21 => ⟨S1024x256, .f32⟩
  | 22 => ⟨S1024x256, .f32⟩
  | 23 => ⟨S1024x256, .f32⟩
  | 24 => ⟨S1024x256, .f32⟩
  | 25 => ⟨S1024x256, .i1⟩
  | 26 => ⟨S1024x256, .f32⟩
  | 27 => ⟨S1024x256, .f32⟩
  | 28 => ⟨S1024x256, .f32⟩
  | 29 => ⟨S1024x256, .f32⟩
  | 30 => ⟨S1024x256, .f32⟩
  | 31 => ⟨S1024x256, .f32⟩
  | 32 => ⟨S1024x256, .f32⟩
  | 33 => ⟨S1024x256, .f32⟩
  | 34 => ⟨S_, .f32⟩
  | 35 => ⟨S256, .f32⟩
  | 36 => ⟨S256, .i1⟩
  | 37 => ⟨S1x256, .f32⟩
  | 38 => ⟨S1024x256, .f32⟩
  | 39 => ⟨S1024x256, .f32⟩
  | 40 => ⟨S1024x256, .i1⟩
  | 41 => ⟨S1024x256, .f32⟩
  | 42 => ⟨S256x1024, .f32⟩
  | 43 => ⟨S8192x1024, .f32⟩
  | 44 => ⟨S1x1024, .f32⟩
  | 45 => ⟨S1024, .f32⟩
  | 46 => ⟨S1x1024, .f32⟩
  | 47 => ⟨S8192x1024, .f32⟩
  | 48 => ⟨S8192x1024, .f32⟩
  | 49 => ⟨S1x1024x256, .f32⟩
  | 50 => ⟨S1024x256, .f32⟩
  | 51 => ⟨S_, .f32⟩
  | 52 => ⟨S1024x256, .f32⟩
  | 53 => ⟨S1024x256, .f32⟩
  | 54 => ⟨S1024x256, .f32⟩
  | 55 => ⟨S1024x256, .f32⟩
  | 56 => ⟨S1024x256, .i1⟩
  | 57 => ⟨S1024x256, .f32⟩
  | 58 => ⟨S1024x256, .f32⟩
  | 59 => ⟨S1024x256, .f32⟩
  | 60 => ⟨S1024x256, .f32⟩
  | 61 => ⟨S1024x256, .f32⟩
  | 62 => ⟨S1024x256, .f32⟩
  | 63 => ⟨S1024x256, .f32⟩
  | 64 => ⟨S1024x256, .f32⟩
  | 65 => ⟨S_, .f32⟩
  | 66 => ⟨S256, .f32⟩
  | 67 => ⟨S256, .i1⟩
  | 68 => ⟨S1x256, .f32⟩
  | 69 => ⟨S1024x256, .f32⟩
  | 70 => ⟨S1024x256, .f32⟩
  | 71 => ⟨S1024x256, .i1⟩
  | 72 => ⟨S1024x256, .f32⟩
  | 73 => ⟨S256x1024, .f32⟩
  | 74 => ⟨S8192x1024, .f32⟩
  | 75 => ⟨S8192x1024, .f32⟩
  | 76 => ⟨S1x1024, .f32⟩
  | 77 => ⟨S1024, .f32⟩
  | 78 => ⟨S1x1024, .f32⟩
  | 79 => ⟨S8192x1024, .f32⟩
  | 80 => ⟨S8192x1024, .f32⟩
  | 81 => ⟨S1x1024x1024, .f32⟩
  | 82 => ⟨S1024x1024, .f32⟩
  | 83 => ⟨S_, .f32⟩
  | 84 => ⟨S1024x1024, .f32⟩
  | 85 => ⟨S1024x1024, .f32⟩
  | 86 => ⟨S1024x1024, .f32⟩
  | 87 => ⟨S1024x1024, .f32⟩
  | 88 => ⟨S1024x1024, .i1⟩
  | 89 => ⟨S1024x1024, .f32⟩
  | 90 => ⟨S1024x1024, .f32⟩
  | 91 => ⟨S1024x1024, .f32⟩
  | 92 => ⟨S1024x1024, .f32⟩
  | 93 => ⟨S1024x1024, .f32⟩
  | 94 => ⟨S1024x1024, .f32⟩
  | 95 => ⟨S1024x1024, .f32⟩
  | 96 => ⟨S1024x1024, .f32⟩
  | 97 => ⟨S1024x1024, .f32⟩
  | 98 => ⟨S8192x1024, .f32⟩
  | 99 => ⟨S8192x1024, .f32⟩
  | 100 => ⟨S8192x1024, .f32⟩
  | 101 => ⟨S_, .f32⟩
  | 102 => ⟨S8192x1024, .f32⟩
  | 103 => ⟨S8192x1024, .f32⟩
  | 104 => ⟨S1x1024x256, .f32⟩
  | 105 => ⟨S1024x256, .f32⟩
  | 106 => ⟨S_, .f32⟩
  | 107 => ⟨S1024x256, .f32⟩
  | 108 => ⟨S1024x256, .f32⟩
  | 109 => ⟨S1024x256, .f32⟩
  | 110 => ⟨S1024x256, .f32⟩
  | 111 => ⟨S1024x256, .i1⟩
  | 112 => ⟨S1024x256, .f32⟩
  | 113 => ⟨S1024x256, .f32⟩
  | 114 => ⟨S1024x256, .f32⟩
  | 115 => ⟨S1024x256, .f32⟩
  | 116 => ⟨S1024x256, .f32⟩
  | 117 => ⟨S1024x256, .f32⟩
  | 118 => ⟨S1024x256, .f32⟩
  | 119 => ⟨S1024x256, .f32⟩
  | 120 => ⟨S_, .f32⟩
  | 121 => ⟨S256, .f32⟩
  | 122 => ⟨S256, .i1⟩
  | 123 => ⟨S1x256, .f32⟩
  | 124 => ⟨S1024x256, .f32⟩
  | 125 => ⟨S1024x256, .f32⟩
  | 126 => ⟨S1024x256, .i1⟩
  | 127 => ⟨S1024x256, .f32⟩
  | _ => ⟨S8192x256, .f32⟩

abbrev hbmTy0_2 (i : Nat) : BufTy := match i % 128 with
  | 0 => ⟨S256x1024, .f32⟩
  | 1 => ⟨S8192x1024, .f32⟩
  | 2 => ⟨S1x1024, .f32⟩
  | 3 => ⟨S1024, .f32⟩
  | 4 => ⟨S1x1024, .f32⟩
  | 5 => ⟨S8192x1024, .f32⟩
  | 6 => ⟨S8192x1024, .f32⟩
  | 7 => ⟨S_, .f32⟩
  | 8 => ⟨S8192x1024, .f32⟩
  | 9 => ⟨S8192x1024, .f32⟩
  | 10 => ⟨S1x1024x256, .f32⟩
  | 11 => ⟨S1024x256, .f32⟩
  | 12 => ⟨S_, .f32⟩
  | 13 => ⟨S1024x256, .f32⟩
  | 14 => ⟨S1024x256, .f32⟩
  | 15 => ⟨S1024x256, .f32⟩
  | 16 => ⟨S1024x256, .f32⟩
  | 17 => ⟨S1024x256, .i1⟩
  | 18 => ⟨S1024x256, .f32⟩
  | 19 => ⟨S1024x256, .f32⟩
  | 20 => ⟨S1024x256, .f32⟩
  | 21 => ⟨S1024x256, .f32⟩
  | 22 => ⟨S1024x256, .f32⟩
  | 23 => ⟨S1024x256, .f32⟩
  | 24 => ⟨S1024x256, .f32⟩
  | 25 => ⟨S1024x256, .f32⟩
  | 26 => ⟨S_, .f32⟩
  | 27 => ⟨S256, .f32⟩
  | 28 => ⟨S256, .i1⟩
  | 29 => ⟨S1x256, .f32⟩
  | 30 => ⟨S1024x256, .f32⟩
  | 31 => ⟨S1024x256, .f32⟩
  | 32 => ⟨S1024x256, .i1⟩
  | 33 => ⟨S1024x256, .f32⟩
  | 34 => ⟨S256x1024, .f32⟩
  | 35 => ⟨S8192x1024, .f32⟩
  | 36 => ⟨S1x1024, .f32⟩
  | 37 => ⟨S1024, .f32⟩
  | 38 => ⟨S1x1024, .f32⟩
  | 39 => ⟨S8192x1024, .f32⟩
  | 40 => ⟨S8192x1024, .f32⟩
  | 41 => ⟨S1x1024x256, .f32⟩
  | 42 => ⟨S1024x256, .f32⟩
  | 43 => ⟨S_, .f32⟩
  | 44 => ⟨S1024x256, .f32⟩
  | 45 => ⟨S1024x256, .f32⟩
  | 46 => ⟨S1024x256, .f32⟩
  | 47 => ⟨S1024x256, .f32⟩
  | 48 => ⟨S1024x256, .i1⟩
  | 49 => ⟨S1024x256, .f32⟩
  | 50 => ⟨S1024x256, .f32⟩
  | 51 => ⟨S1024x256, .f32⟩
  | 52 => ⟨S1024x256, .f32⟩
  | 53 => ⟨S1024x256, .f32⟩
  | 54 => ⟨S1024x256, .f32⟩
  | 55 => ⟨S1024x256, .f32⟩
  | 56 => ⟨S1024x256, .f32⟩
  | 57 => ⟨S_, .f32⟩
  | 58 => ⟨S256, .f32⟩
  | 59 => ⟨S256, .i1⟩
  | 60 => ⟨S1x256, .f32⟩
  | 61 => ⟨S1024x256, .f32⟩
  | 62 => ⟨S1024x256, .f32⟩
  | 63 => ⟨S1024x256, .i1⟩
  | 64 => ⟨S1024x256, .f32⟩
  | 65 => ⟨S256x1024, .f32⟩
  | 66 => ⟨S8192x1024, .f32⟩
  | 67 => ⟨S8192x1024, .f32⟩
  | 68 => ⟨S1x1024, .f32⟩
  | 69 => ⟨S1024, .f32⟩
  | 70 => ⟨S1x1024, .f32⟩
  | 71 => ⟨S8192x1024, .f32⟩
  | 72 => ⟨S8192x1024, .f32⟩
  | 73 => ⟨S1x1024x1024, .f32⟩
  | 74 => ⟨S1024x1024, .f32⟩
  | 75 => ⟨S_, .f32⟩
  | 76 => ⟨S1024x1024, .f32⟩
  | 77 => ⟨S1024x1024, .f32⟩
  | 78 => ⟨S1024x1024, .f32⟩
  | 79 => ⟨S1024x1024, .f32⟩
  | 80 => ⟨S1024x1024, .i1⟩
  | 81 => ⟨S1024x1024, .f32⟩
  | 82 => ⟨S1024x1024, .f32⟩
  | 83 => ⟨S1024x1024, .f32⟩
  | 84 => ⟨S1024x1024, .f32⟩
  | 85 => ⟨S1024x1024, .f32⟩
  | 86 => ⟨S1024x1024, .f32⟩
  | 87 => ⟨S1024x1024, .f32⟩
  | 88 => ⟨S1024x1024, .f32⟩
  | 89 => ⟨S1024x1024, .f32⟩
  | 90 => ⟨S8192x1024, .f32⟩
  | 91 => ⟨S8192x1024, .f32⟩
  | 92 => ⟨S8192x1024, .f32⟩
  | 93 => ⟨S_, .f32⟩
  | 94 => ⟨S8192x1024, .f32⟩
  | 95 => ⟨S8192x1024, .f32⟩
  | 96 => ⟨S1x1024x256, .f32⟩
  | 97 => ⟨S1024x256, .f32⟩
  | 98 => ⟨S_, .f32⟩
  | 99 => ⟨S1024x256, .f32⟩
  | 100 => ⟨S1024x256, .f32⟩
  | 101 => ⟨S1024x256, .f32⟩
  | 102 => ⟨S1024x256, .f32⟩
  | 103 => ⟨S1024x256, .i1⟩
  | 104 => ⟨S1024x256, .f32⟩
  | 105 => ⟨S1024x256, .f32⟩
  | 106 => ⟨S1024x256, .f32⟩
  | 107 => ⟨S1024x256, .f32⟩
  | 108 => ⟨S1024x256, .f32⟩
  | 109 => ⟨S1024x256, .f32⟩
  | 110 => ⟨S1024x256, .f32⟩
  | 111 => ⟨S1024x256, .f32⟩
  | 112 => ⟨S_, .f32⟩
  | 113 => ⟨S256, .f32⟩
  | 114 => ⟨S256, .i1⟩
  | 115 => ⟨S1x256, .f32⟩
  | 116 => ⟨S1024x256, .f32⟩
  | 117 => ⟨S1024x256, .f32⟩
  | 118 => ⟨S1024x256, .i1⟩
  | 119 => ⟨S1024x256, .f32⟩
  | 120 => ⟨S256x1024, .f32⟩
  | 121 => ⟨S8192x1024, .f32⟩
  | 122 => ⟨S1x1024, .f32⟩
  | 123 => ⟨S1024, .f32⟩
  | 124 => ⟨S1x1024, .f32⟩
  | 125 => ⟨S8192x1024, .f32⟩
  | 126 => ⟨S8192x1024, .f32⟩
  | 127 => ⟨S_, .f32⟩
  | _ => ⟨S8192x256, .f32⟩

abbrev hbmTy0_3 (i : Nat) : BufTy := match i % 128 with
  | 0 => ⟨S8192x1024, .f32⟩
  | 1 => ⟨S8192x1024, .f32⟩
  | 2 => ⟨S1x1024x256, .f32⟩
  | 3 => ⟨S1024x256, .f32⟩
  | 4 => ⟨S_, .f32⟩
  | 5 => ⟨S1024x256, .f32⟩
  | 6 => ⟨S1024x256, .f32⟩
  | 7 => ⟨S1024x256, .f32⟩
  | 8 => ⟨S1024x256, .f32⟩
  | 9 => ⟨S1024x256, .i1⟩
  | 10 => ⟨S1024x256, .f32⟩
  | 11 => ⟨S1024x256, .f32⟩
  | 12 => ⟨S1024x256, .f32⟩
  | 13 => ⟨S1024x256, .f32⟩
  | 14 => ⟨S1024x256, .f32⟩
  | 15 => ⟨S1024x256, .f32⟩
  | 16 => ⟨S1024x256, .f32⟩
  | 17 => ⟨S1024x256, .f32⟩
  | 18 => ⟨S_, .f32⟩
  | 19 => ⟨S256, .f32⟩
  | 20 => ⟨S256, .i1⟩
  | 21 => ⟨S1x256, .f32⟩
  | 22 => ⟨S1024x256, .f32⟩
  | 23 => ⟨S1024x256, .f32⟩
  | 24 => ⟨S1024x256, .i1⟩
  | 25 => ⟨S1024x256, .f32⟩
  | 26 => ⟨S256x1024, .f32⟩
  | 27 => ⟨S8192x1024, .f32⟩
  | 28 => ⟨S1x1024, .f32⟩
  | 29 => ⟨S1024, .f32⟩
  | 30 => ⟨S1x1024, .f32⟩
  | 31 => ⟨S8192x1024, .f32⟩
  | 32 => ⟨S8192x1024, .f32⟩
  | 33 => ⟨S1x1024x256, .f32⟩
  | 34 => ⟨S1024x256, .f32⟩
  | 35 => ⟨S_, .f32⟩
  | 36 => ⟨S1024x256, .f32⟩
  | 37 => ⟨S1024x256, .f32⟩
  | 38 => ⟨S1024x256, .f32⟩
  | 39 => ⟨S1024x256, .f32⟩
  | 40 => ⟨S1024x256, .i1⟩
  | 41 => ⟨S1024x256, .f32⟩
  | 42 => ⟨S1024x256, .f32⟩
  | 43 => ⟨S1024x256, .f32⟩
  | 44 => ⟨S1024x256, .f32⟩
  | 45 => ⟨S1024x256, .f32⟩
  | 46 => ⟨S1024x256, .f32⟩
  | 47 => ⟨S1024x256, .f32⟩
  | 48 => ⟨S1024x256, .f32⟩
  | 49 => ⟨S_, .f32⟩
  | 50 => ⟨S256, .f32⟩
  | 51 => ⟨S256, .i1⟩
  | 52 => ⟨S1x256, .f32⟩
  | 53 => ⟨S1024x256, .f32⟩
  | 54 => ⟨S1024x256, .f32⟩
  | 55 => ⟨S1024x256, .i1⟩
  | 56 => ⟨S1024x256, .f32⟩
  | 57 => ⟨S256x1024, .f32⟩
  | 58 => ⟨S8192x1024, .f32⟩
  | 59 => ⟨S8192x1024, .f32⟩
  | 60 => ⟨S1x1024, .f32⟩
  | 61 => ⟨S1024, .f32⟩
  | 62 => ⟨S1x1024, .f32⟩
  | 63 => ⟨S8192x1024, .f32⟩
  | 64 => ⟨S8192x1024, .f32⟩
  | 65 => ⟨S1x1024x1024, .f32⟩
  | 66 => ⟨S1024x1024, .f32⟩
  | 67 => ⟨S_, .f32⟩
  | 68 => ⟨S1024x1024, .f32⟩
  | 69 => ⟨S1024x1024, .f32⟩
  | 70 => ⟨S1024x1024, .f32⟩
  | 71 => ⟨S1024x1024, .f32⟩
  | 72 => ⟨S1024x1024, .i1⟩
  | 73 => ⟨S1024x1024, .f32⟩
  | 74 => ⟨S1024x1024, .f32⟩
  | 75 => ⟨S1024x1024, .f32⟩
  | 76 => ⟨S1024x1024, .f32⟩
  | 77 => ⟨S1024x1024, .f32⟩
  | 78 => ⟨S1024x1024, .f32⟩
  | 79 => ⟨S1024x1024, .f32⟩
  | 80 => ⟨S1024x1024, .f32⟩
  | 81 => ⟨S1024x1024, .f32⟩
  | 82 => ⟨S8192x1024, .f32⟩
  | 83 => ⟨S8192x1024, .f32⟩
  | 84 => ⟨S8192x1024, .f32⟩
  | 85 => ⟨S_, .f32⟩
  | 86 => ⟨S8192x1024, .f32⟩
  | 87 => ⟨S8192x1024, .f32⟩
  | _ => ⟨S8192x256, .f32⟩

abbrev hbmTy (i : Nat) : BufTy := match i / 128 with
  | 0 => hbmTy0_0 i
  | 1 => hbmTy0_1 i
  | 2 => hbmTy0_2 i
  | 3 => hbmTy0_3 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_v1 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v2 : Ref sig .tc := ⟨.hbm, 26, rfl⟩
abbrev main_cst_1 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_call1_v0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_call2_cst : Ref sig .tc := ⟨.hbm, 42, rfl⟩
abbrev main_call2_v0 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_call3_cst : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_call3_v6 : Ref sig .tc := ⟨.hbm, 54, rfl⟩
abbrev main_call3_v7 : Ref sig .tc := ⟨.hbm, 55, rfl⟩
abbrev main_call3_v8 : Ref sig .tc := ⟨.hbm, 56, rfl⟩
abbrev main_call3_v9 : Ref sig .tc := ⟨.hbm, 57, rfl⟩
abbrev main_call3_v10 : Ref sig .tc := ⟨.hbm, 58, rfl⟩
abbrev main_call3_v11 : Ref sig .tc := ⟨.hbm, 59, rfl⟩
abbrev main_v19 : Ref sig .tc := ⟨.hbm, 60, rfl⟩
abbrev main_cst_2 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_call4_v0 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_call5_cst : Ref sig .tc := ⟨.hbm, 78, rfl⟩
abbrev main_call5_v0 : Ref sig .tc := ⟨.hbm, 79, rfl⟩
abbrev main_call5_v1 : Ref sig .tc := ⟨.hbm, 80, rfl⟩
abbrev main_call5_v2 : Ref sig .tc := ⟨.hbm, 81, rfl⟩
abbrev main_call5_v3 : Ref sig .tc := ⟨.hbm, 82, rfl⟩
abbrev main_call5_v4 : Ref sig .tc := ⟨.hbm, 83, rfl⟩
abbrev main_call5_v5 : Ref sig .tc := ⟨.hbm, 84, rfl⟩
abbrev main_call5_v6 : Ref sig .tc := ⟨.hbm, 85, rfl⟩
abbrev main_call5_v7 : Ref sig .tc := ⟨.hbm, 86, rfl⟩
abbrev main_call5_v8 : Ref sig .tc := ⟨.hbm, 87, rfl⟩
abbrev main_call5_v9 : Ref sig .tc := ⟨.hbm, 88, rfl⟩
abbrev main_call5_v10 : Ref sig .tc := ⟨.hbm, 89, rfl⟩
abbrev main_call5_v11 : Ref sig .tc := ⟨.hbm, 90, rfl⟩
abbrev main_v35 : Ref sig .tc := ⟨.hbm, 91, rfl⟩
abbrev main_cst_3 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_call6_v0 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_call7_cst : Ref sig .tc := ⟨.hbm, 109, rfl⟩
abbrev main_call7_v0 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_call8_cst : Ref sig .tc := ⟨.hbm, 114, rfl⟩
abbrev main_call8_v0 : Ref sig .tc := ⟨.hbm, 115, rfl⟩
abbrev main_call8_v1 : Ref sig .tc := ⟨.hbm, 116, rfl⟩
abbrev main_call8_v2 : Ref sig .tc := ⟨.hbm, 117, rfl⟩
abbrev main_call8_v3 : Ref sig .tc := ⟨.hbm, 118, rfl⟩
abbrev main_call8_v4 : Ref sig .tc := ⟨.hbm, 119, rfl⟩
abbrev main_call8_v5 : Ref sig .tc := ⟨.hbm, 120, rfl⟩
abbrev main_call8_v6 : Ref sig .tc := ⟨.hbm, 121, rfl⟩
abbrev main_call8_v7 : Ref sig .tc := ⟨.hbm, 122, rfl⟩
abbrev main_call8_v8 : Ref sig .tc := ⟨.hbm, 123, rfl⟩
abbrev main_call8_v9 : Ref sig .tc := ⟨.hbm, 124, rfl⟩
abbrev main_call8_v10 : Ref sig .tc := ⟨.hbm, 125, rfl⟩
abbrev main_call8_v11 : Ref sig .tc := ⟨.hbm, 126, rfl⟩
abbrev main_v54 : Ref sig .tc := ⟨.hbm, 127, rfl⟩
abbrev main_cst_4 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_call9_v0 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_call10_cst : Ref sig .tc := ⟨.hbm, 143, rfl⟩
abbrev main_call10_v0 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_call11_cst : Ref sig .tc := ⟨.hbm, 148, rfl⟩
abbrev main_call11_v0 : Ref sig .tc := ⟨.hbm, 149, rfl⟩
abbrev main_call11_v1 : Ref sig .tc := ⟨.hbm, 150, rfl⟩
abbrev main_call11_v2 : Ref sig .tc := ⟨.hbm, 151, rfl⟩
abbrev main_call11_v3 : Ref sig .tc := ⟨.hbm, 152, rfl⟩
abbrev main_call11_v4 : Ref sig .tc := ⟨.hbm, 153, rfl⟩
abbrev main_call11_v5 : Ref sig .tc := ⟨.hbm, 154, rfl⟩
abbrev main_call11_v6 : Ref sig .tc := ⟨.hbm, 155, rfl⟩
abbrev main_call11_v7 : Ref sig .tc := ⟨.hbm, 156, rfl⟩
abbrev main_call11_v8 : Ref sig .tc := ⟨.hbm, 157, rfl⟩
abbrev main_call11_v9 : Ref sig .tc := ⟨.hbm, 158, rfl⟩
abbrev main_call11_v10 : Ref sig .tc := ⟨.hbm, 159, rfl⟩
abbrev main_call11_v11 : Ref sig .tc := ⟨.hbm, 160, rfl⟩
abbrev main_v71 : Ref sig .tc := ⟨.hbm, 161, rfl⟩
abbrev main_cst_5 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev main_call12_v0 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩
abbrev main_v83 : Ref sig .tc := ⟨.hbm, 175, rfl⟩
abbrev main_v84 : Ref sig .tc := ⟨.hbm, 176, rfl⟩
abbrev main_v85 : Ref sig .tc := ⟨.hbm, 177, rfl⟩
abbrev main_v86 : Ref sig .tc := ⟨.hbm, 178, rfl⟩
abbrev main_call13_cst : Ref sig .tc := ⟨.hbm, 179, rfl⟩
abbrev main_call13_v0 : Ref sig .tc := ⟨.hbm, 180, rfl⟩
abbrev main_call13_v1 : Ref sig .tc := ⟨.hbm, 181, rfl⟩
abbrev main_call13_v2 : Ref sig .tc := ⟨.hbm, 182, rfl⟩
abbrev main_call13_v3 : Ref sig .tc := ⟨.hbm, 183, rfl⟩
abbrev main_call13_v4 : Ref sig .tc := ⟨.hbm, 184, rfl⟩
abbrev main_call13_v5 : Ref sig .tc := ⟨.hbm, 185, rfl⟩
abbrev main_call13_v6 : Ref sig .tc := ⟨.hbm, 186, rfl⟩
abbrev main_call13_v7 : Ref sig .tc := ⟨.hbm, 187, rfl⟩
abbrev main_call13_v8 : Ref sig .tc := ⟨.hbm, 188, rfl⟩
abbrev main_call13_v9 : Ref sig .tc := ⟨.hbm, 189, rfl⟩
abbrev main_call13_v10 : Ref sig .tc := ⟨.hbm, 190, rfl⟩
abbrev main_call13_v11 : Ref sig .tc := ⟨.hbm, 191, rfl⟩
abbrev main_v87 : Ref sig .tc := ⟨.hbm, 192, rfl⟩
abbrev main_cst_6 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_v91 : Ref sig .tc := ⟨.hbm, 197, rfl⟩
abbrev main_v92 : Ref sig .tc := ⟨.hbm, 198, rfl⟩
abbrev main_call14_v0 : Ref sig .tc := ⟨.hbm, 199, rfl⟩
abbrev main_v93 : Ref sig .tc := ⟨.hbm, 200, rfl⟩
abbrev main_v94 : Ref sig .tc := ⟨.hbm, 201, rfl⟩
abbrev main_v95 : Ref sig .tc := ⟨.hbm, 202, rfl⟩
abbrev main_v96 : Ref sig .tc := ⟨.hbm, 203, rfl⟩
abbrev main_v97 : Ref sig .tc := ⟨.hbm, 204, rfl⟩
abbrev main_v98 : Ref sig .tc := ⟨.hbm, 205, rfl⟩
abbrev main_v99 : Ref sig .tc := ⟨.hbm, 206, rfl⟩
abbrev main_v100 : Ref sig .tc := ⟨.hbm, 207, rfl⟩
abbrev main_v101 : Ref sig .tc := ⟨.hbm, 208, rfl⟩
abbrev main_v102 : Ref sig .tc := ⟨.hbm, 209, rfl⟩
abbrev main_v103 : Ref sig .tc := ⟨.hbm, 210, rfl⟩
abbrev main_call15_cst : Ref sig .tc := ⟨.hbm, 211, rfl⟩
abbrev main_call15_v0 : Ref sig .tc := ⟨.hbm, 212, rfl⟩
abbrev main_call15_v1 : Ref sig .tc := ⟨.hbm, 213, rfl⟩
abbrev main_call15_v2 : Ref sig .tc := ⟨.hbm, 214, rfl⟩
abbrev main_call15_v3 : Ref sig .tc := ⟨.hbm, 215, rfl⟩
abbrev main_call15_v4 : Ref sig .tc := ⟨.hbm, 216, rfl⟩
abbrev main_call15_v5 : Ref sig .tc := ⟨.hbm, 217, rfl⟩
abbrev main_call15_v6 : Ref sig .tc := ⟨.hbm, 218, rfl⟩
abbrev main_call15_v7 : Ref sig .tc := ⟨.hbm, 219, rfl⟩
abbrev main_call15_v8 : Ref sig .tc := ⟨.hbm, 220, rfl⟩
abbrev main_call15_v9 : Ref sig .tc := ⟨.hbm, 221, rfl⟩
abbrev main_call15_v10 : Ref sig .tc := ⟨.hbm, 222, rfl⟩
abbrev main_call15_v11 : Ref sig .tc := ⟨.hbm, 223, rfl⟩
abbrev main_v104 : Ref sig .tc := ⟨.hbm, 224, rfl⟩
abbrev main_v105 : Ref sig .tc := ⟨.hbm, 225, rfl⟩
abbrev main_v106 : Ref sig .tc := ⟨.hbm, 226, rfl⟩
abbrev main_v107 : Ref sig .tc := ⟨.hbm, 227, rfl⟩
abbrev main_v108 : Ref sig .tc := ⟨.hbm, 228, rfl⟩
abbrev main_call16_cst : Ref sig .tc := ⟨.hbm, 229, rfl⟩
abbrev main_call16_v0 : Ref sig .tc := ⟨.hbm, 230, rfl⟩
abbrev main_v109 : Ref sig .tc := ⟨.hbm, 231, rfl⟩
abbrev main_v110 : Ref sig .tc := ⟨.hbm, 232, rfl⟩
abbrev main_v111 : Ref sig .tc := ⟨.hbm, 233, rfl⟩
abbrev main_call17_cst : Ref sig .tc := ⟨.hbm, 234, rfl⟩
abbrev main_call17_v0 : Ref sig .tc := ⟨.hbm, 235, rfl⟩
abbrev main_call17_v1 : Ref sig .tc := ⟨.hbm, 236, rfl⟩
abbrev main_call17_v2 : Ref sig .tc := ⟨.hbm, 237, rfl⟩
abbrev main_call17_v3 : Ref sig .tc := ⟨.hbm, 238, rfl⟩
abbrev main_call17_v4 : Ref sig .tc := ⟨.hbm, 239, rfl⟩
abbrev main_call17_v5 : Ref sig .tc := ⟨.hbm, 240, rfl⟩
abbrev main_call17_v6 : Ref sig .tc := ⟨.hbm, 241, rfl⟩
abbrev main_call17_v7 : Ref sig .tc := ⟨.hbm, 242, rfl⟩
abbrev main_call17_v8 : Ref sig .tc := ⟨.hbm, 243, rfl⟩
abbrev main_call17_v9 : Ref sig .tc := ⟨.hbm, 244, rfl⟩
abbrev main_call17_v10 : Ref sig .tc := ⟨.hbm, 245, rfl⟩
abbrev main_call17_v11 : Ref sig .tc := ⟨.hbm, 246, rfl⟩
abbrev main_v112 : Ref sig .tc := ⟨.hbm, 247, rfl⟩
abbrev main_cst_7 : Ref sig .tc := ⟨.hbm, 248, rfl⟩
abbrev main_v113 : Ref sig .tc := ⟨.hbm, 249, rfl⟩
abbrev main_v114 : Ref sig .tc := ⟨.hbm, 250, rfl⟩
abbrev main_v115 : Ref sig .tc := ⟨.hbm, 251, rfl⟩
abbrev main_v116 : Ref sig .tc := ⟨.hbm, 252, rfl⟩
abbrev main_v117 : Ref sig .tc := ⟨.hbm, 253, rfl⟩
abbrev main_call18_v0 : Ref sig .tc := ⟨.hbm, 254, rfl⟩
abbrev main_v118 : Ref sig .tc := ⟨.hbm, 255, rfl⟩
abbrev main_v119 : Ref sig .tc := ⟨.hbm, 256, rfl⟩
abbrev main_v120 : Ref sig .tc := ⟨.hbm, 257, rfl⟩
abbrev main_v121 : Ref sig .tc := ⟨.hbm, 258, rfl⟩
abbrev main_v122 : Ref sig .tc := ⟨.hbm, 259, rfl⟩
abbrev main_v123 : Ref sig .tc := ⟨.hbm, 260, rfl⟩
abbrev main_v124 : Ref sig .tc := ⟨.hbm, 261, rfl⟩
abbrev main_v125 : Ref sig .tc := ⟨.hbm, 262, rfl⟩
abbrev main_call19_cst : Ref sig .tc := ⟨.hbm, 263, rfl⟩
abbrev main_call19_v0 : Ref sig .tc := ⟨.hbm, 264, rfl⟩
abbrev main_v126 : Ref sig .tc := ⟨.hbm, 265, rfl⟩
abbrev main_v127 : Ref sig .tc := ⟨.hbm, 266, rfl⟩
abbrev main_v128 : Ref sig .tc := ⟨.hbm, 267, rfl⟩
abbrev main_call20_cst : Ref sig .tc := ⟨.hbm, 268, rfl⟩
abbrev main_call20_v0 : Ref sig .tc := ⟨.hbm, 269, rfl⟩
abbrev main_call20_v1 : Ref sig .tc := ⟨.hbm, 270, rfl⟩
abbrev main_call20_v2 : Ref sig .tc := ⟨.hbm, 271, rfl⟩
abbrev main_call20_v3 : Ref sig .tc := ⟨.hbm, 272, rfl⟩
abbrev main_call20_v4 : Ref sig .tc := ⟨.hbm, 273, rfl⟩
abbrev main_call20_v5 : Ref sig .tc := ⟨.hbm, 274, rfl⟩
abbrev main_call20_v6 : Ref sig .tc := ⟨.hbm, 275, rfl⟩
abbrev main_call20_v7 : Ref sig .tc := ⟨.hbm, 276, rfl⟩
abbrev main_call20_v8 : Ref sig .tc := ⟨.hbm, 277, rfl⟩
abbrev main_call20_v9 : Ref sig .tc := ⟨.hbm, 278, rfl⟩
abbrev main_call20_v10 : Ref sig .tc := ⟨.hbm, 279, rfl⟩
abbrev main_call20_v11 : Ref sig .tc := ⟨.hbm, 280, rfl⟩
abbrev main_v129 : Ref sig .tc := ⟨.hbm, 281, rfl⟩
abbrev main_cst_8 : Ref sig .tc := ⟨.hbm, 282, rfl⟩
abbrev main_v130 : Ref sig .tc := ⟨.hbm, 283, rfl⟩
abbrev main_v131 : Ref sig .tc := ⟨.hbm, 284, rfl⟩
abbrev main_v132 : Ref sig .tc := ⟨.hbm, 285, rfl⟩
abbrev main_v133 : Ref sig .tc := ⟨.hbm, 286, rfl⟩
abbrev main_v134 : Ref sig .tc := ⟨.hbm, 287, rfl⟩
abbrev main_call21_v0 : Ref sig .tc := ⟨.hbm, 288, rfl⟩
abbrev main_v135 : Ref sig .tc := ⟨.hbm, 289, rfl⟩
abbrev main_v136 : Ref sig .tc := ⟨.hbm, 290, rfl⟩
abbrev main_v137 : Ref sig .tc := ⟨.hbm, 291, rfl⟩
abbrev main_v138 : Ref sig .tc := ⟨.hbm, 292, rfl⟩
abbrev main_v139 : Ref sig .tc := ⟨.hbm, 293, rfl⟩
abbrev main_v140 : Ref sig .tc := ⟨.hbm, 294, rfl⟩
abbrev main_v141 : Ref sig .tc := ⟨.hbm, 295, rfl⟩
abbrev main_v142 : Ref sig .tc := ⟨.hbm, 296, rfl⟩
abbrev main_v143 : Ref sig .tc := ⟨.hbm, 297, rfl⟩
abbrev main_v144 : Ref sig .tc := ⟨.hbm, 298, rfl⟩
abbrev main_call22_cst : Ref sig .tc := ⟨.hbm, 299, rfl⟩
abbrev main_call22_v0 : Ref sig .tc := ⟨.hbm, 300, rfl⟩
abbrev main_call22_v1 : Ref sig .tc := ⟨.hbm, 301, rfl⟩
abbrev main_call22_v2 : Ref sig .tc := ⟨.hbm, 302, rfl⟩
abbrev main_call22_v3 : Ref sig .tc := ⟨.hbm, 303, rfl⟩
abbrev main_call22_v4 : Ref sig .tc := ⟨.hbm, 304, rfl⟩
abbrev main_call22_v5 : Ref sig .tc := ⟨.hbm, 305, rfl⟩
abbrev main_call22_v6 : Ref sig .tc := ⟨.hbm, 306, rfl⟩
abbrev main_call22_v7 : Ref sig .tc := ⟨.hbm, 307, rfl⟩
abbrev main_call22_v8 : Ref sig .tc := ⟨.hbm, 308, rfl⟩
abbrev main_call22_v9 : Ref sig .tc := ⟨.hbm, 309, rfl⟩
abbrev main_call22_v10 : Ref sig .tc := ⟨.hbm, 310, rfl⟩
abbrev main_call22_v11 : Ref sig .tc := ⟨.hbm, 311, rfl⟩
abbrev main_v145 : Ref sig .tc := ⟨.hbm, 312, rfl⟩
abbrev main_cst_9 : Ref sig .tc := ⟨.hbm, 313, rfl⟩
abbrev main_v146 : Ref sig .tc := ⟨.hbm, 314, rfl⟩
abbrev main_v147 : Ref sig .tc := ⟨.hbm, 315, rfl⟩
abbrev main_v148 : Ref sig .tc := ⟨.hbm, 316, rfl⟩
abbrev main_v149 : Ref sig .tc := ⟨.hbm, 317, rfl⟩
abbrev main_v150 : Ref sig .tc := ⟨.hbm, 318, rfl⟩
abbrev main_call23_v0 : Ref sig .tc := ⟨.hbm, 319, rfl⟩
abbrev main_v151 : Ref sig .tc := ⟨.hbm, 320, rfl⟩
abbrev main_v152 : Ref sig .tc := ⟨.hbm, 321, rfl⟩
abbrev main_v153 : Ref sig .tc := ⟨.hbm, 322, rfl⟩
abbrev main_v154 : Ref sig .tc := ⟨.hbm, 323, rfl⟩
abbrev main_v155 : Ref sig .tc := ⟨.hbm, 324, rfl⟩
abbrev main_v156 : Ref sig .tc := ⟨.hbm, 325, rfl⟩
abbrev main_v157 : Ref sig .tc := ⟨.hbm, 326, rfl⟩
abbrev main_v158 : Ref sig .tc := ⟨.hbm, 327, rfl⟩
abbrev main_v159 : Ref sig .tc := ⟨.hbm, 328, rfl⟩
abbrev main_v160 : Ref sig .tc := ⟨.hbm, 329, rfl⟩
abbrev main_v161 : Ref sig .tc := ⟨.hbm, 330, rfl⟩
abbrev main_call24_cst : Ref sig .tc := ⟨.hbm, 331, rfl⟩
abbrev main_call24_v0 : Ref sig .tc := ⟨.hbm, 332, rfl⟩
abbrev main_call24_v1 : Ref sig .tc := ⟨.hbm, 333, rfl⟩
abbrev main_call24_v2 : Ref sig .tc := ⟨.hbm, 334, rfl⟩
abbrev main_call24_v3 : Ref sig .tc := ⟨.hbm, 335, rfl⟩
abbrev main_call24_v4 : Ref sig .tc := ⟨.hbm, 336, rfl⟩
abbrev main_call24_v5 : Ref sig .tc := ⟨.hbm, 337, rfl⟩
abbrev main_call24_v6 : Ref sig .tc := ⟨.hbm, 338, rfl⟩
abbrev main_call24_v7 : Ref sig .tc := ⟨.hbm, 339, rfl⟩
abbrev main_call24_v8 : Ref sig .tc := ⟨.hbm, 340, rfl⟩
abbrev main_call24_v9 : Ref sig .tc := ⟨.hbm, 341, rfl⟩
abbrev main_call24_v10 : Ref sig .tc := ⟨.hbm, 342, rfl⟩
abbrev main_call24_v11 : Ref sig .tc := ⟨.hbm, 343, rfl⟩
abbrev main_v162 : Ref sig .tc := ⟨.hbm, 344, rfl⟩
abbrev main_v163 : Ref sig .tc := ⟨.hbm, 345, rfl⟩
abbrev main_v164 : Ref sig .tc := ⟨.hbm, 346, rfl⟩
abbrev main_v165 : Ref sig .tc := ⟨.hbm, 347, rfl⟩
abbrev main_v166 : Ref sig .tc := ⟨.hbm, 348, rfl⟩
abbrev main_call25_cst : Ref sig .tc := ⟨.hbm, 349, rfl⟩
abbrev main_call25_v0 : Ref sig .tc := ⟨.hbm, 350, rfl⟩
abbrev main_v167 : Ref sig .tc := ⟨.hbm, 351, rfl⟩
abbrev main_v168 : Ref sig .tc := ⟨.hbm, 352, rfl⟩
abbrev main_v169 : Ref sig .tc := ⟨.hbm, 353, rfl⟩
abbrev main_call26_cst : Ref sig .tc := ⟨.hbm, 354, rfl⟩
abbrev main_call26_v0 : Ref sig .tc := ⟨.hbm, 355, rfl⟩
abbrev main_call26_v1 : Ref sig .tc := ⟨.hbm, 356, rfl⟩
abbrev main_call26_v2 : Ref sig .tc := ⟨.hbm, 357, rfl⟩
abbrev main_call26_v3 : Ref sig .tc := ⟨.hbm, 358, rfl⟩
abbrev main_call26_v4 : Ref sig .tc := ⟨.hbm, 359, rfl⟩
abbrev main_call26_v5 : Ref sig .tc := ⟨.hbm, 360, rfl⟩
abbrev main_call26_v6 : Ref sig .tc := ⟨.hbm, 361, rfl⟩
abbrev main_call26_v7 : Ref sig .tc := ⟨.hbm, 362, rfl⟩
abbrev main_call26_v8 : Ref sig .tc := ⟨.hbm, 363, rfl⟩
abbrev main_call26_v9 : Ref sig .tc := ⟨.hbm, 364, rfl⟩
abbrev main_call26_v10 : Ref sig .tc := ⟨.hbm, 365, rfl⟩
abbrev main_call26_v11 : Ref sig .tc := ⟨.hbm, 366, rfl⟩
abbrev main_v170 : Ref sig .tc := ⟨.hbm, 367, rfl⟩
abbrev main_cst_10 : Ref sig .tc := ⟨.hbm, 368, rfl⟩
abbrev main_v171 : Ref sig .tc := ⟨.hbm, 369, rfl⟩
abbrev main_v172 : Ref sig .tc := ⟨.hbm, 370, rfl⟩
abbrev main_v173 : Ref sig .tc := ⟨.hbm, 371, rfl⟩
abbrev main_v174 : Ref sig .tc := ⟨.hbm, 372, rfl⟩
abbrev main_v175 : Ref sig .tc := ⟨.hbm, 373, rfl⟩
abbrev main_call27_v0 : Ref sig .tc := ⟨.hbm, 374, rfl⟩
abbrev main_v176 : Ref sig .tc := ⟨.hbm, 375, rfl⟩
abbrev main_v177 : Ref sig .tc := ⟨.hbm, 376, rfl⟩
abbrev main_v178 : Ref sig .tc := ⟨.hbm, 377, rfl⟩
abbrev main_v179 : Ref sig .tc := ⟨.hbm, 378, rfl⟩
abbrev main_v180 : Ref sig .tc := ⟨.hbm, 379, rfl⟩
abbrev main_v181 : Ref sig .tc := ⟨.hbm, 380, rfl⟩
abbrev main_v182 : Ref sig .tc := ⟨.hbm, 381, rfl⟩
abbrev main_v183 : Ref sig .tc := ⟨.hbm, 382, rfl⟩
abbrev main_call28_cst : Ref sig .tc := ⟨.hbm, 383, rfl⟩
abbrev main_call28_v0 : Ref sig .tc := ⟨.hbm, 384, rfl⟩
abbrev main_v184 : Ref sig .tc := ⟨.hbm, 385, rfl⟩
abbrev main_v185 : Ref sig .tc := ⟨.hbm, 386, rfl⟩
abbrev main_v186 : Ref sig .tc := ⟨.hbm, 387, rfl⟩
abbrev main_call29_cst : Ref sig .tc := ⟨.hbm, 388, rfl⟩
abbrev main_call29_v0 : Ref sig .tc := ⟨.hbm, 389, rfl⟩
abbrev main_call29_v1 : Ref sig .tc := ⟨.hbm, 390, rfl⟩
abbrev main_call29_v2 : Ref sig .tc := ⟨.hbm, 391, rfl⟩
abbrev main_call29_v3 : Ref sig .tc := ⟨.hbm, 392, rfl⟩
abbrev main_call29_v4 : Ref sig .tc := ⟨.hbm, 393, rfl⟩
abbrev main_call29_v5 : Ref sig .tc := ⟨.hbm, 394, rfl⟩
abbrev main_call29_v6 : Ref sig .tc := ⟨.hbm, 395, rfl⟩
abbrev main_call29_v7 : Ref sig .tc := ⟨.hbm, 396, rfl⟩
abbrev main_call29_v8 : Ref sig .tc := ⟨.hbm, 397, rfl⟩
abbrev main_call29_v9 : Ref sig .tc := ⟨.hbm, 398, rfl⟩
abbrev main_call29_v10 : Ref sig .tc := ⟨.hbm, 399, rfl⟩
abbrev main_call29_v11 : Ref sig .tc := ⟨.hbm, 400, rfl⟩
abbrev main_v187 : Ref sig .tc := ⟨.hbm, 401, rfl⟩
abbrev main_cst_11 : Ref sig .tc := ⟨.hbm, 402, rfl⟩
abbrev main_v188 : Ref sig .tc := ⟨.hbm, 403, rfl⟩
abbrev main_v189 : Ref sig .tc := ⟨.hbm, 404, rfl⟩
abbrev main_v190 : Ref sig .tc := ⟨.hbm, 405, rfl⟩
abbrev main_v191 : Ref sig .tc := ⟨.hbm, 406, rfl⟩
abbrev main_v192 : Ref sig .tc := ⟨.hbm, 407, rfl⟩
abbrev main_call30_v0 : Ref sig .tc := ⟨.hbm, 408, rfl⟩
abbrev main_v193 : Ref sig .tc := ⟨.hbm, 409, rfl⟩
abbrev main_v194 : Ref sig .tc := ⟨.hbm, 410, rfl⟩
abbrev main_v195 : Ref sig .tc := ⟨.hbm, 411, rfl⟩
abbrev main_v196 : Ref sig .tc := ⟨.hbm, 412, rfl⟩
abbrev main_v197 : Ref sig .tc := ⟨.hbm, 413, rfl⟩
abbrev main_v198 : Ref sig .tc := ⟨.hbm, 414, rfl⟩
abbrev main_v199 : Ref sig .tc := ⟨.hbm, 415, rfl⟩
abbrev main_v200 : Ref sig .tc := ⟨.hbm, 416, rfl⟩
abbrev main_v201 : Ref sig .tc := ⟨.hbm, 417, rfl⟩
abbrev main_v202 : Ref sig .tc := ⟨.hbm, 418, rfl⟩
abbrev main_call31_cst : Ref sig .tc := ⟨.hbm, 419, rfl⟩
abbrev main_call31_v0 : Ref sig .tc := ⟨.hbm, 420, rfl⟩
abbrev main_call31_v1 : Ref sig .tc := ⟨.hbm, 421, rfl⟩
abbrev main_call31_v2 : Ref sig .tc := ⟨.hbm, 422, rfl⟩
abbrev main_call31_v3 : Ref sig .tc := ⟨.hbm, 423, rfl⟩
abbrev main_call31_v4 : Ref sig .tc := ⟨.hbm, 424, rfl⟩
abbrev main_call31_v5 : Ref sig .tc := ⟨.hbm, 425, rfl⟩
abbrev main_call31_v6 : Ref sig .tc := ⟨.hbm, 426, rfl⟩
abbrev main_call31_v7 : Ref sig .tc := ⟨.hbm, 427, rfl⟩
abbrev main_call31_v8 : Ref sig .tc := ⟨.hbm, 428, rfl⟩
abbrev main_call31_v9 : Ref sig .tc := ⟨.hbm, 429, rfl⟩
abbrev main_call31_v10 : Ref sig .tc := ⟨.hbm, 430, rfl⟩
abbrev main_call31_v11 : Ref sig .tc := ⟨.hbm, 431, rfl⟩
abbrev main_v203 : Ref sig .tc := ⟨.hbm, 432, rfl⟩
abbrev main_cst_12 : Ref sig .tc := ⟨.hbm, 433, rfl⟩
abbrev main_v204 : Ref sig .tc := ⟨.hbm, 434, rfl⟩
abbrev main_v205 : Ref sig .tc := ⟨.hbm, 435, rfl⟩
abbrev main_v206 : Ref sig .tc := ⟨.hbm, 436, rfl⟩
abbrev main_v207 : Ref sig .tc := ⟨.hbm, 437, rfl⟩
abbrev main_v208 : Ref sig .tc := ⟨.hbm, 438, rfl⟩
abbrev main_call32_v0 : Ref sig .tc := ⟨.hbm, 439, rfl⟩
abbrev main_v209 : Ref sig .tc := ⟨.hbm, 440, rfl⟩
abbrev main_v210 : Ref sig .tc := ⟨.hbm, 441, rfl⟩
abbrev main_v211 : Ref sig .tc := ⟨.hbm, 442, rfl⟩
abbrev main_v212 : Ref sig .tc := ⟨.hbm, 443, rfl⟩
abbrev main_v213 : Ref sig .tc := ⟨.hbm, 444, rfl⟩
abbrev main_v214 : Ref sig .tc := ⟨.hbm, 445, rfl⟩
abbrev main_v215 : Ref sig .tc := ⟨.hbm, 446, rfl⟩
abbrev main_v216 : Ref sig .tc := ⟨.hbm, 447, rfl⟩
abbrev main_v217 : Ref sig .tc := ⟨.hbm, 448, rfl⟩
abbrev main_v218 : Ref sig .tc := ⟨.hbm, 449, rfl⟩
abbrev main_v219 : Ref sig .tc := ⟨.hbm, 450, rfl⟩
abbrev main_call33_cst : Ref sig .tc := ⟨.hbm, 451, rfl⟩
abbrev main_call33_v0 : Ref sig .tc := ⟨.hbm, 452, rfl⟩
abbrev main_call33_v1 : Ref sig .tc := ⟨.hbm, 453, rfl⟩
abbrev main_call33_v2 : Ref sig .tc := ⟨.hbm, 454, rfl⟩
abbrev main_call33_v3 : Ref sig .tc := ⟨.hbm, 455, rfl⟩
abbrev main_call33_v4 : Ref sig .tc := ⟨.hbm, 456, rfl⟩
abbrev main_call33_v5 : Ref sig .tc := ⟨.hbm, 457, rfl⟩
abbrev main_call33_v6 : Ref sig .tc := ⟨.hbm, 458, rfl⟩
abbrev main_call33_v7 : Ref sig .tc := ⟨.hbm, 459, rfl⟩
abbrev main_call33_v8 : Ref sig .tc := ⟨.hbm, 460, rfl⟩
abbrev main_call33_v9 : Ref sig .tc := ⟨.hbm, 461, rfl⟩
abbrev main_call33_v10 : Ref sig .tc := ⟨.hbm, 462, rfl⟩
abbrev main_call33_v11 : Ref sig .tc := ⟨.hbm, 463, rfl⟩
abbrev main_v220 : Ref sig .tc := ⟨.hbm, 464, rfl⟩
abbrev main_v221 : Ref sig .tc := ⟨.hbm, 465, rfl⟩
abbrev main_v222 : Ref sig .tc := ⟨.hbm, 466, rfl⟩
abbrev main_v223 : Ref sig .tc := ⟨.hbm, 467, rfl⟩
abbrev main_v224 : Ref sig .tc := ⟨.hbm, 468, rfl⟩
abbrev main_call34_cst : Ref sig .tc := ⟨.hbm, 469, rfl⟩
abbrev main_call34_v0 : Ref sig .tc := ⟨.hbm, 470, rfl⟩
abbrev main_v225 : Ref sig .tc := ⟨.hbm, 471, rfl⟩

abbrev nD : Nat := 1
abbrev τ : Topo := Topo.v7x

variable {F : FTy → Type} [FloatOps F]

class Facts₀ : Prop where
  slices_S4x1024x256_S1x1024x256_0_0_0 : S4x1024x256.Slices ![0, 0, 0] S1x1024x256
  shapeCasts_S1x1024x256_S1024x256 : S1x1024x256.ShapeCasts S1024x256
  bcast_S_S1024x256 : S_.BroadcastsInDim S1024x256 (![] : Fin 0 → Fin S1024x256.rank)
  bcast_S_S256 : S_.BroadcastsInDim S256 (![] : Fin 0 → Fin S256.rank)
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S256_S1024x256_1 : S256.BroadcastsInDim S1024x256 (![1] : Fin 1 → Fin S1024x256.rank)
  transposes_S1024x256_S256x1024_1_0 : S1024x256.Transposes [1, 0] S256x1024
  slices_S4x1024_S1x1024_0_0 : S4x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  slices_S4x1024x256_S1x1024x256_1_0_0 : S4x1024x256.Slices ![1, 0, 0] S1x1024x256
  slices_S4x1024_S1x1024_1_0 : S4x1024.Slices ![1, 0] S1x1024
  slices_S3x1024x1024_S1x1024x1024_0_0_0 : S3x1024x1024.Slices ![0, 0, 0] S1x1024x1024
  shapeCasts_S1x1024x1024_S1024x1024 : S1x1024x1024.ShapeCasts S1024x1024
  bcast_S_S1024x1024 : S_.BroadcastsInDim S1024x1024 (![] : Fin 0 → Fin S1024x1024.rank)
  transposes_S1024x1024_S1024x1024_1_0 : S1024x1024.Transposes [1, 0] S1024x1024
  slices_S4x1024x256_S1x1024x256_2_0_0 : S4x1024x256.Slices ![2, 0, 0] S1x1024x256
  slices_S4x1024_S1x1024_2_0 : S4x1024.Slices ![2, 0] S1x1024
  slices_S3x1024x1024_S1x1024x1024_1_0_0 : S3x1024x1024.Slices ![1, 0, 0] S1x1024x1024
  slices_S4x1024x256_S1x1024x256_3_0_0 : S4x1024x256.Slices ![3, 0, 0] S1x1024x256
  slices_S4x1024_S1x1024_3_0 : S4x1024.Slices ![3, 0] S1x1024
  slices_S3x1024x1024_S1x1024x1024_2_0_0 : S3x1024x1024.Slices ![2, 0, 0] S1x1024x1024
  dot_S8192x256_S256x1024_S8192x1024_1_0_0_1_n_n_wf : DotDims.WF S8192x256 S256x1024 S8192x1024 [1] [0] [0] [1] [] []
  dot_S8192x1024_S1024x1024_S8192x1024_1_0_0_1_n_n_wf : DotDims.WF S8192x1024 S1024x1024 S8192x1024 [1] [0] [0] [1] [] []

variable [Facts₀]

def dot_S8192x256_S256x1024_S8192x1024_1_0_0_1_n_n : DotDims S8192x256 S256x1024 S8192x1024 where
  lhsContracting := [1]
  rhsContracting := [0]
  lhsNonContracting := [0]
  rhsNonContracting := [1]
  lhsBatch := []
  rhsBatch := []
  wf := dot_S8192x256_S256x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.LibPlainDot.lean ====
/-
  A matrix product contracted over ONE axis, read at an entry as a sum over `Fin n`.

  The library reads a product at an entry `j` as a sum over the contraction's own index type, the operands read at the
  product's operand indices. When the contraction has one axis of extent `n`, and the operand indices at `j` are known
  functions `li`, `ri` of that axis's coordinate, the sum is over `k : Fin n` of the left operand at `li k` times the
  right operand at `ri k`. Also here: two rank-2 indices are equal when their coordinates are.
-/
import Idealize.ShloMosaic.Lib.ValueIdx
import Idealize.ShloMosaic.PureOps.Ideal.Laws

noncomputable section

namespace Cert.LibPlainDot

open Idealize.ShloMosaic

/-- Two indices of a rank-2 shape are equal when their two coordinates are equal as numbers. -/
theorem ext2 {n0 n1 : ℕ} (i i' : (⟨2, ![n0, n1]⟩ : Shape).Idx) (h0 : (i 0).val = (i' 0).val) (h1 : (i 1).val = (i' 1).val) :
    i = i' :=
  funext fun a => Fin.ext (match a with
    | ⟨0, _⟩ => h0
    | ⟨1, _⟩ => h1)

/-- The sum over a one-axis contraction, re-indexed by the axis's coordinate `k : Fin n`: given what the two operand
    indices are at each contraction index (`hl`, `hr`, stated through the coordinate), the product's sum at `j` is
    `∑ k, f (li k) * g (ri k)`. -/
theorem sum_contr {sl sr so : Shape} (d : DotDims sl sr so) (n : ℕ) (hrk : d.contr.rank = 1)
    (hs : d.contr.size ⟨0, by omega⟩ = n) (j : so.Idx) (f : sl.Idx → EReal) (g : sr.Idx → EReal)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    ∑ q : d.contr.Idx, f (d.lhsIdx j q) * g (d.rhsIdx j q) = ∑ k : Fin n, f (li k) * g (ri k) := by
  rw [← Equiv.sum_comp (ValueIdx.contrEquiv1 d n hrk hs)]
  exact Finset.sum_congr rfl fun q _ => by rw [hl q, hr q]

/-- A product into a zero accumulator on the vector unit, at the exact instance, read at an entry over `Fin n`. -/
theorem matmul_zero_apply {sl sr so : Shape} {φ₁ φ₂ : FTy} (d : DotDims sl sr so) (prec : Option ContractPrecision)
    (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.matmul d prec lhs rhs (constant so .f32 0x00000000#32) j = ∑ k : Fin n, lhs (li k) * rhs (ri k) :=
  (Ideal.matmul_constant_zero_apply d prec lhs rhs j).trans (sum_contr d n hrk hs j lhs rhs li ri hl hr)

/-- A host product at the exact instance, read at an entry over `Fin n`. -/
theorem dotGeneral_apply {sl sr so : Shape} {φ₁ φ₂ : FTy} (d : DotDims sl sr so) (prec : Option ContractPrecision)
    (sched : HostSchedule) (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.dotGeneral d prec sched lhs rhs j = ∑ k : Fin n, lhs (li k) * rhs (ri k) :=
  (Ideal.dotGeneral_apply d prec sched lhs rhs j).trans (sum_contr d n hrk hs j lhs rhs li ri hl hr)

end Cert.LibPlainDot

end
-- ==== Proof.KBlocks.lean ====
/-
  The pieces a layer of the fused body is made of, each read at one entry (p, o) of a 512-row block:
  a product against a weight matrix stored row by output (contracting both operands' last axes) as a sum over
  the contracted axis; a bias row spread over the block's rows; the two halves of a 2048-wide block; a load of
  one layer's slab out of a stacked weight array.
-/
import proofs.«150220_j44581760532841_2_alg».proof.Proof.Gen.KernelIdeal
import proofs.«150220_j44581760532841_2_alg».proof.Proof.LibPlainDot
import Idealize.ShloMosaic.Lib.Pipeline.Value
import Idealize.ShloMosaic.Lib.Pipeline.FrameBody
import Idealize.ShloMosaic.Lib.ValueLayout
import Idealize.ShloMosaic.Lib.ValueIdx

noncomputable section

open scoped BigOperators

namespace Cert.KernelIdeal.KBlocks

open Cert.KernelIdeal Cert.KernelIdeal.Gen Idealize.ShloMosaic Idealize.ShloMosaic.ValueIdx

/-- A load through a unit-stride rectangle reads the contents at the rectangle's offsets plus the local index. -/
theorem ld_unit_apply {Val : EltTy → Type} {S : Shape} {e : EltTy} (X : S.Idx → Val e) (off size : Fin S.rank → Nat)
    (inb : ∀ a, off a + size a ≤ S.size a) (y : (Rect.unit off size inb).shape.Idx) (k : S.Idx)
    (hk : ∀ a, (k a).val = off a + (y a).val) : View.ld X (Rect.unit off size inb) y = X k :=
  congrArg X (funext fun a => Fin.ext (by
    rw [hk a]
    show off a + 1 * (y a).val = off a + (y a).val
    rw [Nat.one_mul]))

/-- A [512,256] block times a [1,1024,256] weight slab (its unit axis dropped), both contracted over their last
    axis, into a zero accumulator: entry (p, o) is the sum over k of the row's entry times the slab's (o, k). -/
theorem dense_apply {φ : FTy} (X : FVec Ideal S512x256 φ) (W : Vec Ideal S1x1024x256 .bf16) (p : Fin 512) (o : Fin 1024) :
    matmul dot_S512x256_S1024x256_S512x1024_1_1_0_0_n_n none X
        (shapeCast S1024x256 W shapeCasts_S1x1024x256_S1024x256 : FVec Ideal S1024x256 .bf16) (constant S512x1024 .f32 0x00000000#32) (ix2 p o)
      = ∑ k : Fin 256, X (ix2 p k) * W (ix3 (0 : Fin 1) o k) := by
  refine (Cert.LibPlainDot.matmul_zero_apply dot_S512x256_S1024x256_S512x1024_1_1_0_0_n_n none 256 rfl rfl X _ (ix2 p o)
    (fun k => ix2 p k) (fun k => ix2 o k) (fun q => Cert.LibPlainDot.ext2 _ _ rfl rfl)
    (fun q => Cert.LibPlainDot.ext2 _ _ rfl rfl)).trans ?_
  exact Finset.sum_congr rfl fun k _ => congrArg (X (ix2 p k) * ·) (shapeCast_1ab_ab_apply W _ o k)

/-- The same against a [1,2048,256] slab: entry (p, r), r below 2048. -/
theorem dense2_apply {φ : FTy} (X : FVec Ideal S512x256 φ) (W : Vec Ideal S1x2048x256 .bf16) (p : Fin 512) (r : Fin 2048) :
    matmul dot_S512x256_S2048x256_S512x2048_1_1_0_0_n_n none X
        (shapeCast S2048x256 W shapeCasts_S1x2048x256_S2048x256 : FVec Ideal S2048x256 .bf16) (constant S512x2048 .f32 0x00000000#32) (ix2 p r)
      = ∑ k : Fin 256, X (ix2 p k) * W (ix3 (0 : Fin 1) r k) := by
  refine (Cert.LibPlainDot.matmul_zero_apply dot_S512x256_S2048x256_S512x2048_1_1_0_0_n_n none 256 rfl rfl X _ (ix2 p r)
    (fun k => ix2 p k) (fun k => ix2 r k) (fun q => Cert.LibPlainDot.ext2 _ _ rfl rfl)
    (fun q => Cert.LibPlainDot.ext2 _ _ rfl rfl)).trans ?_
  exact Finset.sum_congr rfl fun k _ => congrArg (X (ix2 p k) * ·) (shapeCast_1ab_ab_apply W _ r k)

/-- The previous layer's [512,1024] block times a [1,1024,1024] slab: entry (p, o) is the sum over j of the row's
    entry j times the slab's (o, j). -/
theorem rec_apply {φ : FTy} (Z : FVec Ideal S512x1024 φ) (W : Vec Ideal S1x1024x1024 .bf16) (p : Fin 512) (o : Fin 1024) :
    matmul dot_S512x1024_S1024x1024_S512x1024_1_1_0_0_n_n none Z
        (shapeCast S1024x1024 W shapeCasts_S1x1024x1024_S1024x1024 : FVec Ideal S1024x1024 .bf16) (constant S512x1024 .f32 0x00000000#32) (ix2 p o)
      = ∑ j : Fin 1024, Z (ix2 p j) * W (ix3 (0 : Fin 1) o j) := by
  refine (Cert.LibPlainDot.matmul_zero_apply dot_S512x1024_S1024x1024_S512x1024_1_1_0_0_n_n none 1024 rfl rfl Z _ (ix2 p o)
    (fun k => ix2 p k) (fun k => ix2 o k) (fun q => Cert.LibPlainDot.ext2 _ _ rfl rfl)
    (fun q => Cert.LibPlainDot.ext2 _ _ rfl rfl)).trans ?_
  exact Finset.sum_congr rfl fun k _ => congrArg (Z (ix2 p k) * ·) (shapeCast_1ab_ab_apply W _ o k)

/-- A [1,1024] bias row, flattened, put back as a row and spread over 512 rows, read at (p, o): the row's entry o. -/
theorem bias_apply (v : Vec Ideal S1x1024 .f32) (p : Fin 512) (o : Fin 1024) :
    (broadcastTo S512x1024 (shapeCast S1x1024 (shapeCast S1024 v shapeCasts_S1x1024_S1024 : FVec Ideal S1024 .f32) shapeCasts_S1024_S1x1024 : FVec Ideal S1x1024 .f32)
        broadcasts_S1x1024_S512x1024 : FVec Ideal S512x1024 .f32) (ix2 p o) = v (ix2 (0 : Fin 1) o) :=
  (broadcastTo_apply _ _ (ix2 p o) (ix2 (0 : Fin 1) o) (fun a => match a with | ⟨0, _⟩ => rfl | ⟨1, _⟩ => rfl)).trans
    ((shapeCast_a_1a_apply _ _ (0 : Fin 1) o).trans (shapeCast_1a_a_apply v _ o))

/-- The same for a [1,2048] row. -/
theorem bias2_apply (v : Vec Ideal S1x2048 .f32) (p : Fin 512) (r : Fin 2048) :
    (broadcastTo S512x2048 (shapeCast S1x2048 (shapeCast S2048 v shapeCasts_S1x2048_S2048 : FVec Ideal S2048 .f32) shapeCasts_S2048_S1x2048 : FVec Ideal S1x2048 .f32)
        broadcasts_S1x2048_S512x2048 : FVec Ideal S512x2048 .f32) (ix2 p r) = v (ix2 (0 : Fin 1) r) :=
  (broadcastTo_apply _ _ (ix2 p r) (ix2 (0 : Fin 1) r) (fun a => match a with | ⟨0, _⟩ => rfl | ⟨1, _⟩ => rfl)).trans
    ((shapeCast_a_1a_apply _ _ (0 : Fin 1) r).trans (shapeCast_1a_a_apply v _ r))

/-- The left half of a [512,2048] block, at (p, o): the block at column o. -/
theorem lo_apply (Y : FVec Ideal S512x2048 .f32) (p : Fin 512) (o : Fin 1024) :
    (extractStridedSlice S512x1024 ![0, 0] Y slices_S512x2048_o0_0_S512x1024 : FVec Ideal S512x1024 .f32) (ix2 p o)
      = Y (ix2 p (⟨o.val, by omega⟩ : Fin 2048)) :=
  extractStridedSlice_apply _ Y _ (ix2 p o) (ix2 p (⟨o.val, by omega⟩ : Fin 2048))
    (fun a => match a with | ⟨0, _⟩ => (Nat.zero_add _).symm | ⟨1, _⟩ => (Nat.zero_add _).symm)

/-- The right half, at (p, o): the block at column 1024 + o. -/
theorem hi_apply (Y : FVec Ideal S512x2048 .f32) (p : Fin 512) (o : Fin 1024) :
    (extractStridedSlice S512x1024 ![0, 1024] Y slices_S512x2048_o0_1024_S512x1024 : FVec Ideal S512x1024 .f32) (ix2 p o)
      = Y (ix2 p (⟨1024 + o.val, by omega⟩ : Fin 2048)) :=
  extractStridedSlice_apply _ Y _ (ix2 p o) (ix2 p (⟨1024 + o.val, by omega⟩ : Fin 2048))
    (fun a => match a with | ⟨0, _⟩ => (Nat.zero_add _).symm | ⟨1, _⟩ => rfl)

end Cert.KernelIdeal.KBlocks

end
-- ==== Proof.KLayers.lean ====
/-
  One layer of the fused body at an entry (p, o) of a block of 512 rows. Every layer computes, from the row's two
  inputs, one slab each of the stacked weights and biases, and (after the first) the previous layer's row,

      max ((((Σ xc·Wc + bc) + (Σ xf·Whi + bhi)) [+ Σ z·U]) + max (Σ xf·Wlo + blo) 0) 0

  where Wlo, blo are rows 0..1023 of the 2048-row slab (the gate's weights) and Whi, bhi rows 1024..2047 (the free
  path's). The four layers spell this with differently cut intermediate values; each is read here at (p, o).
-/
import proofs.«150220_j44581760532841_2_alg».proof.Proof.Gen.KernelIdeal.Skeleton
import proofs.«150220_j44581760532841_2_alg».proof.Proof.KBlocks

noncomputable section

open scoped BigOperators

namespace Cert.KernelIdeal.KLayers

open Cert.KernelIdeal Cert.KernelIdeal.Gen Cert.KernelIdeal.KBlocks Idealize.ShloMosaic Idealize.ShloMosaic.ValueIdx

/-- The zero the body compares against. -/
abbrev z : EReal := Scalar.ofBits (F := Ideal) .f32 0x00000000#32

/-- The gate's entry: max (Σ xf·Wlo + blo) 0. -/
def gateK (X1 : Vec Ideal S512x256 .f32) (Wcat : Vec Ideal S1x2048x256 .bf16) (bcat : Vec Ideal S1x2048 .f32) (p : Fin 512) (o : Fin 1024) : EReal :=
  max ((∑ k : Fin 256, X1 (ix2 p k) * Wcat (ix3 (0 : Fin 1) (⟨o.val, by omega⟩ : Fin 2048) k)) + bcat (ix2 (0 : Fin 1) (⟨o.val, by omega⟩ : Fin 2048))) z

/-- The free path's entry: Σ xf·Whi + bhi. -/
def freeK (X1 : Vec Ideal S512x256 .f32) (Wcat : Vec Ideal S1x2048x256 .bf16) (bcat : Vec Ideal S1x2048 .f32) (p : Fin 512) (o : Fin 1024) : EReal :=
  (∑ k : Fin 256, X1 (ix2 p k) * Wcat (ix3 (0 : Fin 1) (⟨1024 + o.val, by omega⟩ : Fin 2048) k)) + bcat (ix2 (0 : Fin 1) (⟨1024 + o.val, by omega⟩ : Fin 2048))

/-- The convex path's entry: Σ xc·Wc + bc. -/
def convK (X0 : Vec Ideal S512x256 .f32) (Wc : Vec Ideal S1x1024x256 .bf16) (bc : Vec Ideal S1x1024 .f32) (p : Fin 512) (o : Fin 1024) : EReal :=
  (∑ k : Fin 256, X0 (ix2 p k) * Wc (ix3 (0 : Fin 1) o k)) + bc (ix2 (0 : Fin 1) o)

/-- The 2048-wide sum before it is cut in halves, at (p, r). -/
theorem cat_apply {φ : FTy} (X : FVec Ideal S512x256 φ) (Wcat : Vec Ideal S1x2048x256 .bf16) (bcat : Vec Ideal S1x2048 .f32) (p : Fin 512) (r : Fin 2048) :
    (addf (matmul dot_S512x256_S2048x256_S512x2048_1_1_0_0_n_n none X
        (shapeCast S2048x256 Wcat shapeCasts_S1x2048x256_S2048x256 : FVec Ideal S2048x256 .bf16) (constant S512x2048 .f32 0x00000000#32))
      (broadcastTo S512x2048 (shapeCast S1x2048 (shapeCast S2048 bcat shapeCasts_S1x2048_S2048 : FVec Ideal S2048 .f32) shapeCasts_S2048_S1x2048 : FVec Ideal S1x2048 .f32)
        broadcasts_S1x2048_S512x2048 : FVec Ideal S512x2048 .f32) : FVec Ideal S512x2048 .f32) (ix2 p r)
      = (∑ k : Fin 256, X (ix2 p k) * Wcat (ix3 (0 : Fin 1) r k)) + bcat (ix2 (0 : Fin 1) r) := by
  rw [addf_apply, dense2_apply, bias2_apply]

/-- The first layer's block at (p, o). -/
theorem pay4_apply (X0 X1 : Vec Ideal S512x256 .f32) (Wcat : Vec Ideal S1x2048x256 .bf16) (bcat : Vec Ideal S1x2048 .f32)
    (Wc : Vec Ideal S1x1024x256 .bf16) (bc : Vec Ideal S1x1024 .f32) (p : Fin 512) (o : Fin 1024) :
    k0_pay4 X0 X1 Wcat bcat Wc bc (ix2 p o)
      = max (((convK X0 Wc bc p o) + (freeK X1 Wcat bcat p o)) + gateK X1 Wcat bcat p o) z := by
  unfold k0_pay4 k0_pay2 k0_pay3 convK freeK gateK
  simp only [maximumf_apply, addf_apply, lo_apply, hi_apply, dense_apply, dense2_apply, bias_apply, bias2_apply, broadcast_apply, truncf_apply]

/-- The second layer's block at (p, o), from the first layer's block `Z`. -/
theorem pay7_apply (X0 X1 : Vec Ideal S512x256 .f32) (Z : FVec Ideal S512x1024 .f32) (Wcat : Vec Ideal S1x2048x256 .bf16) (bcat : Vec Ideal S1x2048 .f32)
    (Wc : Vec Ideal S1x1024x256 .bf16) (bc : Vec Ideal S1x1024 .f32) (Uw : Vec Ideal S1x1024x1024 .bf16) (p : Fin 512) (o : Fin 1024) :
    k0_pay7 (k0_pay2 X0) Z (k0_pay5 X1 Wcat) (k0_pay6 bcat) Wc bc Uw (ix2 p o)
      = max ((((convK X0 Wc bc p o) + (freeK X1 Wcat bcat p o)) + ∑ j : Fin 1024, Z (ix2 p j) * Uw (ix3 (0 : Fin 1) o j)) + gateK X1 Wcat bcat p o) z := by
  unfold k0_pay7 k0_pay5 k0_pay6 k0_pay2 k0_pay3 convK freeK gateK
  simp only [maximumf_apply, addf_apply, lo_apply, hi_apply, dense_apply, dense2_apply, rec_apply, bias_apply, bias2_apply, broadcast_apply, truncf_apply]

/-- The third layer's block at (p, o), from the second layer's block `Z`. -/
theorem pay15_apply (X0 X1 : Vec Ideal S512x256 .f32) (Z : FVec Ideal S512x1024 .f32) (Wcat : Vec Ideal S1x2048x256 .bf16) (bcat : Vec Ideal S1x2048 .f32)
    (Wc : Vec Ideal S1x1024x256 .bf16) (bc : Vec Ideal S1x1024 .f32) (Uw : Vec Ideal S1x1024x1024 .bf16) (p : Fin 512) (o : Fin 1024) :
    k0_pay15 Z (k0_pay9 (k0_pay3 X1) Wcat bcat) (k0_pay10 (k0_pay3 X1) Wcat bcat) (k0_pay11 (k0_pay2 X0) Wc) bc Uw (ix2 p o)
      = max ((((convK X0 Wc bc p o) + (freeK X1 Wcat bcat p o)) + ∑ j : Fin 1024, Z (ix2 p j) * Uw (ix3 (0 : Fin 1) o j)) + gateK X1 Wcat bcat p o) z := by
  unfold k0_pay15 k0_pay9 k0_pay10 k0_pay8 k0_pay11 k0_pay2 k0_pay3 convK freeK gateK
  simp only [maximumf_apply, addf_apply, lo_apply, hi_apply, dense_apply, dense2_apply, rec_apply, bias_apply, bias2_apply, broadcast_apply, truncf_apply]

/-- The last layer's block at (p, o), from the third layer's block `Z`. -/
theorem pay1_apply (X0 X1 : Vec Ideal S512x256 .f32) (Z : FVec Ideal S512x1024 .bf16) (Wcat : Vec Ideal S1x2048x256 .bf16) (bcat : Vec Ideal S1x2048 .f32)
    (Wc : Vec Ideal S1x1024x256 .bf16) (bc : Vec Ideal S1x1024 .f32) (Uw : Vec Ideal S1x1024x1024 .bf16) (p : Fin 512) (o : Fin 1024) :
    k0_pay1 (k0_pay13 (k0_pay3 X1) Wcat bcat) (k0_pay14 (k0_pay2 X0) (k0_pay3 X1) Wcat bcat Wc bc) Z Uw (ix2 p o)
      = max ((((convK X0 Wc bc p o) + (freeK X1 Wcat bcat p o)) + ∑ j : Fin 1024, Z (ix2 p j) * Uw (ix3 (0 : Fin 1) o j)) + gateK X1 Wcat bcat p o) z := by
  unfold k0_pay1 k0_pay13 k0_pay14 k0_pay12 k0_pay2 k0_pay3 convK freeK gateK
  simp only [maximumf_apply, addf_apply, lo_apply, hi_apply, dense_apply, dense2_apply, rec_apply, bias_apply, bias2_apply, broadcast_apply, truncf_apply]

end Cert.KernelIdeal.KLayers

end
-- ==== Proof.Spec.lean ====
/-
  The function both programs compute: four layers of an input-convex network block on a batch of 8192 rows.

  Every weight entry first passes its column's sign: a column whose sign is not zero carries
  sign · softplus(w), any other column the raw entry. With these weights layer l sends the two inputs of a row,
  xc and xf (256 entries each), and the previous layer's row z (1024 entries) to

      z_l(b, o) = relu( (xc·Wc + bc) + xf·Wu + bu  [ + z_{l-1}·softplus(U) for l ≥ 1 ]  + relu(xf·Wut + but) ),

  every product a sum over the contracted axis, on the extended reals. softplus is kept in the source's own
  spelling at one entry (a select on a self-comparison over max(x, 0) + log1p(exp(-|x - 0|))) and never opened:
  both programs apply that same spelling entry by entry.
-/
import Idealize.ShloMosaic.Lib.ValueIdx
import Idealize.ShloMosaic.PureOps.Ideal.Laws

noncomputable section

open scoped BigOperators

namespace Cert.Spec

open Idealize.ShloMosaic Idealize.ShloMosaic.ValueIdx

/-- An array of extended reals of rank 1, 2, 3 with literal extents. -/
abbrev A1 (a : ℕ) := (⟨1, ![a]⟩ : Shape).Idx → EReal
abbrev A2 (a b : ℕ) := (⟨2, ![a, b]⟩ : Shape).Idx → EReal
abbrev A3 (a b c : ℕ) := (⟨3, ![a, b, c]⟩ : Shape).Idx → EReal

/-- The zero word's value. -/
def zr : EReal := FloatOps.ofBits (F := Ideal) .f32 0x00000000#32

/-- softplus at one entry, as the source spells it: where `x - 0` differs from itself, `x + 0`; elsewhere
    `max(x, 0) + log1p(exp(-|x - 0|))`. -/
def sp (x : EReal) : EReal :=
  Scalar.select (FloatOps.cmpf (F := Ideal) (φ := .f32) .une (FloatOps.subf (F := Ideal) (φ := .f32) x zr) (FloatOps.subf (F := Ideal) (φ := .f32) x zr))
    (FloatOps.addf (F := Ideal) (φ := .f32) x zr)
    (FloatOps.addf (F := Ideal) (φ := .f32) (FloatOps.maximumf (F := Ideal) (φ := .f32) x zr)
      (FloatOps.hostUnary (F := Ideal) (φ := .f32) .log1p (FloatOps.hostUnary (F := Ideal) (φ := .f32) .exp
        (FloatOps.hostNegf (F := Ideal) (φ := .f32) (FloatOps.hostAbsf (F := Ideal) (φ := .f32) (FloatOps.subf (F := Ideal) (φ := .f32) x zr))))))

/-- A weight entry `w` under its column's sign `s`: `s · softplus w` where `s` is not zero, `w` elsewhere. -/
def mw (s w : EReal) : EReal :=
  Scalar.select (FloatOps.cmpf (F := Ideal) (φ := .f32) .une s zr) (FloatOps.mulf (F := Ideal) (φ := .f32) s (sp w)) w

/-- relu at one entry. -/
def relu (x : EReal) : EReal := FloatOps.maximumf (F := Ideal) (φ := .f32) x zr

/-- The nine argument arrays and the two sign vectors (one per input side). -/
structure Inp where
  xc : A2 8192 256
  xf : A2 8192 256
  wc : A3 4 1024 256
  bc : A2 4 1024
  wu : A3 4 1024 256
  bu : A2 4 1024
  wut : A3 4 1024 256
  but : A2 4 1024
  ru : A3 3 1024 1024
  sc : A1 256
  sf : A1 256

variable (a : Inp)

/-- The signed weights, entry by entry. -/
def wcM (l : Fin 4) (o : Fin 1024) (k : Fin 256) : EReal := mw (a.sc (ix1 k)) (a.wc (ix3 l o k))
def wuM (l : Fin 4) (o : Fin 1024) (k : Fin 256) : EReal := mw (a.sf (ix1 k)) (a.wu (ix3 l o k))
def wutM (l : Fin 4) (o : Fin 1024) (k : Fin 256) : EReal := mw (a.sf (ix1 k)) (a.wut (ix3 l o k))
def uM (l : Fin 3) (o j : Fin 1024) : EReal := sp (a.ru (ix3 l o j))

/-- The gate of layer `l`: relu(xf·Wut + but). -/
def gate (l : Fin 4) (b : Fin 8192) (o : Fin 1024) : EReal :=
  relu ((∑ k : Fin 256, a.xf (ix2 b k) * wutM a l o k) + a.but (ix2 l o))

/-- The two input paths of layer `l`: ((xc·Wc + bc) + xf·Wu) + bu. -/
def base (l : Fin 4) (b : Fin 8192) (o : Fin 1024) : EReal :=
  (((∑ k : Fin 256, a.xc (ix2 b k) * wcM a l o k) + a.bc (ix2 l o)) + (∑ k : Fin 256, a.xf (ix2 b k) * wuM a l o k))
    + a.bu (ix2 l o)

/-- A layer after the first, from the previous layer's rows `z`: relu((base + z·softplus(U_{l-1})) + gate). -/
def next (l : Fin 4) (u : Fin 3) (z : Fin 8192 → Fin 1024 → EReal) (b : Fin 8192) (o : Fin 1024) : EReal :=
  relu ((base a l b o + ∑ j : Fin 1024, z b j * uM a u o j) + gate a l b o)

def z0 (b : Fin 8192) (o : Fin 1024) : EReal := relu (base a 0 b o + gate a 0 b o)
def z1 : Fin 8192 → Fin 1024 → EReal := next a 1 0 (z0 a)
def z2 : Fin 8192 → Fin 1024 → EReal := next a 2 1 (z1 a)
def z3 : Fin 8192 → Fin 1024 → EReal := next a 3 2 (z2 a)

/-- The result array: the last layer's rows. -/
def out : A2 8192 1024 := fun i => z3 a (i 0) (i 1)

end Cert.Spec

end
-- ==== Proof.KOut.lean ====
/-
  The fused body's result block, entry by entry, is the last layer's row of the specification.

  The block of 512 rows that grid point t works on holds rows 512·t + p of the batch. At an entry (p, o) the body's
  one store holds the fourth layer's value; each layer reads its own slab of the stacked weights (a load at offset l
  along the stack) and the previous layer's row. Given what the seven loaded arrays hold in the specification's
  words — the two input rows, the signed weights, the biases, the two halves of the joined weights and biases —
  the four layers are the specification's z0 … z3, the only rearrangement being (A + bc) + (H + bu) =
  ((A + bc) + H) + bu.
-/
import proofs.«150220_j44581760532841_2_alg».proof.Proof.Gen.KernelIdeal.Frame
import proofs.«150220_j44581760532841_2_alg».proof.Proof.KLayers
import proofs.«150220_j44581760532841_2_alg».proof.Proof.Spec

noncomputable section

open scoped BigOperators

namespace Cert.KernelIdeal.KOut

open Cert.KernelIdeal Cert.KernelIdeal.Gen Cert.KernelIdeal.KBlocks Cert.KernelIdeal.KLayers Idealize.ShloMosaic Idealize.ShloMosaic.ValueIdx
open Cert.Spec (Inp wcM wuM wutM uM)

/-- A first layer's entry in the body's grouping is the specification's. -/
theorem first_eq (A bc H bu G : EReal) :
    max (((A + bc) + (H + bu)) + G) KLayers.z = Cert.Spec.relu (((((A + bc) + H) + bu)) + G) := by
  rw [← add_assoc (A + bc) H bu]; rfl

/-- A later layer's entry in the body's grouping is the specification's. -/
theorem later_eq (A bc H bu R G : EReal) :
    max ((((A + bc) + (H + bu)) + R) + G) KLayers.z = Cert.Spec.relu ((((((A + bc) + H) + bu)) + R) + G) := by
  rw [← add_assoc (A + bc) H bu]; rfl

variable (a : Inp) (b : Fin 8192) (p : Fin 512)

/-- The convex path over a row that is the specification's row b and a slab that is layer l's. -/
theorem conv_eq (X0 : Vec Ideal S512x256 .f32) (Wc : Vec Ideal S1x1024x256 .bf16) (bc : Vec Ideal S1x1024 .f32) (l : Fin 4)
    (hX : ∀ k : Fin 256, X0 (ix2 p k) = a.xc (ix2 b k))
    (hW : ∀ (o : Fin 1024) (k : Fin 256), Wc (ix3 (0 : Fin 1) o k) = wcM a l o k)
    (hb : ∀ o : Fin 1024, bc (ix2 (0 : Fin 1) o) = a.bc (ix2 l o)) (o : Fin 1024) :
    convK X0 Wc bc p o = (∑ k : Fin 256, a.xc (ix2 b k) * wcM a l o k) + a.bc (ix2 l o) := by
  unfold convK
  rw [hb]
  exact congrArg (· + a.bc (ix2 l o)) (Finset.sum_congr rfl fun k _ => by rw [hX, hW])

/-- The free path likewise, over the upper half of layer l's joined slab. -/
theorem free_eq (X1 : Vec Ideal S512x256 .f32) (Wcat : Vec Ideal S1x2048x256 .bf16) (bcat : Vec Ideal S1x2048 .f32) (l : Fin 4)
    (hX : ∀ k : Fin 256, X1 (ix2 p k) = a.xf (ix2 b k))
    (hW : ∀ (o : Fin 1024) (k : Fin 256), Wcat (ix3 (0 : Fin 1) (⟨1024 + o.val, by omega⟩ : Fin 2048) k) = wuM a l o k)
    (hb : ∀ o : Fin 1024, bcat (ix2 (0 : Fin 1) (⟨1024 + o.val, by omega⟩ : Fin 2048)) = a.bu (ix2 l o)) (o : Fin 1024) :
    freeK X1 Wcat bcat p o = (∑ k : Fin 256, a.xf (ix2 b k) * wuM a l o k) + a.bu (ix2 l o) := by
  unfold freeK
  rw [hb]
  exact congrArg (· + a.bu (ix2 l o)) (Finset.sum_congr rfl fun k _ => by rw [hX, hW])

/-- The gate likewise, over the lower half. -/
theorem gate_eq (X1 : Vec Ideal S512x256 .f32) (Wcat : Vec Ideal S1x2048x256 .bf16) (bcat : Vec Ideal S1x2048 .f32) (l : Fin 4)
    (hX : ∀ k : Fin 256, X1 (ix2 p k) = a.xf (ix2 b k))
    (hW : ∀ (o : Fin 1024) (k : Fin 256), Wcat (ix3 (0 : Fin 1) (⟨o.val, by omega⟩ : Fin 2048) k) = wutM a l o k)
    (hb : ∀ o : Fin 1024, bcat (ix2 (0 : Fin 1) (⟨o.val, by omega⟩ : Fin 2048)) = a.but (ix2 l o)) (o : Fin 1024) :
    gateK X1 Wcat bcat p o = Cert.Spec.gate a l b o := by
  unfold gateK Cert.Spec.gate
  rw [hb]
  exact congrArg (max · KLayers.z) (congrArg (· + a.but (ix2 l o)) (Finset.sum_congr rfl fun k _ => by rw [hX, hW]))

/-- A first layer over such a row and slabs is the specification's z0. -/
theorem first_layer (X0 X1 : Vec Ideal S512x256 .f32) (Wc : Vec Ideal S1x1024x256 .bf16) (bc : Vec Ideal S1x1024 .f32)
    (Wcat : Vec Ideal S1x2048x256 .bf16) (bcat : Vec Ideal S1x2048 .f32)
    (hX0 : ∀ k : Fin 256, X0 (ix2 p k) = a.xc (ix2 b k)) (hX1 : ∀ k : Fin 256, X1 (ix2 p k) = a.xf (ix2 b k))
    (hWc : ∀ (o : Fin 1024) (k : Fin 256), Wc (ix3 (0 : Fin 1) o k) = wcM a 0 o k)
    (hbc : ∀ o : Fin 1024, bc (ix2 (0 : Fin 1) o) = a.bc (ix2 (0 : Fin 4) o))
    (hWhi : ∀ (o : Fin 1024) (k : Fin 256), Wcat (ix3 (0 : Fin 1) (⟨1024 + o.val, by omega⟩ : Fin 2048) k) = wuM a 0 o k)
    (hbhi : ∀ o : Fin 1024, bcat (ix2 (0 : Fin 1) (⟨1024 + o.val, by omega⟩ : Fin 2048)) = a.bu (ix2 (0 : Fin 4) o))
    (hWlo : ∀ (o : Fin 1024) (k : Fin 256), Wcat (ix3 (0 : Fin 1) (⟨o.val, by omega⟩ : Fin 2048) k) = wutM a 0 o k)
    (hblo : ∀ o : Fin 1024, bcat (ix2 (0 : Fin 1) (⟨o.val, by omega⟩ : Fin 2048)) = a.but (ix2 (0 : Fin 4) o)) (o : Fin 1024) :
    max (((convK X0 Wc bc p o) + (freeK X1 Wcat bcat p o)) + gateK X1 Wcat bcat p o) KLayers.z = Cert.Spec.z0 a b o := by
  rw [conv_eq a b p X0 Wc bc 0 hX0 hWc hbc, free_eq a b p X1 Wcat bcat 0 hX1 hWhi hbhi, gate_eq a b p X1 Wcat bcat 0 hX1 hWlo hblo]
  exact first_eq _ _ _ _ _

/-- A later layer l, reading slab u of the recurrent weights and a previous block whose row p is `zs b`, is the
    specification's `next`. -/
theorem later_layer {φ : FTy} (X0 X1 : Vec Ideal S512x256 .f32) (Wc : Vec Ideal S1x1024x256 .bf16) (bc : Vec Ideal S1x1024 .f32)
    (Wcat : Vec Ideal S1x2048x256 .bf16) (bcat : Vec Ideal S1x2048 .f32) (Uw : Vec Ideal S1x1024x1024 .bf16)
    (Z : FVec Ideal S512x1024 φ) (zs : Fin 8192 → Fin 1024 → EReal) (l : Fin 4) (u : Fin 3)
    (hX0 : ∀ k : Fin 256, X0 (ix2 p k) = a.xc (ix2 b k)) (hX1 : ∀ k : Fin 256, X1 (ix2 p k) = a.xf (ix2 b k))
    (hWc : ∀ (o : Fin 1024) (k : Fin 256), Wc (ix3 (0 : Fin 1) o k) = wcM a l o k)
    (hbc : ∀ o : Fin 1024, bc (ix2 (0 : Fin 1) o) = a.bc (ix2 l o))
    (hWhi : ∀ (o : Fin 1024) (k : Fin 256), Wcat (ix3 (0 : Fin 1) (⟨1024 + o.val, by omega⟩ : Fin 2048) k) = wuM a l o k)
    (hbhi : ∀ o : Fin 1024, bcat (ix2 (0 : Fin 1) (⟨1024 + o.val, by omega⟩ : Fin 2048)) = a.bu (ix2 l o))
    (hWlo : ∀ (o : Fin 1024) (k : Fin 256), Wcat (ix3 (0 : Fin 1) (⟨o.val, by omega⟩ : Fin 2048) k) = wutM a l o k)
    (hblo : ∀ o : Fin 1024, bcat (ix2 (0 : Fin 1) (⟨o.val, by omega⟩ : Fin 2048)) = a.but (ix2 l o))
    (hU : ∀ o j : Fin 1024, Uw (ix3 (0 : Fin 1) o j) = uM a u o j)
    (hZ : ∀ j : Fin 1024, Z (ix2 p j) = zs b j) (o : Fin 1024) :
    max ((((convK X0 Wc bc p o) + (freeK X1 Wcat bcat p o)) + ∑ j : Fin 1024, Z (ix2 p j) * Uw (ix3 (0 : Fin 1) o j)) + gateK X1 Wcat bcat p o) KLayers.z
      = Cert.Spec.next a l u zs b o := by
  rw [conv_eq a b p X0 Wc bc l hX0 hWc hbc, free_eq a b p X1 Wcat bcat l hX1 hWhi hbhi, gate_eq a b p X1 Wcat bcat l hX1 hWlo hblo,
    Finset.sum_congr rfl fun j _ => show Z (ix2 p j) * Uw (ix3 (0 : Fin 1) o j) = zs b j * uM a u o j by rw [hZ, hU]]
  exact later_eq _ _ _ _ _ _

variable (x0 x1 : Vec Ideal S512x256 .f32) (x2 : Vec Ideal S4x1024x256 .bf16) (x3 : Vec Ideal S4x1024 .f32)
  (x4 : Vec Ideal S4x2048x256 .bf16) (x5 : Vec Ideal S4x2048 .f32) (x6 : Vec Ideal S3x1024x1024 .bf16)

/-- The body's result block at (p, o), when row p of the two input blocks is row b of the inputs and the five weight
    and bias arrays hold the specification's signed weights and biases: the specification's last layer at (b, o). -/
theorem out_apply
    (h0 : ∀ k : Fin 256, x0 (ix2 p k) = a.xc (ix2 b k)) (h1 : ∀ k : Fin 256, x1 (ix2 p k) = a.xf (ix2 b k))
    (h2 : ∀ (l : Fin 4) (o : Fin 1024) (k : Fin 256), x2 (ix3 l o k) = wcM a l o k)
    (h3 : ∀ (l : Fin 4) (o : Fin 1024), x3 (ix2 l o) = a.bc (ix2 l o))
    (h4lo : ∀ (l : Fin 4) (o : Fin 1024) (k : Fin 256), x4 (ix3 l (⟨o.val, by omega⟩ : Fin 2048) k) = wutM a l o k)
    (h4hi : ∀ (l : Fin 4) (o : Fin 1024) (k : Fin 256), x4 (ix3 l (⟨1024 + o.val, by omega⟩ : Fin 2048) k) = wuM a l o k)
    (h5lo : ∀ (l : Fin 4) (o : Fin 1024), x5 (ix2 l (⟨o.val, by omega⟩ : Fin 2048)) = a.but (ix2 l o))
    (h5hi : ∀ (l : Fin 4) (o : Fin 1024), x5 (ix2 l (⟨1024 + o.val, by omega⟩ : Fin 2048)) = a.bu (ix2 l o))
    (h6 : ∀ (l : Fin 3) (o j : Fin 1024), x6 (ix3 l o j) = uM a l o j) (o : Fin 1024) :
    out0_7 x0 x1 x2 x3 x4 x5 x6 (ix2 p o) = Cert.Spec.z3 a b o := by
  have hz2 : (![0, 0] : Fin 2 → ℕ) = fun _ => 0 := funext fun d => match d with | ⟨0, _⟩ => rfl | ⟨1, _⟩ => rfl
  have e0 : View.ld x0 r0_0 = x0 := View.ld_unit_zero (S := S512x256) hz2 _ x0
  have e1 : View.ld x1 r0_0 = x1 := View.ld_unit_zero (S := S512x256) hz2 _ x1
  -- each layer's slabs, read at an entry
  have c0 : ∀ (q : Fin 1024) (k : Fin 256), View.ld x2 r0_3 (ix3 (0 : Fin 1) q k) = x2 (ix3 (0 : Fin 4) q k) := (fun q k => (ld_unit_apply x2 _ _ _ _ (ix3 (0 : Fin 4) q k) (fun d => match d with | ⟨0, _⟩ => rfl | ⟨1, _⟩ => (Nat.zero_add _).symm | ⟨2, _⟩ => (Nat.zero_add _).symm)))
  have c1 : ∀ (q : Fin 1024) (k : Fin 256), View.ld x2 r0_7 (ix3 (0 : Fin 1) q k) = x2 (ix3 (1 : Fin 4) q k) := (fun q k => (ld_unit_apply x2 _ _ _ _ (ix3 (1 : Fin 4) q k) (fun d => match d with | ⟨0, _⟩ => rfl | ⟨1, _⟩ => (Nat.zero_add _).symm | ⟨2, _⟩ => (Nat.zero_add _).symm)))
  have c2 : ∀ (q : Fin 1024) (k : Fin 256), View.ld x2 r0_12 (ix3 (0 : Fin 1) q k) = x2 (ix3 (2 : Fin 4) q k) := (fun q k => (ld_unit_apply x2 _ _ _ _ (ix3 (2 : Fin 4) q k) (fun d => match d with | ⟨0, _⟩ => rfl | ⟨1, _⟩ => (Nat.zero_add _).symm | ⟨2, _⟩ => (Nat.zero_add _).symm)))
  have c3 : ∀ (q : Fin 1024) (k : Fin 256), View.ld x2 r0_17 (ix3 (0 : Fin 1) q k) = x2 (ix3 (3 : Fin 4) q k) := (fun q k => (ld_unit_apply x2 _ _ _ _ (ix3 (3 : Fin 4) q k) (fun d => match d with | ⟨0, _⟩ => rfl | ⟨1, _⟩ => (Nat.zero_add _).symm | ⟨2, _⟩ => (Nat.zero_add _).symm)))
  have d0 : ∀ (q : Fin 1024), View.ld x3 r0_4 (ix2 (0 : Fin 1) q) = x3 (ix2 (0 : Fin 4) q) := (fun q => (ld_unit_apply x3 _ _ _ _ (ix2 (0 : Fin 4) q) (fun d => match d with | ⟨0, _⟩ => rfl | ⟨1, _⟩ => (Nat.zero_add _).symm)))
  have d1 : ∀ (q : Fin 1024), View.ld x3 r0_8 (ix2 (0 : Fin 1) q) = x3 (ix2 (1 : Fin 4) q) := (fun q => (ld_unit_apply x3 _ _ _ _ (ix2 (1 : Fin 4) q) (fun d => match d with | ⟨0, _⟩ => rfl | ⟨1, _⟩ => (Nat.zero_add _).symm)))
  have d2 : ∀ (q : Fin 1024), View.ld x3 r0_13 (ix2 (0 : Fin 1) q) = x3 (ix2 (2 : Fin 4) q) := (fun q => (ld_unit_apply x3 _ _ _ _ (ix2 (2 : Fin 4) q) (fun d => match d with | ⟨0, _⟩ => rfl | ⟨1, _⟩ => (Nat.zero_add _).symm)))
  have d3 : ∀ (q : Fin 1024), View.ld x3 r0_18 (ix2 (0 : Fin 1) q) = x3 (ix2 (3 : Fin 4) q) := (fun q => (ld_unit_apply x3 _ _ _ _ (ix2 (3 : Fin 4) q) (fun d => match d with | ⟨0, _⟩ => rfl | ⟨1, _⟩ => (Nat.zero_add _).symm)))
  have w0 : ∀ (q : Fin 2048) (k : Fin 256), View.ld x4 r0_1 (ix3 (0 : Fin 1) q k) = x4 (ix3 (0 : Fin 4) q k) := (fun q k => (ld_unit_apply x4 _ _ _ _ (ix3 (0 : Fin 4) q k) (fun d => match d with | ⟨0, _⟩ => rfl | ⟨1, _⟩ => (Nat.zero_add _).symm | ⟨2, _⟩ => (Nat.zero_add _).symm)))
  have w1 : ∀ (q : Fin 2048) (k : Fin 256), View.ld x4 r0_5 (ix3 (0 : Fin 1) q k) = x4 (ix3 (1 : Fin 4) q k) := (fun q k => (ld_unit_apply x4 _ _ _ _ (ix3 (1 : Fin 4) q k) (fun d => match d with | ⟨0, _⟩ => rfl | ⟨1, _⟩ => (Nat.zero_add _).symm | ⟨2, _⟩ => (Nat.zero_add _).symm)))
  have w2 : ∀ (q : Fin 2048) (k : Fin 256), View.ld x4 r0_10 (ix3 (0 : Fin 1) q k) = x4 (ix3 (2 : Fin 4) q k) := (fun q k => (ld_unit_apply x4 _ _ _ _ (ix3 (2 : Fin 4) q k) (fun d => match d with | ⟨0, _⟩ => rfl | ⟨1, _⟩ => (Nat.zero_add _).symm | ⟨2, _⟩ => (Nat.zero_add _).symm)))
  have w3 : ∀ (q : Fin 2048) (k : Fin 256), View.ld x4 r0_15 (ix3 (0 : Fin 1) q k) = x4 (ix3 (3 : Fin 4) q k) := (fun q k => (ld_unit_apply x4 _ _ _ _ (ix3 (3 : Fin 4) q k) (fun d => match d with | ⟨0, _⟩ => rfl | ⟨1, _⟩ => (Nat.zero_add _).symm | ⟨2, _⟩ => (Nat.zero_add _).symm)))
  have v0 : ∀ (q : Fin 2048), View.ld x5 r0_2 (ix2 (0 : Fin 1) q) = x5 (ix2 (0 : Fin 4) q) := (fun q => (ld_unit_apply x5 _ _ _ _ (ix2 (0 : Fin 4) q) (fun d => match d with | ⟨0, _⟩ => rfl | ⟨1, _⟩ => (Nat.zero_add _).symm)))
  have v1 : ∀ (q : Fin 2048), View.ld x5 r0_6 (ix2 (0 : Fin 1) q) = x5 (ix2 (1 : Fin 4) q) := (fun q => (ld_unit_apply x5 _ _ _ _ (ix2 (1 : Fin 4) q) (fun d => match d with | ⟨0, _⟩ => rfl | ⟨1, _⟩ => (Nat.zero_add _).symm)))
  have v2 : ∀ (q : Fin 2048), View.ld x5 r0_11 (ix2 (0 : Fin 1) q) = x5 (ix2 (2 : Fin 4) q) := (fun q => (ld_unit_apply x5 _ _ _ _ (ix2 (2 : Fin 4) q) (fun d => match d with | ⟨0, _⟩ => rfl | ⟨1, _⟩ => (Nat.zero_add _).symm)))
  have v3 : ∀ (q : Fin 2048), View.ld x5 r0_16 (ix2 (0 : Fin 1) q) = x5 (ix2 (3 : Fin 4) q) := (fun q => (ld_unit_apply x5 _ _ _ _ (ix2 (3 : Fin 4) q) (fun d => match d with | ⟨0, _⟩ => rfl | ⟨1, _⟩ => (Nat.zero_add _).symm)))
  have u0 : ∀ (q j : Fin 1024), View.ld x6 r0_9 (ix3 (0 : Fin 1) q j) = x6 (ix3 (0 : Fin 3) q j) := (fun q k => (ld_unit_apply x6 _ _ _ _ (ix3 (0 : Fin 3) q k) (fun d => match d with | ⟨0, _⟩ => rfl | ⟨1, _⟩ => (Nat.zero_add _).symm | ⟨2, _⟩ => (Nat.zero_add _).symm)))
  have u1 : ∀ (q j : Fin 1024), View.ld x6 r0_14 (ix3 (0 : Fin 1) q j) = x6 (ix3 (1 : Fin 3) q j) := (fun q k => (ld_unit_apply x6 _ _ _ _ (ix3 (1 : Fin 3) q k) (fun d => match d with | ⟨0, _⟩ => rfl | ⟨1, _⟩ => (Nat.zero_add _).symm | ⟨2, _⟩ => (Nat.zero_add _).symm)))
  have u2 : ∀ (q j : Fin 1024), View.ld x6 r0_19 (ix3 (0 : Fin 1) q j) = x6 (ix3 (2 : Fin 3) q j) := (fun q k => (ld_unit_apply x6 _ _ _ _ (ix3 (2 : Fin 3) q k) (fun d => match d with | ⟨0, _⟩ => rfl | ⟨1, _⟩ => (Nat.zero_add _).symm | ⟨2, _⟩ => (Nat.zero_add _).symm)))
  -- the four layers, row p
  have r0 : ∀ j : Fin 1024, k0_pay4 x0 x1 (View.ld x4 r0_1) (View.ld x5 r0_2) (View.ld x2 r0_3) (View.ld x3 r0_4) (ix2 p j) = Cert.Spec.z0 a b j :=
    fun j => (pay4_apply x0 x1 _ _ _ _ p j).trans (first_layer a b p x0 x1 _ _ _ _ h0 h1
      (fun q k => (c0 q k).trans (h2 0 q k)) (fun q => (d0 q).trans (h3 0 q))
      (fun q k => (w0 _ k).trans (h4hi 0 q k)) (fun q => (v0 _).trans (h5hi 0 q))
      (fun q k => (w0 _ k).trans (h4lo 0 q k)) (fun q => (v0 _).trans (h5lo 0 q)) j)
  have r1 : ∀ j : Fin 1024, k0_pay7 (k0_pay2 x0) (k0_pay4 x0 x1 (View.ld x4 r0_1) (View.ld x5 r0_2) (View.ld x2 r0_3) (View.ld x3 r0_4))
      (k0_pay5 x1 (View.ld x4 r0_5)) (k0_pay6 (View.ld x5 r0_6)) (View.ld x2 r0_7) (View.ld x3 r0_8) (View.ld x6 r0_9) (ix2 p j) = Cert.Spec.z1 a b j :=
    fun j => (pay7_apply x0 x1 _ _ _ _ _ _ p j).trans (later_layer a b p x0 x1 _ _ _ _ _ _ (Cert.Spec.z0 a) 1 0 h0 h1
      (fun q k => (c1 q k).trans (h2 1 q k)) (fun q => (d1 q).trans (h3 1 q))
      (fun q k => (w1 _ k).trans (h4hi 1 q k)) (fun q => (v1 _).trans (h5hi 1 q))
      (fun q k => (w1 _ k).trans (h4lo 1 q k)) (fun q => (v1 _).trans (h5lo 1 q))
      (fun q i => (u0 q i).trans (h6 0 q i)) r0 j)
  have r2 : ∀ j : Fin 1024, k0_pay15 (k0_pay7 (k0_pay2 x0) (k0_pay4 x0 x1 (View.ld x4 r0_1) (View.ld x5 r0_2) (View.ld x2 r0_3) (View.ld x3 r0_4))
      (k0_pay5 x1 (View.ld x4 r0_5)) (k0_pay6 (View.ld x5 r0_6)) (View.ld x2 r0_7) (View.ld x3 r0_8) (View.ld x6 r0_9))
      (k0_pay9 (k0_pay3 x1) (View.ld x4 r0_10) (View.ld x5 r0_11)) (k0_pay10 (k0_pay3 x1) (View.ld x4 r0_10) (View.ld x5 r0_11))
      (k0_pay11 (k0_pay2 x0) (View.ld x2 r0_12)) (View.ld x3 r0_13) (View.ld x6 r0_14) (ix2 p j) = Cert.Spec.z2 a b j :=
    fun j => (pay15_apply x0 x1 _ _ _ _ _ _ p j).trans (later_layer a b p x0 x1 _ _ _ _ _ _ (Cert.Spec.z1 a) 2 1 h0 h1
      (fun q k => (c2 q k).trans (h2 2 q k)) (fun q => (d2 q).trans (h3 2 q))
      (fun q k => (w2 _ k).trans (h4hi 2 q k)) (fun q => (v2 _).trans (h5hi 2 q))
      (fun q k => (w2 _ k).trans (h4lo 2 q k)) (fun q => (v2 _).trans (h5lo 2 q))
      (fun q i => (u1 q i).trans (h6 1 q i)) r1 j)
  unfold out0_7
  rw [View.canon_unit_zero hz2, e0, e1]
  exact (pay1_apply x0 x1 _ _ _ _ _ _ p o).trans (later_layer a b p x0 x1 _ _ _ _ _ _ (Cert.Spec.z2 a) 3 2 h0 h1
      (fun q k => (c3 q k).trans (h2 3 q k)) (fun q => (d3 q).trans (h3 3 q))
      (fun q k => (w3 _ k).trans (h4hi 3 q k)) (fun q => (v3 _).trans (h5hi 3 q))
      (fun q k => (w3 _ k).trans (h4lo 3 q k)) (fun q => (v3 _).trans (h5lo 3 q))
      (fun q i => (u2 q i).trans (h6 2 q i)) r2 o)

end Cert.KernelIdeal.KOut

end
-- ==== Proof.KValue.lean ====
/-
  From blocks to the array. The grid has 16 points; point t stages rows 512·t … 512·t + 511 of the two inputs and of
  the output, and the five weight and bias arrays whole (their index maps are constant). What point t writes back is,
  entry by entry, the specification's last layer at those rows; the 16 blocks tile the [8192, 1024] result, so after
  the run the result array is the specification's `out`.
-/
import proofs.«150220_j44581760532841_2_alg».proof.Proof.Gen.KernelIdeal.Value
import proofs.«150220_j44581760532841_2_alg».proof.Proof.KOut

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)
open Cert.Spec (Inp wcM wuM wutM uM)

variable (m : (ℓ : Loc nD τ sig) → Buf (Elt Ideal) ℓ) (ρ : Dev nD → PrngReg)

/-- What the seven staged arrays hold when the region is entered, in the specification's words. -/
structure Entry (c : Dev nD) (a : Inp) : Prop where
  xc : ∀ i : S8192x256.Idx, (V m c main_arg0 : S8192x256.Idx → EReal) i = a.xc i
  xf : ∀ i : S8192x256.Idx, (V m c main_arg1 : S8192x256.Idx → EReal) i = a.xf i
  wc : ∀ (l : Fin 4) (o : Fin 1024) (k : Fin 256), (V m c main_call0_v7 : S4x1024x256.Idx → EReal) (ix3 l o k) = wcM a l o k
  bc : ∀ (l : Fin 4) (o : Fin 1024), (V m c main_arg3 : S4x1024.Idx → EReal) (ix2 l o) = a.bc (ix2 l o)
  wlo : ∀ (l : Fin 4) (o : Fin 1024) (k : Fin 256), (V m c main_call0_v26 : S4x2048x256.Idx → EReal) (ix3 l (⟨o.val, by omega⟩ : Fin 2048) k) = wutM a l o k
  whi : ∀ (l : Fin 4) (o : Fin 1024) (k : Fin 256), (V m c main_call0_v26 : S4x2048x256.Idx → EReal) (ix3 l (⟨1024 + o.val, by omega⟩ : Fin 2048) k) = wuM a l o k
  blo : ∀ (l : Fin 4) (o : Fin 1024), (V m c main_call0_v27 : S4x2048.Idx → EReal) (ix2 l (⟨o.val, by omega⟩ : Fin 2048)) = a.but (ix2 l o)
  bhi : ∀ (l : Fin 4) (o : Fin 1024), (V m c main_call0_v27 : S4x2048.Idx → EReal) (ix2 l (⟨1024 + o.val, by omega⟩ : Fin 2048)) = a.bu (ix2 l o)
  u : ∀ (l : Fin 3) (o j : Fin 1024), (V m c main_call0_v25 : S3x1024x1024.Idx → EReal) (ix3 l o j) = uM a l o j

/-- The printed index maps over the grid: the inputs' and the output's blocks move with the point along the rows, every
    other window stays at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 3) = 0 ∧ win0_6.index t (1 : Fin 3) = 0 ∧ win0_6.index t (2 : Fin 3) = 0
    ∧ win0_7.index t (0 : Fin 2) = t.val ∧ win0_7.index t (1 : Fin 2) = 0 :=
  (by decide +kernel : ∀ t : Fin grid0.N, _)

/-! Each staged window's block at a point, read at an entry, over ANY contents `W` of the device's buffers: the two
    input blocks start at row 512·t, the five weight and bias windows are their whole arrays. -/

theorem read0 (c : Dev nD) (t : Fin cfg0.N) (W : (b : Ref sig .tc) → Buf (Elt Ideal) ((c : Thread nD τ).loc b)) (p : Fin 512) (k : Fin 256) (b : Fin 8192) (hb : b.val = t.val * 512 + p.val) :
    ((cfg0.win 0).blk t).view.read (Elt Ideal) (W (Pipeline.arrRef spec0 0)) (ix2 p k) = (W main_arg0 : S8192x256.Idx → EReal) (ix2 b k) := by
  obtain ⟨f00, f01, -⟩ := idx_facts t
  have e : ((cfg0.win 0).blk t).view.emb (ix2 p k) = ix2 b k := by
    funext d; apply Fin.ext
    match d with
    | ⟨0, _⟩ => show win0_0.index t (0 : Fin 2) * 512 + 1 * p.val = b.val; omega
    | ⟨1, _⟩ => show win0_0.index t (1 : Fin 2) * 256 + 1 * k.val = k.val; omega
  show (W main_arg0 : S8192x256.Idx → EReal) (((cfg0.win 0).blk t).view.emb (ix2 p k)) = _
  rw [e]

theorem read1 (c : Dev nD) (t : Fin cfg0.N) (W : (b : Ref sig .tc) → Buf (Elt Ideal) ((c : Thread nD τ).loc b)) (p : Fin 512) (k : Fin 256) (b : Fin 8192) (hb : b.val = t.val * 512 + p.val) :
    ((cfg0.win 1).blk t).view.read (Elt Ideal) (W (Pipeline.arrRef spec0 1)) (ix2 p k) = (W main_arg1 : S8192x256.Idx → EReal) (ix2 b k) := by
  obtain ⟨-, -, f10, f11, -⟩ := idx_facts t
  have e : ((cfg0.win 1).blk t).view.emb (ix2 p k) = ix2 b k := by
    funext d; apply Fin.ext
    match d with
    | ⟨0, _⟩ => show win0_1.index t (0 : Fin 2) * 512 + 1 * p.val = b.val; omega
    | ⟨1, _⟩ => show win0_1.index t (1 : Fin 2) * 256 + 1 * k.val = k.val; omega
  show (W main_arg1 : S8192x256.Idx → EReal) (((cfg0.win 1).blk t).view.emb (ix2 p k)) = _
  rw [e]

theorem read2 (c : Dev nD) (t : Fin cfg0.N) (W : (b : Ref sig .tc) → Buf (Elt Ideal) ((c : Thread nD τ).loc b)) (l : Fin 4) (q : Fin 1024) (k : Fin 256) :
    ((cfg0.win 2).blk t).view.read (Elt Ideal) (W (Pipeline.arrRef spec0 2)) (ix3 l q k) = (W main_call0_v7 : S4x1024x256.Idx → EReal) (ix3 l q k) := by
  obtain ⟨-, -, -, -, f20, f21, f22, -⟩ := idx_facts t
  have e : ((cfg0.win 2).blk t).view.emb (ix3 l q k) = ix3 l q k := by
    funext d; apply Fin.ext
    match d with
    | ⟨0, _⟩ => show win0_2.index t (0 : Fin 3) * 4 + 1 * l.val = l.val; omega
    | ⟨1, _⟩ => show win0_2.index t (1 : Fin 3) * 1024 + 1 * q.val = q.val; omega
    | ⟨2, _⟩ => show win0_2.index t (2 : Fin 3) * 256 + 1 * k.val = k.val; omega
  show (W main_call0_v7 : S4x1024x256.Idx → EReal) (((cfg0.win 2).blk t).view.emb (ix3 l q k)) = _
  rw [e]

theorem read3 (c : Dev nD) (t : Fin cfg0.N) (W : (b : Ref sig .tc) → Buf (Elt Ideal) ((c : Thread nD τ).loc b)) (l : Fin 4) (q : Fin 1024) :
    ((cfg0.win 3).blk t).view.read (Elt Ideal) (W (Pipeline.arrRef spec0 3)) (ix2 l q) = (W main_arg3 : S4x1024.Idx → EReal) (ix2 l q) := by
  obtain ⟨-, -, -, -, -, -, -, f30, f31, -⟩ := idx_facts t
  have e : ((cfg0.win 3).blk t).view.emb (ix2 l q) = ix2 l q := by
    funext d; apply Fin.ext
    match d with
    | ⟨0, _⟩ => show win0_3.index t (0 : Fin 2) * 4 + 1 * l.val = l.val; omega
    | ⟨1, _⟩ => show win0_3.index t (1 : Fin 2) * 1024 + 1 * q.val = q.val; omega
  show (W main_arg3 : S4x1024.Idx → EReal) (((cfg0.win 3).blk t).view.emb (ix2 l q)) = _
  rw [e]

theorem read4 (c : Dev nD) (t : Fin cfg0.N) (W : (b : Ref sig .tc) → Buf (Elt Ideal) ((c : Thread nD τ).loc b)) (l : Fin 4) (q : Fin 2048) (k : Fin 256) :
    ((cfg0.win 4).blk t).view.read (Elt Ideal) (W (Pipeline.arrRef spec0 4)) (ix3 l q k) = (W main_call0_v26 : S4x2048x256.Idx → EReal) (ix3 l q k) := by
  obtain ⟨-, -, -, -, -, -, -, -, -, f40, f41, f42, -⟩ := idx_facts t
  have e : ((cfg0.win 4).blk t).view.emb (ix3 l q k) = ix3 l q k := by
    funext d; apply Fin.ext
    match d with
    | ⟨0, _⟩ => show win0_4.index t (0 : Fin 3) * 4 + 1 * l.val = l.val; omega
    | ⟨1, _⟩ => show win0_4.index t (1 : Fin 3) * 2048 + 1 * q.val = q.val; omega
    | ⟨2, _⟩ => show win0_4.index t (2 : Fin 3) * 256 + 1 * k.val = k.val; omega
  show (W main_call0_v26 : S4x2048x256.Idx → EReal) (((cfg0.win 4).blk t).view.emb (ix3 l q k)) = _
  rw [e]

theorem read5 (c : Dev nD) (t : Fin cfg0.N) (W : (b : Ref sig .tc) → Buf (Elt Ideal) ((c : Thread nD τ).loc b)) (l : Fin 4) (q : Fin 2048) :
    ((cfg0.win 5).blk t).view.read (Elt Ideal) (W (Pipeline.arrRef spec0 5)) (ix2 l q) = (W main_call0_v27 : S4x2048.Idx → EReal) (ix2 l q) := by
  obtain ⟨-, -, -, -, -, -, -, -, -, -, -, -, f50, f51, -⟩ := idx_facts t
  have e : ((cfg0.win 5).blk t).view.emb (ix2 l q) = ix2 l q := by
    funext d; apply Fin.ext
    match d with
    | ⟨0, _⟩ => show win0_5.index t (0 : Fin 2) * 4 + 1 * l.val = l.val; omega
    | ⟨1, _⟩ => show win0_5.index t (1 : Fin 2) * 2048 + 1 * q.val = q.val; omega
  show (W main_call0_v27 : S4x2048.Idx → EReal) (((cfg0.win 5).blk t).view.emb (ix2 l q)) = _
  rw [e]

theorem read6 (c : Dev nD) (t : Fin cfg0.N) (W : (b : Ref sig .tc) → Buf (Elt Ideal) ((c : Thread nD τ).loc b)) (l : Fin 3) (q i : Fin 1024) :
    ((cfg0.win 6).blk t).view.read (Elt Ideal) (W (Pipeline.arrRef spec0 6)) (ix3 l q i) = (W main_call0_v25 : S3x1024x1024.Idx → EReal) (ix3 l q i) := by
  obtain ⟨-, -, -, -, -, -, -, -, -, -, -, -, -, -, f60, f61, f62, -⟩ := idx_facts t
  have e : ((cfg0.win 6).blk t).view.emb (ix3 l q i) = ix3 l q i := by
    funext d; apply Fin.ext
    match d with
    | ⟨0, _⟩ => show win0_6.index t (0 : Fin 3) * 3 + 1 * l.val = l.val; omega
    | ⟨1, _⟩ => show win0_6.index t (1 : Fin 3) * 1024 + 1 * q.val = q.val; omega
    | ⟨2, _⟩ => show win0_6.index t (2 : Fin 3) * 1024 + 1 * i.val = i.val; omega
  show (W main_call0_v25 : S3x1024x1024.Idx → EReal) (((cfg0.win 6).blk t).view.emb (ix3 l q i)) = _
  rw [e]

/-- The output block's entry (p, o) sits at row 512·t + p of the result, over any function `G` of the result's indices. -/
theorem read7 (t : Fin cfg0.N) (G : S8192x1024.Idx → EReal) (p : Fin 512) (o : Fin 1024) (b : Fin 8192) (hb : b.val = t.val * 512 + p.val) :
    G (((cfg0.win 7).blk t).view.emb (ix2 p o)) = G (ix2 b o) := by
  obtain ⟨-, -, -, -, -, -, -, -, -, -, -, -, -, -, -, -, -, f70, f71⟩ := idx_facts t
  have e : ((cfg0.win 7).blk t).view.emb (ix2 p o) = ix2 b o := by
    funext d; apply Fin.ext
    match d with
    | ⟨0, _⟩ => show win0_7.index t (0 : Fin 2) * 512 + 1 * p.val = b.val; omega
    | ⟨1, _⟩ => show win0_7.index t (1 : Fin 2) * 1024 + 1 * o.val = o.val; omega
  rw [e]

/-- What point t writes back is block t of the specification's result. -/
theorem flushed_eq (c : Dev nD) (a : Inp) (h : Entry m c a) (t : Fin cfg0.N) :
    (dats m 0 c).flushed 7 t = ((cfg0.win 7).blk t).view.read (Elt Ideal) (Cert.Spec.out a) := by
  rw [Value.flushed7]
  have ht : t.val < 16 := lt_of_lt_of_eq t.isLt N_0
  refine funext fun (j : S512x1024.Idx) => ?_
  obtain ⟨p, o, rfl⟩ : ∃ (p : Fin 512) (o : Fin 1024), j = ix2 p o := ⟨j 0, j 1, eq_ix2 j⟩
  show out0_7 (iblk m c 0 t) (iblk m c 1 t) (iblk m c 2 t) (iblk m c 3 t) (iblk m c 4 t) (iblk m c 5 t) (iblk m c 6 t) (ix2 p o)
    = Cert.Spec.out a (((cfg0.win 7).blk t).view.emb (ix2 p o))
  rw [read7 t (Cert.Spec.out a) p o (⟨t.val * 512 + p.val, by omega⟩ : Fin 8192) rfl]
  show _ = Cert.Spec.z3 a (⟨t.val * 512 + p.val, by omega⟩ : Fin 8192) o
  refine KOut.out_apply a (⟨t.val * 512 + p.val, by omega⟩ : Fin 8192) p _ _ _ _ _ _ _ ?_ ?_ ?_ ?_ ?_ ?_ ?_ ?_ ?_ o
  · intro k; unfold iblk; exact (read0 c t (V m c) p k _ rfl).trans (h.xc _)
  · intro k; unfold iblk; exact (read1 c t (V m c) p k _ rfl).trans (h.xf _)
  · intro l q k; unfold iblk; exact (read2 c t (V m c) l q k).trans (h.wc l q k)
  · intro l q; unfold iblk; exact (read3 c t (V m c) l q).trans (h.bc l q)
  · intro l q k; unfold iblk; exact (read4 c t (V m c) l _ k).trans (h.wlo l q k)
  · intro l q k; unfold iblk; exact (read4 c t (V m c) l _ k).trans (h.whi l q k)
  · intro l q; unfold iblk; exact (read5 c t (V m c) l _).trans (h.blo l q)
  · intro l q; unfold iblk; exact (read5 c t (V m c) l _).trans (h.bhi l q)
  · intro l q i; unfold iblk; exact (read6 c t (V m c) l q i).trans (h.u l q i)

/-- An index of the result is in point t's block iff each coordinate is in the block's range on its axis. -/
theorem mem_blk (t : Fin cfg0.N) (i : S8192x1024.Idx) :
    i ∈ ((cfg0.win 7).blk t).view.set ↔ ∀ d : Fin 2, win0_7.index t d * S512x1024.size d ≤ (i d).val ∧ (i d).val < win0_7.index t d * S512x1024.size d + S512x1024.size d := by
  show i ∈ ((View.whole main_v0).slice (win0_7.rect t)).set ↔ _
  rw [View.set_slice_whole, Rect.mem_set_unit]
  exact Iff.rfl

/-- Every index of the result is in the block of the point its row falls to: row r belongs to point r / 512. -/
theorem cover (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have hN : (i 0).val / 512 < cfg0.N := lt_of_lt_of_eq (by omega : (i 0).val / 512 < 16) N_0.symm
  obtain ⟨f00, f01, f10, f11, f20, f21, f22, f30, f31, f40, f41, f42, f50, f51, f60, f61, f62, f70, f71⟩ := idx_facts ⟨(i 0).val / 512, hN⟩
  refine ⟨⟨(i 0).val / 512, hN⟩, flush0_7 _, ?_⟩
  rw [mem_blk]
  intro d
  match d with
  | ⟨0, _⟩ =>
    show win0_7.index ⟨(i 0).val / 512, hN⟩ (0 : Fin 2) * 512 ≤ (i 0).val ∧ (i 0).val < win0_7.index ⟨(i 0).val / 512, hN⟩ (0 : Fin 2) * 512 + 512
    have e : win0_7.index ⟨(i 0).val / 512, hN⟩ (0 : Fin 2) = (i 0).val / 512 := f70
    omega
  | ⟨1, _⟩ =>
    show win0_7.index ⟨(i 0).val / 512, hN⟩ (1 : Fin 2) * 1024 ≤ (i 1).val ∧ (i 1).val < win0_7.index ⟨(i 0).val / 512, hN⟩ (1 : Fin 2) * 1024 + 1024
    omega

/-- The result array after the run is the specification's. -/
theorem final (c : Dev nD) (a : Inp) (h : Entry m c a) : (dats m 0 c).arrAt 7 cfg0.N = Cert.Spec.out a :=
  (dats m 0 c).arrAt_eq_of_cover 7 (Cert.Spec.out a) (fun t _ => flushed_eq m c a h t) cover

/-- The kernel's run: the result at the specification's `out` of whatever input the entry contents spell, the
    arguments unchanged. -/
theorem run (a : Dev nD → Inp) (h : ∀ c, Entry m c (a c)) :
    θ_run defs (onTc (τ := τ) (main (F := Ideal))) ⟨m, fun _ => 0, ρ⟩ fun r => ∀ c : Dev nD,
      r.2.mem ((c : Thread nD τ).loc main_v0) = Cert.Spec.out (a c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r hr c => ⟨(hr c).1.trans (final m c (a c) (h c)), (hr c).2⟩) (Value.run_blocks m ρ)

end Cert.KernelIdeal.KValue

end
-- ==== Proof.KHostFns.lean ====
/-
  The host side of the kernel program, one entry at a time.

  Before its one region the program rewrites three weight stacks and one recurrent stack entry by entry and lays two
  pairs of arrays side by side. This module names those entrywise rewrites as functions of whole arrays, in the
  program's own spelling, and reads each of them at one entry:

  * softplus of every entry (`spV`): at an entry it is the specification's `sp` of that entry;
  * the signed weights (`mwV`): the sign vector of length 256 is laid out as a row [1, 1, 256], compared with zero,
    and both the row and the comparison are repeated over the two leading axes; an entry in column `k` is the
    specification's `mw` of the sign at `k` and the raw weight;
  * two arrays joined along the middle (or last) axis: a row below the first array's 1024 rows reads the first
    array, a row at or above reads the second, 1024 rows down.

  The change of float format that ends each rewrite is the identity on extended reals.
-/
import proofs.«150220_j44581760532841_2_alg».proof.Proof.Gen.KernelIdeal
import proofs.«150220_j44581760532841_2_alg».proof.Proof.Spec
import Idealize.ShloMosaic.Lib.Pipeline.Value
import Idealize.ShloMosaic.Lib.IdealHost

noncomputable section

namespace Cert.KernelIdeal.KHost

open Cert.KernelIdeal Cert.KernelIdeal.Gen Idealize.ShloMosaic Idealize.ShloMosaic.ValueIdx

variable {F : FTy → Type} [FloatOps F]

/-! ## softplus of every entry -/

/-- The zero array of shape `s`: the scalar zero repeated. -/
def zeroV (s : Shape) (h : S_.BroadcastsInDim s ![]) : FVec F s .f32 :=
  broadcastInDim s ![] h (constant S_ .f32 0x00000000#32)

/-- softplus of every entry, as the program spells it: where `x - 0` differs from itself, `x + 0`; elsewhere
    `max(x, 0) + log1p(exp(-|x - 0|))`. -/
def spV {s : Shape} (h : S_.BroadcastsInDim s ![]) (x : FVec F s .f32) : FVec F s .f32 :=
  select (cmpf .une (subf x (zeroV s h)) (subf x (zeroV s h)))
    (addf x (zeroV s h))
    (addf (maximumf x (zeroV s h)) (Host.log1p (Host.exp (Host.negf (Host.absf (subf x (zeroV s h)))))))

/-- At one entry it is the specification's softplus of that entry. -/
theorem spV_apply {s : Shape} (h : S_.BroadcastsInDim s ![]) (x : FVec Ideal s .f32) (i : s.Idx) :
    spV h x i = Cert.Spec.sp (x i) := rfl

/-! ## The sign vector as a row, and a row repeated over the two leading axes -/

/-- The sign vector of length 256 laid out as one row of shape [1, 1, 256]. -/
def signRow {α : Type} (sg : S256.Idx → α) : S1x1x256.Idx → α :=
  shapeCast S1x1x256 sg shapeCasts_S256_S1x1x256

/-- Column `k` of the row is entry `k` of the vector. -/
theorem signRow_apply {α : Type} (sg : S256.Idx → α) (k : Fin 256) :
    signRow sg (ix3 (0 : Fin 1) (0 : Fin 1) k) = sg (ix1 k) :=
  shapeCast_apply sg shapeCasts_S256_S1x1x256 (ix3 (0 : Fin 1) (0 : Fin 1) k) (ix1 k) (by
    rw [Shape.rowMajor_val_one, Shape.rowMajor_val_three]
    show k.val = ((0 : Fin 1).val * 1 + (0 : Fin 1).val) * 256 + k.val
    simp)

/-- A row [1, 1, 256] repeated to [4, 1024, 256] reads, at layer `l`, output `o`, column `k`, the row's column `k`. -/
theorem bcastRow_apply {α : Type} (x : S1x1x256.Idx → α) (l : Fin 4) (o : Fin 1024) (k : Fin 256) :
    broadcastInDim (s := S1x1x256) S4x1024x256 ![0, 1, 2] bcast_S1x1x256_S4x1024x256_0_1_2 x (ix3 l o k)
      = x (ix3 (0 : Fin 1) (0 : Fin 1) k) :=
  broadcastInDim_apply (s := S1x1x256) (t := S4x1024x256) ![0, 1, 2] bcast_S1x1x256_S4x1024x256_0_1_2 x (ix3 l o k)
    (ix3 (0 : Fin 1) (0 : Fin 1) k) (by
      show ∀ a : Fin 3, _
      intro a
      match a with
      | ⟨0, _⟩ => rfl
      | ⟨1, _⟩ => rfl
      | ⟨2, _⟩ => rfl)

/-! ## The signed weights -/

/-- A weight stack under its columns' signs, as the program spells it: where the sign row differs from zero, the sign
    times softplus of the weight; elsewhere the weight; then the change of float format. -/
def mwV (sg : FVec F S256 .f32) (w : FVec F S4x1024x256 .f32) : FVec F S4x1024x256 .bf16 :=
  truncf .bf16
    (select
      (broadcastInDim (s := S1x1x256) S4x1024x256 ![0, 1, 2] bcast_S1x1x256_S4x1024x256_0_1_2
        (cmpf .une (signRow sg) (zeroV S1x1x256 bcast_S_S1x1x256)))
      (mulf (broadcastInDim (s := S1x1x256) S4x1024x256 ![0, 1, 2] bcast_S1x1x256_S4x1024x256_0_1_2 (signRow sg))
        (spV bcast_S_S4x1024x256 w))
      w)
    bitsLt_bf16_f32

/-- At layer `l`, output `o`, column `k` it is the specification's signed weight of the sign at `k` and the raw
    weight there. -/
theorem mwV_apply (sg : FVec Ideal S256 .f32) (w : FVec Ideal S4x1024x256 .f32) (l : Fin 4) (o : Fin 1024) (k : Fin 256) :
    mwV sg w (ix3 l o k) = Cert.Spec.mw (sg (ix1 k)) (w (ix3 l o k)) := by
  unfold mwV
  rw [truncf_apply, select_apply, mulf_apply, bcastRow_apply, bcastRow_apply, cmpf_apply, signRow_apply, spV_apply]
  rfl

/-! ## Two arrays side by side -/

/-- Two weight stacks joined along the output axis: an output below 1024 reads the first stack. -/
theorem cat3_lo {α : Type} (x₁ x₂ : S4x1024x256.Idx → α)
    (h : Shape.Concatenates [S4x1024x256, S4x1024x256] S4x2048x256 1) (l : Fin 4) (o : Fin 1024) (k : Fin 256) :
    concatenate S4x2048x256 1 [⟨S4x1024x256, x₁⟩, ⟨S4x1024x256, x₂⟩] h (ix3 l (⟨o.val, by omega⟩ : Fin 2048) k)
      = x₁ (ix3 l o k) :=
  concatenate_pair_apply_left (t := S4x2048x256) (s₁ := S4x1024x256) (s₂ := S4x1024x256) 1 x₁ x₂ h
    (ix3 l (⟨o.val, by omega⟩ : Fin 2048) k) rfl (ix3 l o k) (by
      show ∀ b : Fin 3, _
      intro b
      match b with
      | ⟨0, _⟩ => rfl
      | ⟨1, _⟩ => rfl
      | ⟨2, _⟩ => rfl)

/-- … and output `1024 + o` reads the second stack at output `o`. -/
theorem cat3_hi {α : Type} (x₁ x₂ : S4x1024x256.Idx → α)
    (h : Shape.Concatenates [S4x1024x256, S4x1024x256] S4x2048x256 1) (l : Fin 4) (o : Fin 1024) (k : Fin 256) :
    concatenate S4x2048x256 1 [⟨S4x1024x256, x₁⟩, ⟨S4x1024x256, x₂⟩] h (ix3 l (⟨1024 + o.val, by omega⟩ : Fin 2048) k)
      = x₂ (ix3 l o k) :=
  concatenate_pair_apply_right (t := S4x2048x256) (s₁ := S4x1024x256) (s₂ := S4x1024x256) 1 x₁ x₂ h
    (ix3 l (⟨1024 + o.val, by omega⟩ : Fin 2048) k) rfl rfl (ix3 l o k) (by
      show ∀ b : Fin 3, _
      intro b
      match b with
      | ⟨0, _⟩ => exact fun _ => rfl
      | ⟨1, _⟩ => exact fun hne => absurd rfl hne
      | ⟨2, _⟩ => exact fun _ => rfl) (by
      show o.val + 1024 = 1024 + o.val
      omega)

/-- Two bias arrays joined along the output axis: an output below 1024 reads the first array. -/
theorem cat2_lo {α : Type} (x₁ x₂ : S4x1024.Idx → α)
    (h : Shape.Concatenates [S4x1024, S4x1024] S4x2048 1) (l : Fin 4) (o : Fin 1024) :
    concatenate S4x2048 1 [⟨S4x1024, x₁⟩, ⟨S4x1024, x₂⟩] h (ix2 l (⟨o.val, by omega⟩ : Fin 2048)) = x₁ (ix2 l o) :=
  concatenate_pair_apply_left (t := S4x2048) (s₁ := S4x1024) (s₂ := S4x1024) 1 x₁ x₂ h
    (ix2 l (⟨o.val, by omega⟩ : Fin 2048)) rfl (ix2 l o) (by
      show ∀ b : Fin 2, _
      intro b
      match b with
      | ⟨0, _⟩ => rfl
      | ⟨1, _⟩ => rfl)

/-- … and output `1024 + o` reads the second array at output `o`. -/
theorem cat2_hi {α : Type} (x₁ x₂ : S4x1024.Idx → α)
    (h : Shape.Concatenates [S4x1024, S4x1024] S4x2048 1) (l : Fin 4) (o : Fin 1024) :
    concatenate S4x2048 1 [⟨S4x1024, x₁⟩, ⟨S4x1024, x₂⟩] h (ix2 l (⟨1024 + o.val, by omega⟩ : Fin 2048)) = x₂ (ix2 l o) :=
  concatenate_pair_apply_right (t := S4x2048) (s₁ := S4x1024) (s₂ := S4x1024) 1 x₁ x₂ h
    (ix2 l (⟨1024 + o.val, by omega⟩ : Fin 2048)) rfl rfl (ix2 l o) (by
      show ∀ b : Fin 2, _
      intro b
      match b with
      | ⟨0, _⟩ => exact fun _ => rfl
      | ⟨1, _⟩ => exact fun hne => absurd rfl hne) (by
      show o.val + 1024 = 1024 + o.val
      omega)

end Cert.KernelIdeal.KHost

end
-- ==== Proof.LibTypedRef.lean ====
/-
  Typed references of a module-local function's operations. An operation of an outlined function reads and writes its
  buffers through typed references: a result is transported to its buffer's type when written and back to the value's
  type when the next operation reads it. The two transports cancel, so a line of such operations composes to the
  plain composition of their functions.
-/
import Idealize.ShloMosaic.Lib.StableHlo

namespace Idealize.ShloMosaic.StableHlo.TRef

variable {sig : RefSig} {Val : EltTy → Type} {T : BufTy}

/-- Written to the buffer and read back: the value. -/
theorem ofBuf_toBuf (x : TRef sig T) (v : T.Contents Val) : x.ofBuf (x.toBuf v) = v := by
  obtain ⟨r, ty_eq, h1, h2⟩ := x
  subst ty_eq
  rfl

/-- Read from the buffer and written back: the contents. -/
theorem toBuf_ofBuf (x : TRef sig T) (v : x.ref.ty.Contents Val) : x.toBuf (x.ofBuf v) = v := by
  obtain ⟨r, ty_eq, h1, h2⟩ := x
  subst ty_eq
  rfl

end Idealize.ShloMosaic.StableHlo.TRef
-- ==== Proof.KHostU.lean ====
/-
  The recurrent stack when the region is entered: softplus of every entry of the raw stack, then the change of float
  format. Fourteen operations compute it; every intermediate array is written once and read back unchanged, so they
  compose to the one function `spV` of the launch array.
-/
import proofs.«150220_j44581760532841_2_alg».proof.Proof.Gen.KernelIdeal.Frame
import proofs.«150220_j44581760532841_2_alg».proof.Proof.KHostFns
import proofs.«150220_j44581760532841_2_alg».proof.Proof.LibTypedRef

set_option maxRecDepth 16384

noncomputable section

namespace Cert.KernelIdeal.KHost

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ)

set_option maxHeartbeats 4000000 in
/-- The recurrent stack as the region finds it: softplus of every entry of the launch array. -/
theorem V25_eq (c : Dev nD) :
    @Eq (S3x1024x1024.Idx → EReal) (V m c main_call0_v25)
      (truncf (F := Ideal) .bf16 (spV bcast_S_S3x1024x1024 (m ((c : Thread nD τ).loc main_arg8))) bitsLt_bf16_f32) := by
  dsimp only [Gen.V, Gen.hostOps0]
  after_results_simp
  simp only [TRef.ofBuf_toBuf]
  rfl

end Cert.KernelIdeal.KHost

end
-- ==== Proof.KHostWc.lean ====
/-
  The first weight stack when the region is entered: every entry of the raw stack under its column's sign (the first
  sign table), then the change of float format. Every intermediate array is written once and read back unchanged, so
  the operations compose to the one function `mwV` of the sign table and the launch array.
-/
import proofs.«150220_j44581760532841_2_alg».proof.Proof.Gen.KernelIdeal.Frame
import proofs.«150220_j44581760532841_2_alg».proof.Proof.KHostFns
import proofs.«150220_j44581760532841_2_alg».proof.Proof.LibTypedRef

set_option maxRecDepth 16384

noncomputable section

namespace Cert.KernelIdeal.KHost

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ)

/-- The first sign table: its words read as floats. -/
abbrev signC : FVec Ideal S256 .f32 := fun i => FloatOps.ofBits .f32 (lit0 (S256.rowMajor i))

set_option maxHeartbeats 4000000 in
/-- The first weight stack as the region finds it: the signed weights of the launch array. -/
theorem V7_eq (c : Dev nD) :
    @Eq (S4x1024x256.Idx → EReal) (V m c main_call0_v7) (mwV signC (m ((c : Thread nD τ).loc main_arg2))) := by
  dsimp only [Gen.V, Gen.hostOps0]
  after_results_simp
  simp only [TRef.ofBuf_toBuf]
  rfl

end Cert.KernelIdeal.KHost

end
-- ==== Proof.KHostWu.lean ====
/-
  The second and third weight stacks when the region is entered: every entry of the raw stack under its column's sign
  (the second sign table, shared by both), then the change of float format. As for the first stack, every intermediate
  array is written once and read back unchanged, so the operations compose to the one function `mwV` of the sign
  table and the launch array.
-/
import proofs.«150220_j44581760532841_2_alg».proof.Proof.Gen.KernelIdeal.Frame
import proofs.«150220_j44581760532841_2_alg».proof.Proof.KHostFns
import proofs.«150220_j44581760532841_2_alg».proof.Proof.LibTypedRef

set_option maxRecDepth 16384

noncomputable section

namespace Cert.KernelIdeal.KHost

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ)

/-- The second sign table: its words read as floats. -/
abbrev signF : FVec Ideal S256 .f32 := fun i => FloatOps.ofBits .f32 (lit1 (S256.rowMajor i))

set_option maxHeartbeats 4000000 in
/-- The second weight stack as the region's joined stack takes it: the signed weights of the launch array. -/
theorem V15_eq (c : Dev nD) :
    @Eq (S4x1024x256.Idx → EReal) (V m c main_call0_v15) (mwV signF (m ((c : Thread nD τ).loc main_arg4))) := by
  dsimp only [Gen.V, Gen.hostOps0]
  after_results_simp
  simp only [TRef.ofBuf_toBuf]
  rfl

set_option maxHeartbeats 4000000 in
/-- The third weight stack likewise. -/
theorem V23_eq (c : Dev nD) :
    @Eq (S4x1024x256.Idx → EReal) (V m c main_call0_v23) (mwV signF (m ((c : Thread nD τ).loc main_arg6))) := by
  dsimp only [Gen.V, Gen.hostOps0]
  after_results_simp
  simp only [TRef.ofBuf_toBuf]
  rfl

end Cert.KernelIdeal.KHost

end
-- ==== Proof.KHostCat.lean ====
/-
  The two joined arrays when the region is entered.

  The last two host operations lay the third weight stack beside the second along the output axis (2048 outputs per
  layer) and the third bias array beside the second. Neither operation writes any array the other reads, so each
  joined array is the join of what the earlier operations left: the two signed weight stacks, and the two bias arrays
  as launched.
-/
import proofs.«150220_j44581760532841_2_alg».proof.Proof.Gen.KernelIdeal.Frame
import proofs.«150220_j44581760532841_2_alg».proof.Proof.KHostFns
import proofs.«150220_j44581760532841_2_alg».proof.Proof.KHostWu

set_option maxRecDepth 16384

noncomputable section

namespace Cert.KernelIdeal.KHost

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ)

set_option maxHeartbeats 4000000 in
/-- The joined weight stack as the region finds it: the third stack's signed weights, then the second's. -/
theorem V26_eq (c : Dev nD) :
    @Eq (S4x2048x256.Idx → EReal) (V m c main_call0_v26)
      (concatenate S4x2048x256 1
        [⟨S4x1024x256, mwV signF (m ((c : Thread nD τ).loc main_arg6))⟩,
         ⟨S4x1024x256, mwV signF (m ((c : Thread nD τ).loc main_arg4))⟩]
        concatenates_S4x1024x256_S4x1024x256_S4x2048x256_d1) := by
  have h23 := V23_eq m c
  have h15 := V15_eq m c
  dsimp only [Gen.V, Gen.hostOps0] at h23 h15 ⊢
  simp only [after_cons, after_nil] at h23 h15 ⊢
  rw [binary_result_ne] at h23; rotate_left; decide
  rw [binary_result_ne] at h23; rotate_left; decide
  rw [binary_result_ne] at h15; rotate_left; decide
  rw [binary_result_ne] at h15; rotate_left; decide
  rw [binary_result_ne]; rotate_left; decide
  rw [binary_result]
  rw [h23, h15]
  rfl

set_option maxHeartbeats 4000000 in
/-- The joined bias array as the region finds it: the third bias array as launched, then the second. -/
theorem V27_eq (c : Dev nD) :
    @Eq (S4x2048.Idx → EReal) (V m c main_call0_v27)
      (concatenate (α := EReal) S4x2048 1
        [⟨S4x1024, (m ((c : Thread nD τ).loc main_arg7) : S4x1024.Idx → EReal)⟩,
         ⟨S4x1024, (m ((c : Thread nD τ).loc main_arg5) : S4x1024.Idx → EReal)⟩]
        concatenates_S4x1024_S4x1024_S4x2048_d1) := by
  have h7 := V_main_arg7 m c
  have h5 := V_main_arg5 m c
  dsimp only [Gen.V, Gen.hostOps0] at h7 h5 ⊢
  simp only [after_cons, after_nil] at h7 h5 ⊢
  rw [binary_result_ne] at h7; rotate_left; decide
  rw [binary_result_ne] at h5; rotate_left; decide
  rw [binary_result]
  rw [h7, h5]
  rfl

end Cert.KernelIdeal.KHost

end
-- ==== Proof.KHost.lean ====
/-
  What the kernel's window arrays hold when its one region is entered, entry by entry, in the specification's words.

  The region's windows over the three signed weight stacks, the recurrent stack and the two joined arrays all read
  arrays the host operations wrote. Entry by entry:

  * the first weight stack at layer `l`, output `o`, column `k` is the specification's signed weight `wcM`;
  * the joined weight stack (2048 outputs per layer) holds the third stack's signed weights `wutM` at outputs below
    1024 and the second stack's `wuM` at outputs 1024 and above;
  * the joined bias array holds the third bias array at outputs below 1024 and the second at 1024 and above, both as
    launched;
  * the recurrent stack at layer `l`, output `o`, input `j` is the specification's `uM`: softplus of the raw entry.

  The specification's input record is read off the launch memory: the nine argument arrays as launched and the two
  sign tables of the program's text.
-/
import proofs.«150220_j44581760532841_2_alg».proof.Proof.Gen.KernelIdeal.Frame
import proofs.«150220_j44581760532841_2_alg».proof.Proof.KHostFns
import proofs.«150220_j44581760532841_2_alg».proof.Proof.KHostU
import proofs.«150220_j44581760532841_2_alg».proof.Proof.KHostWc
import proofs.«150220_j44581760532841_2_alg».proof.Proof.KHostWu
import proofs.«150220_j44581760532841_2_alg».proof.Proof.KHostCat

noncomputable section

namespace Cert.KernelIdeal.KHost

open Cert.KernelIdeal Cert.KernelIdeal.Gen Idealize.ShloMosaic Idealize.ShloMosaic.TcCoe Idealize.ShloMosaic.ValueIdx

/-- The specification's input record from the nine argument arrays; the two sign vectors are the program's two sign
    tables, their words read as floats. -/
def inp (xc xf : FVec Ideal S8192x256 .f32) (wc : FVec Ideal S4x1024x256 .f32) (bc : FVec Ideal S4x1024 .f32)
    (wu : FVec Ideal S4x1024x256 .f32) (bu : FVec Ideal S4x1024 .f32) (wut : FVec Ideal S4x1024x256 .f32)
    (but : FVec Ideal S4x1024 .f32) (ru : FVec Ideal S3x1024x1024 .f32) : Cert.Spec.Inp :=
  { xc := xc, xf := xf, wc := wc, bc := bc, wu := wu, bu := bu, wut := wut, but := but, ru := ru,
    sc := fun i => FloatOps.ofBits (F := Ideal) .f32 (lit0 (S256.rowMajor i)),
    sf := fun i => FloatOps.ofBits (F := Ideal) .f32 (lit1 (S256.rowMajor i)) }

/-- The input record of core `c`'s launch memory. -/
abbrev inpM (m : (ℓ : Loc nD τ sig) → Buf (Elt Ideal) ℓ) (c : Dev nD) : Cert.Spec.Inp :=
  inp (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

variable (m : (ℓ : Loc nD τ sig) → Buf (Elt Ideal) ℓ)

/-- The first weight stack, entry by entry: the specification's signed weights. -/
theorem V_wc (c : Dev nD) (l : Fin 4) (o : Fin 1024) (k : Fin 256) :
    (V m c main_call0_v7 : S4x1024x256.Idx → EReal) (ix3 l o k) = Cert.Spec.wcM (inpM m c) l o k :=
  (congrFun (V7_eq m c) (ix3 l o k)).trans (mwV_apply signC _ l o k)

/-- The joined weight stack at an output below 1024: the third stack's signed weights. -/
theorem V_wcat_lo (c : Dev nD) (l : Fin 4) (o : Fin 1024) (k : Fin 256) :
    (V m c main_call0_v26 : S4x2048x256.Idx → EReal) (ix3 l (⟨o.val, by omega⟩ : Fin 2048) k)
      = Cert.Spec.wutM (inpM m c) l o k :=
  (congrFun (V26_eq m c) _).trans ((cat3_lo _ _ _ l o k).trans (mwV_apply signF _ l o k))

/-- The joined weight stack at output `1024 + o`: the second stack's signed weights at output `o`. -/
theorem V_wcat_hi (c : Dev nD) (l : Fin 4) (o : Fin 1024) (k : Fin 256) :
    (V m c main_call0_v26 : S4x2048x256.Idx → EReal) (ix3 l (⟨1024 + o.val, by omega⟩ : Fin 2048) k)
      = Cert.Spec.wuM (inpM m c) l o k :=
  (congrFun (V26_eq m c) _).trans ((cat3_hi _ _ _ l o k).trans (mwV_apply signF _ l o k))

/-- The joined bias array at an output below 1024: the third bias array as launched. -/
theorem V_bcat_lo (c : Dev nD) (l : Fin 4) (o : Fin 1024) :
    (V m c main_call0_v27 : S4x2048.Idx → EReal) (ix2 l (⟨o.val, by omega⟩ : Fin 2048)) = (inpM m c).but (ix2 l o) :=
  (congrFun (V27_eq m c) _).trans (cat2_lo _ _ _ l o)

/-- The joined bias array at output `1024 + o`: the second bias array as launched, at output `o`. -/
theorem V_bcat_hi (c : Dev nD) (l : Fin 4) (o : Fin 1024) :
    (V m c main_call0_v27 : S4x2048.Idx → EReal) (ix2 l (⟨1024 + o.val, by omega⟩ : Fin 2048)) = (inpM m c).bu (ix2 l o) :=
  (congrFun (V27_eq m c) _).trans (cat2_hi _ _ _ l o)

/-- The recurrent stack, entry by entry: softplus of the raw entry. -/
theorem V_u (c : Dev nD) (l : Fin 3) (o j : Fin 1024) :
    (V m c main_call0_v25 : S3x1024x1024.Idx → EReal) (ix3 l o j) = Cert.Spec.uM (inpM m c) l o j :=
  ((congrFun (V25_eq m c) (ix3 l o j)).trans (truncf_apply _ _ _)).trans (spV_apply _ _ _)

end Cert.KernelIdeal.KHost

end
-- ==== Proof.RefOps.lean ====
/-
  The reference program's @main as lists of host operations: every statement in order, an outlined function's
  operations listed at its call over the call's own buffers. The lists are cut where a printed window ends and where
  the computation passes from one path of a layer to the next (the two sign tables; per layer the gate, the xc side,
  the xf side, from the second layer on the previous layer's side, and the closing sum and relu), so that both the
  printed windows and the paths are concatenations of them. Beside each list, the buffers it writes.
-/
import proofs.«150220_j44581760532841_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- 2 operations of path pre in window 0. -/
def prew0 : List (HloOp τ sig (Elt F)) :=
  [ StableHlo.nullary main_cst (fun i => FloatOps.ofBits .f32 (lit0 (S256.rowMajor i))),
    StableHlo.nullary main_cst_0 (fun i => FloatOps.ofBits .f32 (lit1 (S256.rowMajor i))) ]
/-- The buffers these operations write. -/
abbrev prew0_W : List (Ref sig .tc) := [main_cst, main_cst_0]

/-- 34 operations of path g0 in window 0. -/
def g0w0 : List (HloOp τ sig (Elt F)) :=
  [ StableHlo.unary main_arg6 main_v0 ((extractStridedSlice S1x1024x256 ![0, 0, 0] · slices_S4x1024x256_S1x1024x256_0_0_0) : (⟨S4x1024x256, .f32⟩ : BufTy).Contents (Elt F) → (⟨S1x1024x256, .f32⟩ : BufTy).Contents (Elt F)),
    StableHlo.reshape main_v0 main_v1 rfl shapeCasts_S1x1024x256_S1024x256,
    StableHlo.nullary main_call0_cst ((constant S_ .f32 0x00000000#32) : (⟨S_, .f32⟩ : BufTy).Contents (Elt F)),
    StableHlo.unary main_call0_cst main_call0_v0 ((broadcastInDim S1024x256 ![] bcast_S_S1024x256) : (⟨S_, .f32⟩ : BufTy).Contents (Elt F) → (⟨S1024x256, .f32⟩ : BufTy).Contents (Elt F)),
    StableHlo.binary main_v1 main_call0_v0 main_call0_v1 (maximumf : (⟨S1024x256, .f32⟩ : BufTy).Contents (Elt F) → (⟨S1024x256, .f32⟩ : BufTy).Contents (Elt F) → (⟨S1024x256, .f32⟩ : BufTy).Contents (Elt F)),
    StableHlo.unary main_call0_cst main_call0_v2 ((broadcastInDim S1024x256 ![] bcast_S_S1024x256) : (⟨S_, .f32⟩ : BufTy).Contents (Elt F) → (⟨S1024x256, .f32⟩ : BufTy).Contents (Elt F)),
    StableHlo.binary main_v1 main_call0_v2 main_call0_v3 (subf : (⟨S1024x256, .f32⟩ : BufTy).Contents (Elt F) → (⟨S1024x256, .f32⟩ : BufTy).Contents (Elt F) → (⟨S1024x256, .f32⟩ : BufTy).Contents (Elt F)),
    StableHlo.binary main_call0_v3 main_call0_v3 main_call0_v4 ((cmpf .une) : (⟨S1024x256, .f32⟩ : BufTy).Contents (Elt F) → (⟨S1024x256, .f32⟩ : BufTy).Contents (Elt F) → (⟨S1024x256, .i1⟩ : BufTy).Contents (Elt F)),
    StableHlo.unary main_call0_cst main_call0_v5 ((broadcastInDim S1024x256 ![] bcast_S_S1024x256) : (⟨S_, .f32⟩ : BufTy).Contents (Elt F) → (⟨S1024x256, .f32⟩ : BufTy).Contents (Elt F)),
    StableHlo.binary main_v1 main_call0_v5 main_call0_v6 (addf : (⟨S1024x256, .f32⟩ : BufTy).Contents (Elt F) → (⟨S1024x256, .f32⟩ : BufTy).Contents (Elt F) → (⟨S1024x256, .f32⟩ : BufTy).Contents (Elt F)),
    StableHlo.unary main_call0_v3 main_call0_v7 (Host.absf : (⟨S1024x256, .f32⟩ : BufTy).Contents (Elt F) → (⟨S1024x256, .f32⟩ : BufTy).Contents (Elt F)),
    StableHlo.unary main_call0_v7 main_call0_v8 (Host.negf : (⟨S1024x256, .f32⟩ : BufTy).Contents (Elt F) → (⟨S1024x256, .f32⟩ : BufTy).Contents (Elt F)),
    StableHlo.unary main_call0_v8 main_call0_v9 (Host.exp : (⟨S1024x256, .f32⟩ : BufTy).Contents (Elt F) → (⟨S1024x256, .f32⟩ : BufTy).Contents (Elt F)),
    StableHlo.unary main_call0_v9 main_call0_v10 (Host.log1p : (⟨S1024x256, .f32⟩ : BufTy).Contents (Elt F) → (⟨S1024x256, .f32⟩ : BufTy).Contents (Elt F)),
    StableHlo.binary main_call0_v1 main_call0_v10 main_call0_v11 (addf : (⟨S1024x256, .f32⟩ : BufTy).Contents (Elt F) → (⟨S1024x256, .f32⟩ : BufTy).Contents (Elt F) → (⟨S1024x256, .f32⟩ : BufTy).Contents (Elt F)),
    StableHlo.ternary main_call0_v4 main_call0_v6 main_call0_v11 main_v2 (select : (⟨S1024x256, .i1⟩ : BufTy).Contents (Elt F) → (⟨S1024x256, .f32⟩ : BufTy).Contents (Elt F) → (⟨S1024x256, .f32⟩ : BufTy).Contents (Elt F) → (⟨S1024x256, .f32⟩ : BufTy).Contents (Elt F)),
    StableHlo.nullary main_cst_1 (constant S_ .f32 0x00000000#32),
    StableHlo.unary main_cst_1 main_v3 (broadcastInDim S256 ![] bcast_S_S256 : (⟨S_, .f32⟩ : BufTy).Contents (Elt F) → (⟨S256, .f32⟩ : BufTy).Contents (Elt F)),
    StableHlo.binary main_cst main_v3 main_v4 (cmpf .une : (⟨S256, .f32⟩ : BufTy).Contents (Elt F) → (⟨S256, .f32⟩ : BufTy).Contents (Elt F) → (⟨S256, .i1⟩ : BufTy).Contents (Elt F)),
    StableHlo.unary main_cst main_v5 (broadcastInDim S1x256 ![1] bcast_S256_S1x256_1 : (⟨S256, .f32⟩ : BufTy).Contents (Elt F) → (⟨S1x256, .f32⟩ : BufTy).Contents (Elt F)),
    StableHlo.unary main_v5 main_v6 (broadcastInDim S1024x256 ![0, 1] bcast_S1x256_S1024x256_0_1 : (⟨S1x256, .f32⟩ : BufTy).Contents (Elt F) → (⟨S1024x256, .f32⟩ : BufTy).Contents (Elt F)),
    StableHlo.binary main_v6 main_v2 main_v7 (mulf : (⟨S1024x256, .f32⟩ : BufTy).Contents (Elt F) → (⟨S1024x256, .f32⟩ : BufTy).Contents (Elt F) → (⟨S1024x256, .f32⟩ : BufTy).Contents (Elt F)),
    StableHlo.unary main_v4 main_call1_v0 ((broadcastInDim S1024x256 ![1] bcast_S256_S1024x256_1) : (⟨S256, .i1⟩ : BufTy).Contents (Elt F) → (⟨S1024x256, .i1⟩ : BufTy).Contents (Elt F)),
    StableHlo.ternary main_call1_v0 main_v7 main_v1 main_v8 (select : (⟨S1024x256, .i1⟩ : BufTy).Contents (Elt F) → (⟨S1024x256, .f32⟩ : BufTy).Contents (Elt F) → (⟨S1024x256, .f32⟩ : BufTy).Contents (Elt F) → (⟨S1024x256, .f32⟩ : BufTy).Contents (Elt F)),
    StableHlo.unary main_v8 main_v9 ((transpose S256x1024 [1, 0] · transposes_S1024x256_S256x1024_1_0) : (⟨S1024x256, .f32⟩ : BufTy).Contents (Elt F) → (⟨S256x1024, .f32⟩ : BufTy).Contents (Elt F)),
    StableHlo.binary main_arg1 main_v9 main_v10 ((fun l r => Host.dotGeneral dot_S8192x256_S256x1024_S8192x1024_1_0_0_1_n_n none l r) : (⟨S8192x256, .f32⟩ : BufTy).Contents (Elt F) → (⟨S256x1024, .f32⟩ : BufTy).Contents (Elt F) → (⟨S8192x1024, .f32⟩ : BufTy).Contents (Elt F)),
    StableHlo.unary main_arg7 main_v11 ((extractStridedSlice S1x1024 ![0, 0] · slices_S4x1024_S1x1024_0_0) : (⟨S4x1024, .f32⟩ : BufTy).Contents (Elt F) → (⟨S1x1024, .f32⟩ : BufTy).Contents (Elt F)),
    StableHlo.reshape main_v11 main_v12 rfl shapeCasts_S1x1024_S1024,
    StableHlo.unary main_v12 main_v13 (broadcastInDim S1x1024 ![1] bcast_S1024_S1x1024_1 : (⟨S1024, .f32⟩ : BufTy).Contents (Elt F) → (⟨S1x1024, .f32⟩ : BufTy).Contents (Elt F)),
    StableHlo.unary main_v13 main_v14 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v10 main_v14 main_v15 (addf : (⟨S8192x1024, .f32⟩ : BufTy).Contents (Elt F) → (⟨S8192x1024, .f32⟩ : BufTy).Contents (Elt F) → (⟨S8192x1024, .f32⟩ : BufTy).Contents (Elt F)),
    StableHlo.nullary main_call2_cst ((constant S_ .f32 0x00000000#32) : (⟨S_, .f32⟩ : BufTy).Contents (Elt F)),
    StableHlo.unary main_call2_cst main_call2_v0 ((broadcastInDim S8192x1024 ![] bcast_S_S8192x1024) : (⟨S_, .f32⟩ : BufTy).Contents (Elt F) → (⟨S8192x1024, .f32⟩ : BufTy).Contents (Elt F)),
    StableHlo.binary main_v15 main_call2_v0 main_v16 (maximumf : (⟨S8192x1024, .f32⟩ : BufTy).Contents (Elt F) → (⟨S8192x1024, .f32⟩ : BufTy).Contents (Elt F) → (⟨S8192x1024, .f32⟩ : BufTy).Contents (Elt F)) ]
/-- The buffers these operations write. -/
abbrev g0w0_W : List (Ref sig .tc) := [main_v0, main_v1, main_call0_cst, main_call0_v0, main_call0_v1, main_call0_v2, main_call0_v3, main_call0_v4, main_call0_v5, main_call0_v6, main_call0_v7, main_call0_v8, main_call0_v9, main_call0_v10, main_call0_v11, main_v2, main_cst_1, main_v3, main_v4, main_v5, main_v6, main_v7, main_call1_v0, main_v8, main_v9, main_v10, main_v11, main_v12, main_v13, main_v14, main_v15, main_call2_cst, main_call2_v0, main_v16]

/-- 31 operations of path c0 in window 0. -/
def c0w0 : List (HloOp τ sig (Elt F)) :=
  [ StableHlo.unary main_arg2 main_v17 ((extractStridedSlice S1x1024x256 ![0, 0, 0] · slices_S4x1024x256_S1x1024x256_0_0_0) : (⟨S4x1024x256, .f32⟩ : BufTy).Contents (Elt F) → (⟨S1x1024x256, .f32⟩ : BufTy).Contents (Elt F)),
    StableHlo.reshape main_v17 main_v18 rfl shapeCasts_S1x1024x256_S1024x256,
    StableHlo.nullary main_call3_cst ((constant S_ .f32 0x00000000#32) : (⟨S_, .f32⟩ : BufTy).Contents (Elt F)),
    StableHlo.unary main_call3_cst main_call3_v0 ((broadcastInDim S1024x256 ![] bcast_S_S1024x256) : (⟨S_, .f32⟩ : BufTy).Contents (Elt F) → (⟨S1024x256, .f32⟩ : BufTy).Contents (Elt F)),
    StableHlo.binary main_v18 main_call3_v0 main_call3_v1 (maximumf : (⟨S1024x256, .f32⟩ : BufTy).Contents (Elt F) → (⟨S1024x256, .f32⟩ : BufTy).Contents (Elt F) → (⟨S1024x256, .f32⟩ : BufTy).Contents (Elt F)),
    StableHlo.unary main_call3_cst main_call3_v2 ((broadcastInDim S1024x256 ![] bcast_S_S1024x256) : (⟨S_, .f32⟩ : BufTy).Contents (Elt F) → (⟨S1024x256, .f32⟩ : BufTy).Contents (Elt F)),
    StableHlo.binary main_v18 main_call3_v2 main_call3_v3 (subf : (⟨S1024x256, .f32⟩ : BufTy).Contents (Elt F) → (⟨S1024x256, .f32⟩ : BufTy).Contents (Elt F) → (⟨S1024x256, .f32⟩ : BufTy).Contents (Elt F)),
    StableHlo.binary main_call3_v3 main_call3_v3 main_call3_v4 ((cmpf .une) : (⟨S1024x256, .f32⟩ : BufTy).Contents (Elt F) → (⟨S1024x256, .f32⟩ : BufTy).Contents (Elt F) → (⟨S1024x256, .i1⟩ : BufTy).Contents (Elt F)),
    StableHlo.unary main_call3_cst main_call3_v5 ((broadcastInDim S1024x256 ![] bcast_S_S1024x256) : (⟨S_, .f32⟩ : BufTy).Contents (Elt F) → (⟨S1024x256, .f32⟩ : BufTy).Contents (Elt F)),
    StableHlo.binary main_v18 main_call3_v5 main_call3_v6 (addf : (⟨S1024x256, .f32⟩ : BufTy).Contents (Elt F) → (⟨S1024x256, .f32⟩ : BufTy).Contents (Elt F) → (⟨S1024x256, .f32⟩ : BufTy).Contents (Elt F)),
    StableHlo.unary main_call3_v3 main_call3_v7 (Host.absf : (⟨S1024x256, .f32⟩ : BufTy).Contents (Elt F) → (⟨S1024x256, .f32⟩ : BufTy).Contents (Elt F)),
    StableHlo.unary main_call3_v7 main_call3_v8 (Host.negf : (⟨S1024x256, .f32⟩ : BufTy).Contents (Elt F) → (⟨S1024x256, .f32⟩ : BufTy).Contents (Elt F)),
    StableHlo.unary main_call3_v8 main_call3_v9 (Host.exp : (⟨S1024x256, .f32⟩ : BufTy).Contents (Elt F) → (⟨S1024x256, .f32⟩ : BufTy).Contents (Elt F)),
    StableHlo.unary main_call3_v9 main_call3_v10 (Host.log1p : (⟨S1024x256, .f32⟩ : BufTy).Contents (Elt F) → (⟨S1024x256, .f32⟩ : BufTy).Contents (Elt F)),
    StableHlo.binary main_call3_v1 main_call3_v10 main_call3_v11 (addf : (⟨S1024x256, .f32⟩ : BufTy).Contents (Elt F) → (⟨S1024x256, .f32⟩ : BufTy).Contents (Elt F) → (⟨S1024x256, .f32⟩ : BufTy).Contents (Elt F)),
    StableHlo.ternary main_call3_v4 main_call3_v6 main_call3_v11 main_v19 (select : (⟨S1024x256, .i1⟩ : BufTy).Contents (Elt F) → (⟨S1024x256, .f32⟩ : BufTy).Contents (Elt F) → (⟨S1024x256, .f32⟩ : BufTy).Contents (Elt F) → (⟨S1024x256, .f32⟩ : BufTy).Contents (Elt F)),
    StableHlo.nullary main_cst_2 (constant S_ .f32 0x00000000#32),
    StableHlo.unary main_cst_2 main_v20 (broadcastInDim S256 ![] bcast_S_S256 : (⟨S_, .f32⟩ : BufTy).Contents (Elt F) → (⟨S256, .f32⟩ : BufTy).Contents (Elt F)),
    StableHlo.binary main_cst_0 main_v20 main_v21 (cmpf .une : (⟨S256, .f32⟩ : BufTy).Contents (Elt F) → (⟨S256, .f32⟩ : BufTy).Contents (Elt F) → (⟨S256, .i1⟩ : BufTy).Contents (Elt F)),
    StableHlo.unary main_cst_0 main_v22 (broadcastInDim S1x256 ![1] bcast_S256_S1x256_1 : (⟨S256, .f32⟩ : BufTy).Contents (Elt F) → (⟨S1x256, .f32⟩ : BufTy).Contents (Elt F)),
    StableHlo.unary main_v22 main_v23 (broadcastInDim S1024x256 ![0, 1] bcast_S1x256_S1024x256_0_1 : (⟨S1x256, .f32⟩ : BufTy).Contents (Elt F) → (⟨S1024x256, .f32⟩ : BufTy).Contents (Elt F)),
    StableHlo.binary main_v23 main_v19 main_v24 (mulf : (⟨S1024x256, .f32⟩ : BufTy).Contents (Elt F) → (⟨S1024x256, .f32⟩ : BufTy).Contents (Elt F) → (⟨S1024x256, .f32⟩ : BufTy).Contents (Elt F)),
    StableHlo.unary main_v21 main_call4_v0 ((broadcastInDim S1024x256 ![1] bcast_S256_S1024x256_1) : (⟨S256, .i1⟩ : BufTy).Contents (Elt F) → (⟨S1024x256, .i1⟩ : BufTy).Contents (Elt F)),
    StableHlo.ternary main_call4_v0 main_v24 main_v18 main_v25 (select : (⟨S1024x256, .i1⟩ : BufTy).Contents (Elt F) → (⟨S1024x256, .f32⟩ : BufTy).Contents (Elt F) → (⟨S1024x256, .f32⟩ : BufTy).Contents (Elt F) → (⟨S1024x256, .f32⟩ : BufTy).Contents (Elt F)),
    StableHlo.unary main_v25 main_v26 ((transpose S256x1024 [1, 0] · transposes_S1024x256_S256x1024_1_0) : (⟨S1024x256, .f32⟩ : BufTy).Contents (Elt F) → (⟨S256x1024, .f32⟩ : BufTy).Contents (Elt F)),
    StableHlo.binary main_arg0 main_v26 main_v27 ((fun l r => Host.dotGeneral dot_S8192x256_S256x1024_S8192x1024_1_0_0_1_n_n none l r) : (⟨S8192x256, .f32⟩ : BufTy).Contents (Elt F) → (⟨S256x1024, .f32⟩ : BufTy).Contents (Elt F) → (⟨S8192x1024, .f32⟩ : BufTy).Contents (Elt F)),
    StableHlo.unary main_arg3 main_v28 ((extractStridedSlice S1x1024 ![0, 0] · slices_S4x1024_S1x1024_0_0) : (⟨S4x1024, .f32⟩ : BufTy).Contents (Elt F) → (⟨S1x1024, .f32⟩ : BufTy).Contents (Elt F)),
    StableHlo.reshape main_v28 main_v29 rfl shapeCasts_S1x1024_S1024,
    StableHlo.unary main_v29 main_v30 (broadcastInDim S1x1024 ![1] bcast_S1024_S1x1024_1 : (⟨S1024, .f32⟩ : BufTy).Contents (Elt F) → (⟨S1x1024, .f32⟩ : BufTy).Contents (Elt F)),
    StableHlo.unary main_v30 main_v31 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v27 main_v31 main_v32 (addf : (⟨S8192x1024, .f32⟩ : BufTy).Contents (Elt F) → (⟨S8192x1024, .f32⟩ : BufTy).Contents (Elt F) → (⟨S8192x1024, .f32⟩ : BufTy).Contents (Elt F)) ]
/-- The buffers these operations write. -/
abbrev c0w0_W : List (Ref sig .tc) := [main_v17, main_v18, main_call3_cst, main_call3_v0, main_call3_v1, main_call3_v2, main_call3_v3, main_call3_v4, main_call3_v5, main_call3_v6, main_call3_v7, main_call3_v8, main_call3_v9, main_call3_v10, main_call3_v11, main_v19, main_cst_2, main_v20, main_v21, main_v22, main_v23, main_v24, main_call4_v0, main_v25, main_v26, main_v27, main_v28, main_v29, main_v30, main_v31, main_v32]

/-- 32 operations of path u0 in window 0. -/
def u0w0 : List (HloOp τ sig (Elt F)) :=
  [ StableHlo.unary main_arg4 main_v33 ((extractStridedSlice S1x1024x256 ![0, 0, 0] · slices_S4x1024x256_S1x1024x256_0_0_0) : (⟨S4x1024x256, .f32⟩ : BufTy).Contents (Elt F) → (⟨S1x1024x256, .f32⟩ : BufTy).Contents (Elt F)),
    StableHlo.reshape main_v33 main_v34 rfl shapeCasts_S1x1024x256_S1024x256,
    StableHlo.nullary main_call5_cst ((constant S_ .f32 0x00000000#32) : (⟨S_, .f32⟩ : BufTy).Contents (Elt F)),
    StableHlo.unary main_call5_cst main_call5_v0 ((broadcastInDim S1024x256 ![] bcast_S_S1024x256) : (⟨S_, .f32⟩ : BufTy).Contents (Elt F) → (⟨S1024x256, .f32⟩ : BufTy).Contents (Elt F)),
    StableHlo.binary main_v34 main_call5_v0 main_call5_v1 (maximumf : (⟨S1024x256, .f32⟩ : BufTy).Contents (Elt F) → (⟨S1024x256, .f32⟩ : BufTy).Contents (Elt F) → (⟨S1024x256, .f32⟩ : BufTy).Contents (Elt F)),
    StableHlo.unary main_call5_cst main_call5_v2 ((broadcastInDim S1024x256 ![] bcast_S_S1024x256) : (⟨S_, .f32⟩ : BufTy).Contents (Elt F) → (⟨S1024x256, .f32⟩ : BufTy).Contents (Elt F)),
    StableHlo.binary main_v34 main_call5_v2 main_call5_v3 (subf : (⟨S1024x256, .f32⟩ : BufTy).Contents (Elt F) → (⟨S1024x256, .f32⟩ : BufTy).Contents (Elt F) → (⟨S1024x256, .f32⟩ : BufTy).Contents (Elt F)),
    StableHlo.binary main_call5_v3 main_call5_v3 main_call5_v4 ((cmpf .une) : (⟨S1024x256, .f32⟩ : BufTy).Contents (Elt F) → (⟨S1024x256, .f32⟩ : BufTy).Contents (Elt F) → (⟨S1024x256, .i1⟩ : BufTy).Contents (Elt F)),
    StableHlo.unary main_call5_cst main_call5_v5 ((broadcastInDim S1024x256 ![] bcast_S_S1024x256) : (⟨S_, .f32⟩ : BufTy).Contents (Elt F) → (⟨S1024x256, .f32⟩ : BufTy).Contents (Elt F)),
    StableHlo.binary main_v34 main_call5_v5 main_call5_v6 (addf : (⟨S1024x256, .f32⟩ : BufTy).Contents (Elt F) → (⟨S1024x256, .f32⟩ : BufTy).Contents (Elt F) → (⟨S1024x256, .f32⟩ : BufTy).Contents (Elt F)),
    StableHlo.unary main_call5_v3 main_call5_v7 (Host.absf : (⟨S1024x256, .f32⟩ : BufTy).Contents (Elt F) → (⟨S1024x256, .f32⟩ : BufTy).Contents (Elt F)),
    StableHlo.unary main_call5_v7 main_call5_v8 (Host.negf : (⟨S1024x256, .f32⟩ : BufTy).Contents (Elt F) → (⟨S1024x256, .f32⟩ : BufTy).Contents (Elt F)),
    StableHlo.unary main_call5_v8 main_call5_v9 (Host.exp : (⟨S1024x256, .f32⟩ : BufTy).Contents (Elt F) → (⟨S1024x256, .f32⟩ : BufTy).Contents (Elt F)),
    StableHlo.unary main_call5_v9 main_call5_v10 (Host.log1p : (⟨S1024x256, .f32⟩ : BufTy).Contents (Elt F) → (⟨S1024x256, .f32⟩ : BufTy).Contents (Elt F)),
    StableHlo.binary main_call5_v1 main_call5_v10 main_call5_v11 (addf : (⟨S1024x256, .f32⟩ : BufTy).Contents (Elt F) → (⟨S1024x256, .f32⟩ : BufTy).Contents (Elt F) → (⟨S1024x256, .f32⟩ : BufTy).Contents (Elt F)),
    StableHlo.ternary main_call5_v4 main_call5_v6 main_call5_v11 main_v35 (select : (⟨S1024x256, .i1⟩ : BufTy).Contents (Elt F) → (⟨S1024x256, .f32⟩ : BufTy).Contents (Elt F) → (⟨S1024x256, .f32⟩ : BufTy).Contents (Elt F) → (⟨S1024x256, .f32⟩ : BufTy).Contents (Elt F)),
    StableHlo.nullary main_cst_3 (constant S_ .f32 0x00000000#32),
    StableHlo.unary main_cst_3 main_v36 (broadcastInDim S256 ![] bcast_S_S256 : (⟨S_, .f32⟩ : BufTy).Contents (Elt F) → (⟨S256, .f32⟩ : BufTy).Contents (Elt F)),
    StableHlo.binary main_cst main_v36 main_v37 (cmpf .une : (⟨S256, .f32⟩ : BufTy).Contents (Elt F) → (⟨S256, .f32⟩ : BufTy).Contents (Elt F) → (⟨S256, .i1⟩ : BufTy).Contents (Elt F)),
    StableHlo.unary main_cst main_v38 (broadcastInDim S1x256 ![1] bcast_S256_S1x256_1 : (⟨S256, .f32⟩ : BufTy).Contents (Elt F) → (⟨S1x256, .f32⟩ : BufTy).Contents (Elt F)),
    StableHlo.unary main_v38 main_v39 (broadcastInDim S1024x256 ![0, 1] bcast_S1x256_S1024x256_0_1 : (⟨S1x256, .f32⟩ : BufTy).Contents (Elt F) → (⟨S1024x256, .f32⟩ : BufTy).Contents (Elt F)),
    StableHlo.binary main_v39 main_v35 main_v40 (mulf : (⟨S1024x256, .f32⟩ : BufTy).Contents (Elt F) → (⟨S1024x256, .f32⟩ : BufTy).Contents (Elt F) → (⟨S1024x256, .f32⟩ : BufTy).Contents (Elt F)),
    StableHlo.unary main_v37 main_call6_v0 ((broadcastInDim S1024x256 ![1] bcast_S256_S1024x256_1) : (⟨S256, .i1⟩ : BufTy).Contents (Elt F) → (⟨S1024x256, .i1⟩ : BufTy).Contents (Elt F)),
    StableHlo.ternary main_call6_v0 main_v40 main_v34 main_v41 (select : (⟨S1024x256, .i1⟩ : BufTy).Contents (Elt F) → (⟨S1024x256, .f32⟩ : BufTy).Contents (Elt F) → (⟨S1024x256, .f32⟩ : BufTy).Contents (Elt F) → (⟨S1024x256, .f32⟩ : BufTy).Contents (Elt F)),
    StableHlo.unary main_v41 main_v42 ((transpose S256x1024 [1, 0] · transposes_S1024x256_S256x1024_1_0) : (⟨S1024x256, .f32⟩ : BufTy).Contents (Elt F) → (⟨S256x1024, .f32⟩ : BufTy).Contents (Elt F)),
    StableHlo.binary main_arg1 main_v42 main_v43 ((fun l r => Host.dotGeneral dot_S8192x256_S256x1024_S8192x1024_1_0_0_1_n_n none l r) : (⟨S8192x256, .f32⟩ : BufTy).Contents (Elt F) → (⟨S256x1024, .f32⟩ : BufTy).Contents (Elt F) → (⟨S8192x1024, .f32⟩ : BufTy).Contents (Elt F)),
    StableHlo.binary main_v32 main_v43 main_v44 (addf : (⟨S8192x1024, .f32⟩ : BufTy).Contents (Elt F) → (⟨S8192x1024, .f32⟩ : BufTy).Contents (Elt F) → (⟨S8192x1024, .f32⟩ : BufTy).Contents (Elt F)),
    StableHlo.unary main_arg5 main_v45 ((extractStridedSlice S1x1024 ![0, 0] · slices_S4x1024_S1x1024_0_0) : (⟨S4x1024, .f32⟩ : BufTy).Contents (Elt F) → (⟨S1x1024, .f32⟩ : BufTy).Contents (Elt F)),
    StableHlo.reshape main_v45 main_v46 rfl shapeCasts_S1x1024_S1024,
    StableHlo.unary main_v46 main_v47 (broadcastInDim S1x1024 ![1] bcast_S1024_S1x1024_1 : (⟨S1024, .f32⟩ : BufTy).Contents (Elt F) → (⟨S1x1024, .f32⟩ : BufTy).Contents (Elt F)),
    StableHlo.unary main_v47 main_v48 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v44 main_v48 main_v49 (addf : (⟨S8192x1024, .f32⟩ : BufTy).Contents (Elt F) → (⟨S8192x1024, .f32⟩ : BufTy).Contents (Elt F) → (⟨S8192x1024, .f32⟩ : BufTy).Contents (Elt F)) ]
/-- The buffers these operations write. -/
abbrev u0w0_W : List (Ref sig .tc) := [main_v33, main_v34, main_call5_cst, main_call5_v0, main_call5_v1, main_call5_v2, main_call5_v3, main_call5_v4, main_call5_v5, main_call5_v6, main_call5_v7, main_call5_v8, main_call5_v9, main_call5_v10, main_call5_v11, main_v35, main_cst_3, main_v36, main_v37, main_v38, main_v39, main_v40, main_call6_v0, main_v41, main_v42, main_v43, main_v44, main_v45, main_v46, main_v47, main_v48, main_v49]

/-- 4 operations of path f0 in window 0. -/
def f0w0 : List (HloOp τ sig (Elt F)) :=
  [ StableHlo.binary main_v49 main_v16 main_v50 (addf : (⟨S8192x1024, .f32⟩ : BufTy).Contents (Elt F) → (⟨S8192x1024, .f32⟩ : BufTy).Contents (Elt F) → (⟨S8192x1024, .f32⟩ : BufTy).Contents (Elt F)),
    StableHlo.nullary main_call7_cst ((constant S_ .f32 0x00000000#32) : (⟨S_, .f32⟩ : BufTy).Contents (Elt F)),
    StableHlo.unary main_call7_cst main_call7_v0 ((broadcastInDim S8192x1024 ![] bcast_S_S8192x1024) : (⟨S_, .f32⟩ : BufTy).Contents (Elt F) → (⟨S8192x1024, .f32⟩ : BufTy).Contents (Elt F)),
    StableHlo.binary main_v50 main_call7_v0 main_v51 (maximumf : (⟨S8192x1024, .f32⟩ : BufTy).Contents (Elt F) → (⟨S8192x1024, .f32⟩ : BufTy).Contents (Elt F) → (⟨S8192x1024, .f32⟩ : BufTy).Contents (Elt F)) ]
/-- The buffers these operations write. -/
abbrev f0w0_W : List (Ref sig .tc) := [main_v50, main_call7_cst, main_call7_v0, main_v51]

/-- 16 operations of path g1 in window 0. -/
def g1w0 : List (HloOp τ sig (Elt F)) :=
  [ StableHlo.unary main_arg6 main_v52 ((extractStridedSlice S1x1024x256 ![1, 0, 0] · slices_S4x1024x256_S1x1024x256_1_0_0) : (⟨S4x1024x256, .f32⟩ : BufTy).Contents (Elt F) → (⟨S1x1024x256, .f32⟩ : BufTy).Contents (Elt F)),
    StableHlo.reshape main_v52 main_v53 rfl shapeCasts_S1x1024x256_S1024x256,
    StableHlo.nullary main_call8_cst ((constant S_ .f32 0x00000000#32) : (⟨S_, .f32⟩ : BufTy).Contents (Elt F)),
    StableHlo.unary main_call8_cst main_call8_v0 ((broadcastInDim S1024x256 ![] bcast_S_S1024x256) : (⟨S_, .f32⟩ : BufTy).Contents (Elt F) → (⟨S1024x256, .f32⟩ : BufTy).Contents (Elt F)),
    StableHlo.binary main_v53 main_call8_v0 main_call8_v1 (maximumf : (⟨S1024x256, .f32⟩ : BufTy).Contents (Elt F) → (⟨S1024x256, .f32⟩ : BufTy).Contents (Elt F) → (⟨S1024x256, .f32⟩ : BufTy).Contents (Elt F)),
    StableHlo.unary main_call8_cst main_call8_v2 ((broadcastInDim S1024x256 ![] bcast_S_S1024x256) : (⟨S_, .f32⟩ : BufTy).Contents (Elt F) → (⟨S1024x256, .f32⟩ : BufTy).Contents (Elt F)),
    StableHlo.binary main_v53 main_call8_v2 main_call8_v3 (subf : (⟨S1024x256, .f32⟩ : BufTy).Contents (Elt F) → (⟨S1024x256, .f32⟩ : BufTy).Contents (Elt F) → (⟨S1024x256, .f32⟩ : BufTy).Contents (Elt F)),
    StableHlo.binary main_call8_v3 main_call8_v3 main_call8_v4 ((cmpf .une) : (⟨S1024x256, .f32⟩ : BufTy).Contents (Elt F) → (⟨S1024x256, .f32⟩ : BufTy).Contents (Elt F) → (⟨S1024x256, .i1⟩ : BufTy).Contents (Elt F)),
    StableHlo.unary main_call8_cst main_call8_v5 ((broadcastInDim S1024x256 ![] bcast_S_S1024x256) : (⟨S_, .f32⟩ : BufTy).Contents (Elt F) → (⟨S1024x256, .f32⟩ : BufTy).Contents (Elt F)),
    StableHlo.binary main_v53 main_call8_v5 main_call8_v6 (addf : (⟨S1024x256, .f32⟩ : BufTy).Contents (Elt F) → (⟨S1024x256, .f32⟩ : BufTy).Contents (Elt F) → (⟨S1024x256, .f32⟩ : BufTy).Contents (Elt F)),
    StableHlo.unary main_call8_v3 main_call8_v7 (Host.absf : (⟨S1024x256, .f32⟩ : BufTy).Contents (Elt F) → (⟨S1024x256, .f32⟩ : BufTy).Contents (Elt F)),
    StableHlo.unary main_call8_v7 main_call8_v8 (Host.negf : (⟨S1024x256, .f32⟩ : BufTy).Contents (Elt F) → (⟨S1024x256, .f32⟩ : BufTy).Contents (Elt F)),
    StableHlo.unary main_call8_v8 main_call8_v9 (Host.exp : (⟨S1024x256, .f32⟩ : BufTy).Contents (Elt F) → (⟨S1024x256, .f32⟩ : BufTy).Contents (Elt F)),
    StableHlo.unary main_call8_v9 main_call8_v10 (Host.log1p : (⟨S1024x256, .f32⟩ : BufTy).Contents (Elt F) → (⟨S1024x256, .f32⟩ : BufTy).Contents (Elt F)),
    StableHlo.binary main_call8_v1 main_call8_v10 main_call8_v11 (addf : (⟨S1024x256, .f32⟩ : BufTy).Contents (Elt F) → (⟨S1024x256, .f32⟩ : BufTy).Contents (Elt F) → (⟨S1024x256, .f32⟩ : BufTy).Contents (Elt F)),
    StableHlo.ternary main_call8_v4 main_call8_v6 main_call8_v11 main_v54 (select : (⟨S1024x256, .i1⟩ : BufTy).Contents (Elt F) → (⟨S1024x256, .f32⟩ : BufTy).Contents (Elt F) → (⟨S1024x256, .f32⟩ : BufTy).Contents (Elt F) → (⟨S1024x256, .f32⟩ : BufTy).Contents (Elt F)) ]
/-- The buffers these operations write. -/
abbrev g1w0_W : List (Ref sig .tc) := [main_v52, main_v53, main_call8_cst, main_call8_v0, main_call8_v1, main_call8_v2, main_call8_v3, main_call8_v4, main_call8_v5, main_call8_v6, main_call8_v7, main_call8_v8, main_call8_v9, main_call8_v10, main_call8_v11, main_v54]

/-- 18 operations of path g1 in window 1. -/
def g1w1 : List (HloOp τ sig (Elt F)) :=
  [ StableHlo.nullary main_cst_4 (constant S_ .f32 0x00000000#32),
    StableHlo.unary main_cst_4 main_v55 (broadcastInDim S256 ![] bcast_S_S256 : (⟨S_, .f32⟩ : BufTy).Contents (Elt F) → (⟨S256, .f32⟩ : BufTy).Contents (Elt F)),
    StableHlo.binary main_cst main_v55 main_v56 (cmpf .une : (⟨S256, .f32⟩ : BufTy).Contents (Elt F) → (⟨S256, .f32⟩ : BufTy).Contents (Elt F) → (⟨S256, .i1⟩ : BufTy).Contents (Elt F)),
    StableHlo.unary main_cst main_v57 (broadcastInDim S1x256 ![1] bcast_S256_S1x256_1 : (⟨S256, .f32⟩ : BufTy).Contents (Elt F) → (⟨S1x256, .f32⟩ : BufTy).Contents (Elt F)),
    StableHlo.unary main_v57 main_v58 (broadcastInDim S1024x256 ![0, 1] bcast_S1x256_S1024x256_0_1 : (⟨S1x256, .f32⟩ : BufTy).Contents (Elt F) → (⟨S1024x256, .f32⟩ : BufTy).Contents (Elt F)),
    StableHlo.binary main_v58 main_v54 main_v59 (mulf : (⟨S1024x256, .f32⟩ : BufTy).Contents (Elt F) → (⟨S1024x256, .f32⟩ : BufTy).Contents (Elt F) → (⟨S1024x256, .f32⟩ : BufTy).Contents (Elt F)),
    StableHlo.unary main_v56 main_call9_v0 ((broadcastInDim S1024x256 ![1] bcast_S256_S1024x256_1) : (⟨S256, .i1⟩ : BufTy).Contents (Elt F) → (⟨S1024x256, .i1⟩ : BufTy).Contents (Elt F)),
    StableHlo.ternary main_call9_v0 main_v59 main_v53 main_v60 (select : (⟨S1024x256, .i1⟩ : BufTy).Contents (Elt F) → (⟨S1024x256, .f32⟩ : BufTy).Contents (Elt F) → (⟨S1024x256, .f32⟩ : BufTy).Contents (Elt F) → (⟨S1024x256, .f32⟩ : BufTy).Contents (Elt F)),
    StableHlo.unary main_v60 main_v61 ((transpose S256x1024 [1, 0] · transposes_S1024x256_S256x1024_1_0) : (⟨S1024x256, .f32⟩ : BufTy).Contents (Elt F) → (⟨S256x1024, .f32⟩ : BufTy).Contents (Elt F)),
    StableHlo.binary main_arg1 main_v61 main_v62 ((fun l r => Host.dotGeneral dot_S8192x256_S256x1024_S8192x1024_1_0_0_1_n_n none l r) : (⟨S8192x256, .f32⟩ : BufTy).Contents (Elt F) → (⟨S256x1024, .f32⟩ : BufTy).Contents (Elt F) → (⟨S8192x1024, .f32⟩ : BufTy).Contents (Elt F)),
    StableHlo.unary main_arg7 main_v63 ((extractStridedSlice S1x1024 ![1, 0] · slices_S4x1024_S1x1024_1_0) : (⟨S4x1024, .f32⟩ : BufTy).Contents (Elt F) → (⟨S1x1024, .f32⟩ : BufTy).Contents (Elt F)),
    StableHlo.reshape main_v63 main_v64 rfl shapeCasts_S1x1024_S1024,
    StableHlo.unary main_v64 main_v65 (broadcastInDim S1x1024 ![1] bcast_S1024_S1x1024_1 : (⟨S1024, .f32⟩ : BufTy).Contents (Elt F) → (⟨S1x1024, .f32⟩ : BufTy).Contents (Elt F)),
    StableHlo.unary main_v65 main_v66 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v62 main_v66 main_v67 (addf : (⟨S8192x1024, .f32⟩ : BufTy).Contents (Elt F) → (⟨S8192x1024, .f32⟩ : BufTy).Contents (Elt F) → (⟨S8192x1024, .f32⟩ : BufTy).Contents (Elt F)),
    StableHlo.nullary main_call10_cst ((constant S_ .f32 0x00000000#32) : (⟨S_, .f32⟩ : BufTy).Contents (Elt F)),
    StableHlo.unary main_call10_cst main_call10_v0 ((broadcastInDim S8192x1024 ![] bcast_S_S8192x1024) : (⟨S_, .f32⟩ : BufTy).Contents (Elt F) → (⟨S8192x1024, .f32⟩ : BufTy).Contents (Elt F)),
    StableHlo.binary main_v67 main_call10_v0 main_v68 (maximumf : (⟨S8192x1024, .f32⟩ : BufTy).Contents (Elt F) → (⟨S8192x1024, .f32⟩ : BufTy).Contents (Elt F) → (⟨S8192x1024, .f32⟩ : BufTy).Contents (Elt F)) ]
/-- The buffers these operations write. -/
abbrev g1w1_W : List (Ref sig .tc) := [main_cst_4, main_v55, main_v56, main_v57, main_v58, main_v59, main_call9_v0, main_v60, main_v61, main_v62, main_v63, main_v64, main_v65, main_v66, main_v67, main_call10_cst, main_call10_v0, main_v68]

/-- 31 operations of path c1 in window 1. -/
def c1w1 : List (HloOp τ sig (Elt F)) :=
  [ StableHlo.unary main_arg2 main_v69 ((extractStridedSlice S1x1024x256 ![1, 0, 0] · slices_S4x1024x256_S1x1024x256_1_0_0) : (⟨S4x1024x256, .f32⟩ : BufTy).Contents (Elt F) → (⟨S1x1024x256, .f32⟩ : BufTy).Contents (Elt F)),
    StableHlo.reshape main_v69 main_v70 rfl shapeCasts_S1x1024x256_S1024x256,
    StableHlo.nullary main_call11_cst ((constant S_ .f32 0x00000000#32) : (⟨S_, .f32⟩ : BufTy).Contents (Elt F)),
    StableHlo.unary main_call11_cst main_call11_v0 ((broadcastInDim S1024x256 ![] bcast_S_S1024x256) : (⟨S_, .f32⟩ : BufTy).Contents (Elt F) → (⟨S1024x256, .f32⟩ : BufTy).Contents (Elt F)),
    StableHlo.binary main_v70 main_call11_v0 main_call11_v1 (maximumf : (⟨S1024x256, .f32⟩ : BufTy).Contents (Elt F) → (⟨S1024x256, .f32⟩ : BufTy).Contents (Elt F) → (⟨S1024x256, .f32⟩ : BufTy).Contents (Elt F)),
    StableHlo.unary main_call11_cst main_call11_v2 ((broadcastInDim S1024x256 ![] bcast_S_S1024x256) : (⟨S_, .f32⟩ : BufTy).Contents (Elt F) → (⟨S1024x256, .f32⟩ : BufTy).Contents (Elt F)),
    StableHlo.binary main_v70 main_call11_v2 main_call11_v3 (subf : (⟨S1024x256, .f32⟩ : BufTy).Contents (Elt F) → (⟨S1024x256, .f32⟩ : BufTy).Contents (Elt F) → (⟨S1024x256, .f32⟩ : BufTy).Contents (Elt F)),
    StableHlo.binary main_call11_v3 main_call11_v3 main_call11_v4 ((cmpf .une) : (⟨S1024x256, .f32⟩ : BufTy).Contents (Elt F) → (⟨S1024x256, .f32⟩ : BufTy).Contents (Elt F) → (⟨S1024x256, .i1⟩ : BufTy).Contents (Elt F)),
    StableHlo.unary main_call11_cst main_call11_v5 ((broadcastInDim S1024x256 ![] bcast_S_S1024x256) : (⟨S_, .f32⟩ : BufTy).Contents (Elt F) → (⟨S1024x256, .f32⟩ : BufTy).Contents (Elt F)),
    StableHlo.binary main_v70 main_call11_v5 main_call11_v6 (addf : (⟨S1024x256, .f32⟩ : BufTy).Contents (Elt F) → (⟨S1024x256, .f32⟩ : BufTy).Contents (Elt F) → (⟨S1024x256, .f32⟩ : BufTy).Contents (Elt F)),
    StableHlo.unary main_call11_v3 main_call11_v7 (Host.absf : (⟨S1024x256, .f32⟩ : BufTy).Contents (Elt F) → (⟨S1024x256, .f32⟩ : BufTy).Contents (Elt F)),
    StableHlo.unary main_call11_v7 main_call11_v8 (Host.negf : (⟨S1024x256, .f32⟩ : BufTy).Contents (Elt F) → (⟨S1024x256, .f32⟩ : BufTy).Contents (Elt F)),
    StableHlo.unary main_call11_v8 main_call11_v9 (Host.exp : (⟨S1024x256, .f32⟩ : BufTy).Contents (Elt F) → (⟨S1024x256, .f32⟩ : BufTy).Contents (Elt F)),
    StableHlo.unary main_call11_v9 main_call11_v10 (Host.log1p : (⟨S1024x256, .f32⟩ : BufTy).Contents (Elt F) → (⟨S1024x256, .f32⟩ : BufTy).Contents (Elt F)),
    StableHlo.binary main_call11_v1 main_call11_v10 main_call11_v11 (addf : (⟨S1024x256, .f32⟩ : BufTy).Contents (Elt F) → (⟨S1024x256, .f32⟩ : BufTy).Contents (Elt F) → (⟨S1024x256, .f32⟩ : BufTy).Contents (Elt F)),
    StableHlo.ternary main_call11_v4 main_call11_v6 main_call11_v11 main_v71 (select : (⟨S1024x256, .i1⟩ : BufTy).Contents (Elt F) → (⟨S1024x256, .f32⟩ : BufTy).Contents (Elt F) → (⟨S1024x256, .f32⟩ : BufTy).Contents (Elt F) → (⟨S1024x256, .f32⟩ : BufTy).Contents (Elt F)),
    StableHlo.nullary main_cst_5 (constant S_ .f32 0x00000000#32),
    StableHlo.unary main_cst_5 main_v72 (broadcastInDim S256 ![] bcast_S_S256 : (⟨S_, .f32⟩ : BufTy).Contents (Elt F) → (⟨S256, .f32⟩ : BufTy).Contents (Elt F)),
    StableHlo.binary main_cst_0 main_v72 main_v73 (cmpf .une : (⟨S256, .f32⟩ : BufTy).Contents (Elt F) → (⟨S256, .f32⟩ : BufTy).Contents (Elt F) → (⟨S256, .i1⟩ : BufTy).Contents (Elt F)),
    StableHlo.unary main_cst_0 main_v74 (broadcastInDim S1x256 ![1] bcast_S256_S1x256_1 : (⟨S256, .f32⟩ : BufTy).Contents (Elt F) → (⟨S1x256, .f32⟩ : BufTy).Contents (Elt F)),
    StableHlo.unary main_v74 main_v75 (broadcastInDim S1024x256 ![0, 1] bcast_S1x256_S1024x256_0_1 : (⟨S1x256, .f32⟩ : BufTy).Contents (Elt F) → (⟨S1024x256, .f32⟩ : BufTy).Contents (Elt F)),
    StableHlo.binary main_v75 main_v71 main_v76 (mulf : (⟨S1024x256, .f32⟩ : BufTy).Contents (Elt F) → (⟨S1024x256, .f32⟩ : BufTy).Contents (Elt F) → (⟨S1024x256, .f32⟩ : BufTy).Contents (Elt F)),
    StableHlo.unary main_v73 main_call12_v0 ((broadcastInDim S1024x256 ![1] bcast_S256_S1024x256_1) : (⟨S256, .i1⟩ : BufTy).Contents (Elt F) → (⟨S1024x256, .i1⟩ : BufTy).Contents (Elt F)),
    StableHlo.ternary main_call12_v0 main_v76 main_v70 main_v77 (select : (⟨S1024x256, .i1⟩ : BufTy).Contents (Elt F) → (⟨S1024x256, .f32⟩ : BufTy).Contents (Elt F) → (⟨S1024x256, .f32⟩ : BufTy).Contents (Elt F) → (⟨S1024x256, .f32⟩ : BufTy).Contents (Elt F)),
    StableHlo.unary main_v77 main_v78 ((transpose S256x1024 [1, 0] · transposes_S1024x256_S256x1024_1_0) : (⟨S1024x256, .f32⟩ : BufTy).Contents (Elt F) → (⟨S256x1024, .f32⟩ : BufTy).Contents (Elt F)),
    StableHlo.binary main_arg0 main_v78 main_v79 ((fun l r => Host.dotGeneral dot_S8192x256_S256x1024_S8192x1024_1_0_0_1_n_n none l r) : (⟨S8192x256, .f32⟩ : BufTy).Contents (Elt F) → (⟨S256x1024, .f32⟩ : BufTy).Contents (Elt F) → (⟨S8192x1024, .f32⟩ : BufTy).Contents (Elt F)),
    StableHlo.unary main_arg3 main_v80 ((extractStridedSlice S1x1024 ![1, 0] · slices_S4x1024_S1x1024_1_0) : (⟨S4x1024, .f32⟩ : BufTy).Contents (Elt F) → (⟨S1x1024, .f32⟩ : BufTy).Contents (Elt F)),
    StableHlo.reshape main_v80 main_v81 rfl shapeCasts_S1x1024_S1024,
    StableHlo.unary main_v81 main_v82 (broadcastInDim S1x1024 ![1] bcast_S1024_S1x1024_1 : (⟨S1024, .f32⟩ : BufTy).Contents (Elt F) → (⟨S1x1024, .f32⟩ : BufTy).Contents (Elt F)),
    StableHlo.unary main_v82 main_v83 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v79 main_v83 main_v84 (addf : (⟨S8192x1024, .f32⟩ : BufTy).Contents (Elt F) → (⟨S8192x1024, .f32⟩ : BufTy).Contents (Elt F) → (⟨S8192x1024, .f32⟩ : BufTy).Contents (Elt F)) ]
/-- The buffers these operations write. -/
abbrev c1w1_W : List (Ref sig .tc) := [main_v69, main_v70, main_call11_cst, main_call11_v0, main_call11_v1, main_call11_v2, main_call11_v3, main_call11_v4, main_call11_v5, main_call11_v6, main_call11_v7, main_call11_v8, main_call11_v9, main_call11_v10, main_call11_v11, main_v71, main_cst_5, main_v72, main_v73, main_v74, main_v75, main_v76, main_call12_v0, main_v77, main_v78, main_v79, main_v80, main_v81, main_v82, main_v83, main_v84]

/-- 32 operations of path u1 in window 1. -/
def u1w1 : List (HloOp τ sig (Elt F)) :=
  [ StableHlo.unary main_arg4 main_v85 ((extractStridedSlice S1x1024x256 ![1, 0, 0] · slices_S4x1024x256_S1x1024x256_1_0_0) : (⟨S4x1024x256, .f32⟩ : BufTy).Contents (Elt F) → (⟨S1x1024x256, .f32⟩ : BufTy).Contents (Elt F)),
    StableHlo.reshape main_v85 main_v86 rfl shapeCasts_S1x1024x256_S1024x256,
    StableHlo.nullary main_call13_cst ((constant S_ .f32 0x00000000#32) : (⟨S_, .f32⟩ : BufTy).Contents (Elt F)),
    StableHlo.unary main_call13_cst main_call13_v0 ((broadcastInDim S1024x256 ![] bcast_S_S1024x256) : (⟨S_, .f32⟩ : BufTy).Contents (Elt F) → (⟨S1024x256, .f32⟩ : BufTy).Contents (Elt F)),
    StableHlo.binary main_v86 main_call13_v0 main_call13_v1 (maximumf : (⟨S1024x256, .f32⟩ : BufTy).Contents (Elt F) → (⟨S1024x256, .f32⟩ : BufTy).Contents (Elt F) → (⟨S1024x256, .f32⟩ : BufTy).Contents (Elt F)),
    StableHlo.unary main_call13_cst main_call13_v2 ((broadcastInDim S1024x256 ![] bcast_S_S1024x256) : (⟨S_, .f32⟩ : BufTy).Contents (Elt F) → (⟨S1024x256, .f32⟩ : BufTy).Contents (Elt F)),
    StableHlo.binary main_v86 main_call13_v2 main_call13_v3 (subf : (⟨S1024x256, .f32⟩ : BufTy).Contents (Elt F) → (⟨S1024x256, .f32⟩ : BufTy).Contents (Elt F) → (⟨S1024x256, .f32⟩ : BufTy).Contents (Elt F)),
    StableHlo.binary main_call13_v3 main_call13_v3 main_call13_v4 ((cmpf .une) : (⟨S1024x256, .f32⟩ : BufTy).Contents (Elt F) → (⟨S1024x256, .f32⟩ : BufTy).Contents (Elt F) → (⟨S1024x256, .i1⟩ : BufTy).Contents (Elt F)),
    StableHlo.unary main_call13_cst main_call13_v5 ((broadcastInDim S1024x256 ![] bcast_S_S1024x256) : (⟨S_, .f32⟩ : BufTy).Contents (Elt F) → (⟨S1024x256, .f32⟩ : BufTy).Contents (Elt F)),
    StableHlo.binary main_v86 main_call13_v5 main_call13_v6 (addf : (⟨S1024x256, .f32⟩ : BufTy).Contents (Elt F) → (⟨S1024x256, .f32⟩ : BufTy).Contents (Elt F) → (⟨S1024x256, .f32⟩ : BufTy).Contents (Elt F)),
    StableHlo.unary main_call13_v3 main_call13_v7 (Host.absf : (⟨S1024x256, .f32⟩ : BufTy).Contents (Elt F) → (⟨S1024x256, .f32⟩ : BufTy).Contents (Elt F)),
    StableHlo.unary main_call13_v7 main_call13_v8 (Host.negf : (⟨S1024x256, .f32⟩ : BufTy).Contents (Elt F) → (⟨S1024x256, .f32⟩ : BufTy).Contents (Elt F)),
    StableHlo.unary main_call13_v8 main_call13_v9 (Host.exp : (⟨S1024x256, .f32⟩ : BufTy).Contents (Elt F) → (⟨S1024x256, .f32⟩ : BufTy).Contents (Elt F)),
    StableHlo.unary main_call13_v9 main_call13_v10 (Host.log1p : (⟨S1024x256, .f32⟩ : BufTy).Contents (Elt F) → (⟨S1024x256, .f32⟩ : BufTy).Contents (Elt F)),
    StableHlo.binary main_call13_v1 main_call13_v10 main_call13_v11 (addf : (⟨S1024x256, .f32⟩ : BufTy).Contents (Elt F) → (⟨S1024x256, .f32⟩ : BufTy).Contents (Elt F) → (⟨S1024x256, .f32⟩ : BufTy).Contents (Elt F)),
    StableHlo.ternary main_call13_v4 main_call13_v6 main_call13_v11 main_v87 (select : (⟨S1024x256, .i1⟩ : BufTy).Contents (Elt F) → (⟨S1024x256, .f32⟩ : BufTy).Contents (Elt F) → (⟨S1024x256, .f32⟩ : BufTy).Contents (Elt F) → (⟨S1024x256, .f32⟩ : BufTy).Contents (Elt F)),
    StableHlo.nullary main_cst_6 (constant S_ .f32 0x00000000#32),
    StableHlo.unary main_cst_6 main_v88 (broadcastInDim S256 ![] bcast_S_S256 : (⟨S_, .f32⟩ : BufTy).Contents (Elt F) → (⟨S256, .f32⟩ : BufTy).Contents (Elt F)),
    StableHlo.binary main_cst main_v88 main_v89 (cmpf .une : (⟨S256, .f32⟩ : BufTy).Contents (Elt F) → (⟨S256, .f32⟩ : BufTy).Contents (Elt F) → (⟨S256, .i1⟩ : BufTy).Contents (Elt F)),
    StableHlo.unary main_cst main_v90 (broadcastInDim S1x256 ![1] bcast_S256_S1x256_1 : (⟨S256, .f32⟩ : BufTy).Contents (Elt F) → (⟨S1x256, .f32⟩ : BufTy).Contents (Elt F)),
    StableHlo.unary main_v90 main_v91 (broadcastInDim S1024x256 ![0, 1] bcast_S1x256_S1024x256_0_1 : (⟨S1x256, .f32⟩ : BufTy).Contents (Elt F) → (⟨S1024x256, .f32⟩ : BufTy).Contents (Elt F)),
    StableHlo.binary main_v91 main_v87 main_v92 (mulf : (⟨S1024x256, .f32⟩ : BufTy).Contents (Elt F) → (⟨S1024x256, .f32⟩ : BufTy).Contents (Elt F) → (⟨S1024x256, .f32⟩ : BufTy).Contents (Elt F)),
    StableHlo.unary main_v89 main_call14_v0 ((broadcastInDim S1024x256 ![1] bcast_S256_S1024x256_1) : (⟨S256, .i1⟩ : BufTy).Contents (Elt F) → (⟨S1024x256, .i1⟩ : BufTy).Contents (Elt F)),
    StableHlo.ternary main_call14_v0 main_v92 main_v86 main_v93 (select : (⟨S1024x256, .i1⟩ : BufTy).Contents (Elt F) → (⟨S1024x256, .f32⟩ : BufTy).Contents (Elt F) → (⟨S1024x256, .f32⟩ : BufTy).Contents (Elt F) → (⟨S1024x256, .f32⟩ : BufTy).Contents (Elt F)),
    StableHlo.unary main_v93 main_v94 ((transpose S256x1024 [1, 0] · transposes_S1024x256_S256x1024_1_0) : (⟨S1024x256, .f32⟩ : BufTy).Contents (Elt F) → (⟨S256x1024, .f32⟩ : BufTy).Contents (Elt F)),
    StableHlo.binary main_arg1 main_v94 main_v95 ((fun l r => Host.dotGeneral dot_S8192x256_S256x1024_S8192x1024_1_0_0_1_n_n none l r) : (⟨S8192x256, .f32⟩ : BufTy).Contents (Elt F) → (⟨S256x1024, .f32⟩ : BufTy).Contents (Elt F) → (⟨S8192x1024, .f32⟩ : BufTy).Contents (Elt F)),
    StableHlo.binary main_v84 main_v95 main_v96 (addf : (⟨S8192x1024, .f32⟩ : BufTy).Contents (Elt F) → (⟨S8192x1024, .f32⟩ : BufTy).Contents (Elt F) → (⟨S8192x1024, .f32⟩ : BufTy).Contents (Elt F)),
    StableHlo.unary main_arg5 main_v97 ((extractStridedSlice S1x1024 ![1, 0] · slices_S4x1024_S1x1024_1_0) : (⟨S4x1024, .f32⟩ : BufTy).Contents (Elt F) → (⟨S1x1024, .f32⟩ : BufTy).Contents (Elt F)),
    StableHlo.reshape main_v97 main_v98 rfl shapeCasts_S1x1024_S1024,
    StableHlo.unary main_v98 main_v99 (broadcastInDim S1x1024 ![1] bcast_S1024_S1x1024_1 : (⟨S1024, .f32⟩ : BufTy).Contents (Elt F) → (⟨S1x1024, .f32⟩ : BufTy).Contents (Elt F)),
    StableHlo.unary main_v99 main_v100 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v96 main_v100 main_v101 (addf : (⟨S8192x1024, .f32⟩ : BufTy).Contents (Elt F) → (⟨S8192x1024, .f32⟩ : BufTy).Contents (Elt F) → (⟨S8192x1024, .f32⟩ : BufTy).Contents (Elt F)) ]
/-- The buffers these operations write. -/
abbrev u1w1_W : List (Ref sig .tc) := [main_v85, main_v86, main_call13_cst, main_call13_v0, main_call13_v1, main_call13_v2, main_call13_v3, main_call13_v4, main_call13_v5, main_call13_v6, main_call13_v7, main_call13_v8, main_call13_v9, main_call13_v10, main_call13_v11, main_v87, main_cst_6, main_v88, main_v89, main_v90, main_v91, main_v92, main_call14_v0, main_v93, main_v94, main_v95, main_v96, main_v97, main_v98, main_v99, main_v100, main_v101]

/-- 19 operations of path z1 in window 1. -/
def z1w1 : List (HloOp τ sig (Elt F)) :=
  [ StableHlo.unary main_arg8 main_v102 ((extractStridedSlice S1x1024x1024 ![0, 0, 0] · slices_S3x1024x1024_S1x1024x1024_0_0_0) : (⟨S3x1024x1024, .f32⟩ : BufTy).Contents (Elt F) → (⟨S1x1024x1024, .f32⟩ : BufTy).Contents (Elt F)),
    StableHlo.reshape main_v102 main_v103 rfl shapeCasts_S1x1024x1024_S1024x1024,
    StableHlo.nullary main_call15_cst ((constant S_ .f32 0x00000000#32) : (⟨S_, .f32⟩ : BufTy).Contents (Elt F)),
    StableHlo.unary main_call15_cst main_call15_v0 ((broadcastInDim S1024x1024 ![] bcast_S_S1024x1024) : (⟨S_, .f32⟩ : BufTy).Contents (Elt F) → (⟨S1024x1024, .f32⟩ : BufTy).Contents (Elt F)),
    StableHlo.binary main_v103 main_call15_v0 main_call15_v1 (maximumf : (⟨S1024x1024, .f32⟩ : BufTy).Contents (Elt F) → (⟨S1024x1024, .f32⟩ : BufTy).Contents (Elt F) → (⟨S1024x1024, .f32⟩ : BufTy).Contents (Elt F)),
    StableHlo.unary main_call15_cst main_call15_v2 ((broadcastInDim S1024x1024 ![] bcast_S_S1024x1024) : (⟨S_, .f32⟩ : BufTy).Contents (Elt F) → (⟨S1024x1024, .f32⟩ : BufTy).Contents (Elt F)),
    StableHlo.binary main_v103 main_call15_v2 main_call15_v3 (subf : (⟨S1024x1024, .f32⟩ : BufTy).Contents (Elt F) → (⟨S1024x1024, .f32⟩ : BufTy).Contents (Elt F) → (⟨S1024x1024, .f32⟩ : BufTy).Contents (Elt F)),
    StableHlo.binary main_call15_v3 main_call15_v3 main_call15_v4 ((cmpf .une) : (⟨S1024x1024, .f32⟩ : BufTy).Contents (Elt F) → (⟨S1024x1024, .f32⟩ : BufTy).Contents (Elt F) → (⟨S1024x1024, .i1⟩ : BufTy).Contents (Elt F)),
    StableHlo.unary main_call15_cst main_call15_v5 ((broadcastInDim S1024x1024 ![] bcast_S_S1024x1024) : (⟨S_, .f32⟩ : BufTy).Contents (Elt F) → (⟨S1024x1024, .f32⟩ : BufTy).Contents (Elt F)),
    StableHlo.binary main_v103 main_call15_v5 main_call15_v6 (addf : (⟨S1024x1024, .f32⟩ : BufTy).Contents (Elt F) → (⟨S1024x1024, .f32⟩ : BufTy).Contents (Elt F) → (⟨S1024x1024, .f32⟩ : BufTy).Contents (Elt F)),
    StableHlo.unary main_call15_v3 main_call15_v7 (Host.absf : (⟨S1024x1024, .f32⟩ : BufTy).Contents (Elt F) → (⟨S1024x1024, .f32⟩ : BufTy).Contents (Elt F)),
    StableHlo.unary main_call15_v7 main_call15_v8 (Host.negf : (⟨S1024x1024, .f32⟩ : BufTy).Contents (Elt F) → (⟨S1024x1024, .f32⟩ : BufTy).Contents (Elt F)),
    StableHlo.unary main_call15_v8 main_call15_v9 (Host.exp : (⟨S1024x1024, .f32⟩ : BufTy).Contents (Elt F) → (⟨S1024x1024, .f32⟩ : BufTy).Contents (Elt F)),
    StableHlo.unary main_call15_v9 main_call15_v10 (Host.log1p : (⟨S1024x1024, .f32⟩ : BufTy).Contents (Elt F) → (⟨S1024x1024, .f32⟩ : BufTy).Contents (Elt F)),
    StableHlo.binary main_call15_v1 main_call15_v10 main_call15_v11 (addf : (⟨S1024x1024, .f32⟩ : BufTy).Contents (Elt F) → (⟨S1024x1024, .f32⟩ : BufTy).Contents (Elt F) → (⟨S1024x1024, .f32⟩ : BufTy).Contents (Elt F)),
    StableHlo.ternary main_call15_v4 main_call15_v6 main_call15_v11 main_v104 (select : (⟨S1024x1024, .i1⟩ : BufTy).Contents (Elt F) → (⟨S1024x1024, .f32⟩ : BufTy).Contents (Elt F) → (⟨S1024x1024, .f32⟩ : BufTy).Contents (Elt F) → (⟨S1024x1024, .f32⟩ : BufTy).Contents (Elt F)),
    StableHlo.unary main_v104 main_v105 ((transpose S1024x1024 [1, 0] · transposes_S1024x1024_S1024x1024_1_0) : (⟨S1024x1024, .f32⟩ : BufTy).Contents (Elt F) → (⟨S1024x1024, .f32⟩ : BufTy).Contents (Elt F)),
    StableHlo.binary main_v51 main_v105 main_v106 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    StableHlo.binary main_v101 main_v106 main_v107 (addf : (⟨S8192x1024, .f32⟩ : BufTy).Contents (Elt F) → (⟨S8192x1024, .f32⟩ : BufTy).Contents (Elt F) → (⟨S8192x1024, .f32⟩ : BufTy).Contents (Elt F)) ]
/-- The buffers these operations write. -/
abbrev z1w1_W : List (Ref sig .tc) := [main_v102, main_v103, main_call15_cst, main_call15_v0, main_call15_v1, main_call15_v2, main_call15_v3, main_call15_v4, main_call15_v5, main_call15_v6, main_call15_v7, main_call15_v8, main_call15_v9, main_call15_v10, main_call15_v11, main_v104, main_v105, main_v106, main_v107]

/-- 4 operations of path f1 in window 1. -/
def f1w1 : List (HloOp τ sig (Elt F)) :=
  [ StableHlo.binary main_v107 main_v68 main_v108 (addf : (⟨S8192x1024, .f32⟩ : BufTy).Contents (Elt F) → (⟨S8192x1024, .f32⟩ : BufTy).Contents (Elt F) → (⟨S8192x1024, .f32⟩ : BufTy).Contents (Elt F)),
    StableHlo.nullary main_call16_cst ((constant S_ .f32 0x00000000#32) : (⟨S_, .f32⟩ : BufTy).Contents (Elt F)),
    StableHlo.unary main_call16_cst main_call16_v0 ((broadcastInDim S8192x1024 ![] bcast_S_S8192x1024) : (⟨S_, .f32⟩ : BufTy).Contents (Elt F) → (⟨S8192x1024, .f32⟩ : BufTy).Contents (Elt F)),
    StableHlo.binary main_v108 main_call16_v0 main_v109 (maximumf : (⟨S8192x1024, .f32⟩ : BufTy).Contents (Elt F) → (⟨S8192x1024, .f32⟩ : BufTy).Contents (Elt F) → (⟨S8192x1024, .f32⟩ : BufTy).Contents (Elt F)) ]
/-- The buffers these operations write. -/
abbrev f1w1_W : List (Ref sig .tc) := [main_v108, main_call16_cst, main_call16_v0, main_v109]

/-- 2 operations of path g2 in window 1. -/
def g2w1 : List (HloOp τ sig (Elt F)) :=
  [ StableHlo.unary main_arg6 main_v110 ((extractStridedSlice S1x1024x256 ![2, 0, 0] · slices_S4x1024x256_S1x1024x256_2_0_0) : (⟨S4x1024x256, .f32⟩ : BufTy).Contents (Elt F) → (⟨S1x1024x256, .f32⟩ : BufTy).Contents (Elt F)),
    StableHlo.reshape main_v110 main_v111 rfl shapeCasts_S1x1024x256_S1024x256 ]
/-- The buffers these operations write. -/
abbrev g2w1_W : List (Ref sig .tc) := [main_v110, main_v111]

/-- 32 operations of path g2 in window 2. -/
def g2w2 : List (HloOp τ sig (Elt F)) :=
  [ StableHlo.nullary main_call17_cst ((constant S_ .f32 0x00000000#32) : (⟨S_, .f32⟩ : BufTy).Contents (Elt F)),
    StableHlo.unary main_call17_cst main_call17_v0 ((broadcastInDim S1024x256 ![] bcast_S_S1024x256) : (⟨S_, .f32⟩ : BufTy).Contents (Elt F) → (⟨S1024x256, .f32⟩ : BufTy).Contents (Elt F)),
    StableHlo.binary main_v111 main_call17_v0 main_call17_v1 (maximumf : (⟨S1024x256, .f32⟩ : BufTy).Contents (Elt F) → (⟨S1024x256, .f32⟩ : BufTy).Contents (Elt F) → (⟨S1024x256, .f32⟩ : BufTy).Contents (Elt F)),
    StableHlo.unary main_call17_cst main_call17_v2 ((broadcastInDim S1024x256 ![] bcast_S_S1024x256) : (⟨S_, .f32⟩ : BufTy).Contents (Elt F) → (⟨S1024x256, .f32⟩ : BufTy).Contents (Elt F)),
    StableHlo.binary main_v111 main_call17_v2 main_call17_v3 (subf : (⟨S1024x256, .f32⟩ : BufTy).Contents (Elt F) → (⟨S1024x256, .f32⟩ : BufTy).Contents (Elt F) → (⟨S1024x256, .f32⟩ : BufTy).Contents (Elt F)),
    StableHlo.binary main_call17_v3 main_call17_v3 main_call17_v4 ((cmpf .une) : (⟨S1024x256, .f32⟩ : BufTy).Contents (Elt F) → (⟨S1024x256, .f32⟩ : BufTy).Contents (Elt F) → (⟨S1024x256, .i1⟩ : BufTy).Contents (Elt F)),
    StableHlo.unary main_call17_cst main_call17_v5 ((broadcastInDim S1024x256 ![] bcast_S_S1024x256) : (⟨S_, .f32⟩ : BufTy).Contents (Elt F) → (⟨S1024x256, .f32⟩ : BufTy).Contents (Elt F)),
    StableHlo.binary main_v111 main_call17_v5 main_call17_v6 (addf : (⟨S1024x256, .f32⟩ : BufTy).Contents (Elt F) → (⟨S1024x256, .f32⟩ : BufTy).Contents (Elt F) → (⟨S1024x256, .f32⟩ : BufTy).Contents (Elt F)),
    StableHlo.unary main_call17_v3 main_call17_v7 (Host.absf : (⟨S1024x256, .f32⟩ : BufTy).Contents (Elt F) → (⟨S1024x256, .f32⟩ : BufTy).Contents (Elt F)),
    StableHlo.unary main_call17_v7 main_call17_v8 (Host.negf : (⟨S1024x256, .f32⟩ : BufTy).Contents (Elt F) → (⟨S1024x256, .f32⟩ : BufTy).Contents (Elt F)),
    StableHlo.unary main_call17_v8 main_call17_v9 (Host.exp : (⟨S1024x256, .f32⟩ : BufTy).Contents (Elt F) → (⟨S1024x256, .f32⟩ : BufTy).Contents (Elt F)),
    StableHlo.unary main_call17_v9 main_call17_v10 (Host.log1p : (⟨S1024x256, .f32⟩ : BufTy).Contents (Elt F) → (⟨S1024x256, .f32⟩ : BufTy).Contents (Elt F)),
    StableHlo.binary main_call17_v1 main_call17_v10 main_call17_v11 (addf : (⟨S1024x256, .f32⟩ : BufTy).Contents (Elt F) → (⟨S1024x256, .f32⟩ : BufTy).Contents (Elt F) → (⟨S1024x256, .f32⟩ : BufTy).Contents (Elt F)),
    StableHlo.ternary main_call17_v4 main_call17_v6 main_call17_v11 main_v112 (select : (⟨S1024x256, .i1⟩ : BufTy).Contents (Elt F) → (⟨S1024x256, .f32⟩ : BufTy).Contents (Elt F) → (⟨S1024x256, .f32⟩ : BufTy).Contents (Elt F) → (⟨S1024x256, .f32⟩ : BufTy).Contents (Elt F)),
    StableHlo.nullary main_cst_7 (constant S_ .f32 0x00000000#32),
    StableHlo.unary main_cst_7 main_v113 (broadcastInDim S256 ![] bcast_S_S256 : (⟨S_, .f32⟩ : BufTy).Contents (Elt F) → (⟨S256, .f32⟩ : BufTy).Contents (Elt F)),
    StableHlo.binary main_cst main_v113 main_v114 (cmpf .une : (⟨S256, .f32⟩ : BufTy).Contents (Elt F) → (⟨S256, .f32⟩ : BufTy).Contents (Elt F) → (⟨S256, .i1⟩ : BufTy).Contents (Elt F)),
    StableHlo.unary main_cst main_v115 (broadcastInDim S1x256 ![1] bcast_S256_S1x256_1 : (⟨S256, .f32⟩ : BufTy).Contents (Elt F) → (⟨S1x256, .f32⟩ : BufTy).Contents (Elt F)),
    StableHlo.unary main_v115 main_v116 (broadcastInDim S1024x256 ![0, 1] bcast_S1x256_S1024x256_0_1 : (⟨S1x256, .f32⟩ : BufTy).Contents (Elt F) → (⟨S1024x256, .f32⟩ : BufTy).Contents (Elt F)),
    StableHlo.binary main_v116 main_v112 main_v117 (mulf : (⟨S1024x256, .f32⟩ : BufTy).Contents (Elt F) → (⟨S1024x256, .f32⟩ : BufTy).Contents (Elt F) → (⟨S1024x256, .f32⟩ : BufTy).Contents (Elt F)),
    StableHlo.unary main_v114 main_call18_v0 ((broadcastInDim S1024x256 ![1] bcast_S256_S1024x256_1) : (⟨S256, .i1⟩ : BufTy).Contents (Elt F) → (⟨S1024x256, .i1⟩ : BufTy).Contents (Elt F)),
    StableHlo.ternary main_call18_v0 main_v117 main_v111 main_v118 (select : (⟨S1024x256, .i1⟩ : BufTy).Contents (Elt F) → (⟨S1024x256, .f32⟩ : BufTy).Contents (Elt F) → (⟨S1024x256, .f32⟩ : BufTy).Contents (Elt F) → (⟨S1024x256, .f32⟩ : BufTy).Contents (Elt F)),
    StableHlo.unary main_v118 main_v119 ((transpose S256x1024 [1, 0] · transposes_S1024x256_S256x1024_1_0) : (⟨S1024x256, .f32⟩ : BufTy).Contents (Elt F) → (⟨S256x1024, .f32⟩ : BufTy).Contents (Elt F)),
    StableHlo.binary main_arg1 main_v119 main_v120 ((fun l r => Host.dotGeneral dot_S8192x256_S256x1024_S8192x1024_1_0_0_1_n_n none l r) : (⟨S8192x256, .f32⟩ : BufTy).Contents (Elt F) → (⟨S256x1024, .f32⟩ : BufTy).Contents (Elt F) → (⟨S8192x1024, .f32⟩ : BufTy).Contents (Elt F)),
    StableHlo.unary main_arg7 main_v121 ((extractStridedSlice S1x1024 ![2, 0] · slices_S4x1024_S1x1024_2_0) : (⟨S4x1024, .f32⟩ : BufTy).Contents (Elt F) → (⟨S1x1024, .f32⟩ : BufTy).Contents (Elt F)),
    StableHlo.reshape main_v121 main_v122 rfl shapeCasts_S1x1024_S1024,
    StableHlo.unary main_v122 main_v123 (broadcastInDim S1x1024 ![1] bcast_S1024_S1x1024_1 : (⟨S1024, .f32⟩ : BufTy).Contents (Elt F) → (⟨S1x1024, .f32⟩ : BufTy).Contents (Elt F)),
    StableHlo.unary main_v123 main_v124 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v120 main_v124 main_v125 (addf : (⟨S8192x1024, .f32⟩ : BufTy).Contents (Elt F) → (⟨S8192x1024, .f32⟩ : BufTy).Contents (Elt F) → (⟨S8192x1024, .f32⟩ : BufTy).Contents (Elt F)),
    StableHlo.nullary main_call19_cst ((constant S_ .f32 0x00000000#32) : (⟨S_, .f32⟩ : BufTy).Contents (Elt F)),
    StableHlo.unary main_call19_cst main_call19_v0 ((broadcastInDim S8192x1024 ![] bcast_S_S8192x1024) : (⟨S_, .f32⟩ : BufTy).Contents (Elt F) → (⟨S8192x1024, .f32⟩ : BufTy).Contents (Elt F)),
    StableHlo.binary main_v125 main_call19_v0 main_v126 (maximumf : (⟨S8192x1024, .f32⟩ : BufTy).Contents (Elt F) → (⟨S8192x1024, .f32⟩ : BufTy).Contents (Elt F) → (⟨S8192x1024, .f32⟩ : BufTy).Contents (Elt F)) ]
/-- The buffers these operations write. -/
abbrev g2w2_W : List (Ref sig .tc) := [main_call17_cst, main_call17_v0, main_call17_v1, main_call17_v2, main_call17_v3, main_call17_v4, main_call17_v5, main_call17_v6, main_call17_v7, main_call17_v8, main_call17_v9, main_call17_v10, main_call17_v11, main_v112, main_cst_7, main_v113, main_v114, main_v115, main_v116, main_v117, main_call18_v0, main_v118, main_v119, main_v120, main_v121, main_v122, main_v123, main_v124, main_v125, main_call19_cst, main_call19_v0, main_v126]

/-- 31 operations of path c2 in window 2. -/
def c2w2 : List (HloOp τ sig (Elt F)) :=
  [ StableHlo.unary main_arg2 main_v127 ((extractStridedSlice S1x1024x256 ![2, 0, 0] · slices_S4x1024x256_S1x1024x256_2_0_0) : (⟨S4x1024x256, .f32⟩ : BufTy).Contents (Elt F) → (⟨S1x1024x256, .f32⟩ : BufTy).Contents (Elt F)),
    StableHlo.reshape main_v127 main_v128 rfl shapeCasts_S1x1024x256_S1024x256,
    StableHlo.nullary main_call20_cst ((constant S_ .f32 0x00000000#32) : (⟨S_, .f32⟩ : BufTy).Contents (Elt F)),
    StableHlo.unary main_call20_cst main_call20_v0 ((broadcastInDim S1024x256 ![] bcast_S_S1024x256) : (⟨S_, .f32⟩ : BufTy).Contents (Elt F) → (⟨S1024x256, .f32⟩ : BufTy).Contents (Elt F)),
    StableHlo.binary main_v128 main_call20_v0 main_call20_v1 (maximumf : (⟨S1024x256, .f32⟩ : BufTy).Contents (Elt F) → (⟨S1024x256, .f32⟩ : BufTy).Contents (Elt F) → (⟨S1024x256, .f32⟩ : BufTy).Contents (Elt F)),
    StableHlo.unary main_call20_cst main_call20_v2 ((broadcastInDim S1024x256 ![] bcast_S_S1024x256) : (⟨S_, .f32⟩ : BufTy).Contents (Elt F) → (⟨S1024x256, .f32⟩ : BufTy).Contents (Elt F)),
    StableHlo.binary main_v128 main_call20_v2 main_call20_v3 (subf : (⟨S1024x256, .f32⟩ : BufTy).Contents (Elt F) → (⟨S1024x256, .f32⟩ : BufTy).Contents (Elt F) → (⟨S1024x256, .f32⟩ : BufTy).Contents (Elt F)),
    StableHlo.binary main_call20_v3 main_call20_v3 main_call20_v4 ((cmpf .une) : (⟨S1024x256, .f32⟩ : BufTy).Contents (Elt F) → (⟨S1024x256, .f32⟩ : BufTy).Contents (Elt F) → (⟨S1024x256, .i1⟩ : BufTy).Contents (Elt F)),
    StableHlo.unary main_call20_cst main_call20_v5 ((broadcastInDim S1024x256 ![] bcast_S_S1024x256) : (⟨S_, .f32⟩ : BufTy).Contents (Elt F) → (⟨S1024x256, .f32⟩ : BufTy).Contents (Elt F)),
    StableHlo.binary main_v128 main_call20_v5 main_call20_v6 (addf : (⟨S1024x256, .f32⟩ : BufTy).Contents (Elt F) → (⟨S1024x256, .f32⟩ : BufTy).Contents (Elt F) → (⟨S1024x256, .f32⟩ : BufTy).Contents (Elt F)),
    StableHlo.unary main_call20_v3 main_call20_v7 (Host.absf : (⟨S1024x256, .f32⟩ : BufTy).Contents (Elt F) → (⟨S1024x256, .f32⟩ : BufTy).Contents (Elt F)),
    StableHlo.unary main_call20_v7 main_call20_v8 (Host.negf : (⟨S1024x256, .f32⟩ : BufTy).Contents (Elt F) → (⟨S1024x256, .f32⟩ : BufTy).Contents (Elt F)),
    StableHlo.unary main_call20_v8 main_call20_v9 (Host.exp : (⟨S1024x256, .f32⟩ : BufTy).Contents (Elt F) → (⟨S1024x256, .f32⟩ : BufTy).Contents (Elt F)),
    StableHlo.unary main_call20_v9 main_call20_v10 (Host.log1p : (⟨S1024x256, .f32⟩ : BufTy).Contents (Elt F) → (⟨S1024x256, .f32⟩ : BufTy).Contents (Elt F)),
    StableHlo.binary main_call20_v1 main_call20_v10 main_call20_v11 (addf : (⟨S1024x256, .f32⟩ : BufTy).Contents (Elt F) → (⟨S1024x256, .f32⟩ : BufTy).Contents (Elt F) → (⟨S1024x256, .f32⟩ : BufTy).Contents (Elt F)),
    StableHlo.ternary main_call20_v4 main_call20_v6 main_call20_v11 main_v129 (select : (⟨S1024x256, .i1⟩ : BufTy).Contents (Elt F) → (⟨S1024x256, .f32⟩ : BufTy).Contents (Elt F) → (⟨S1024x256, .f32⟩ : BufTy).Contents (Elt F) → (⟨S1024x256, .f32⟩ : BufTy).Contents (Elt F)),
    StableHlo.nullary main_cst_8 (constant S_ .f32 0x00000000#32),
    StableHlo.unary main_cst_8 main_v130 (broadcastInDim S256 ![] bcast_S_S256 : (⟨S_, .f32⟩ : BufTy).Contents (Elt F) → (⟨S256, .f32⟩ : BufTy).Contents (Elt F)),
    StableHlo.binary main_cst_0 main_v130 main_v131 (cmpf .une : (⟨S256, .f32⟩ : BufTy).Contents (Elt F) → (⟨S256, .f32⟩ : BufTy).Contents (Elt F) → (⟨S256, .i1⟩ : BufTy).Contents (Elt F)),
    StableHlo.unary main_cst_0 main_v132 (broadcastInDim S1x256 ![1] bcast_S256_S1x256_1 : (⟨S256, .f32⟩ : BufTy).Contents (Elt F) → (⟨S1x256, .f32⟩ : BufTy).Contents (Elt F)),
    StableHlo.unary main_v132 main_v133 (broadcastInDim S1024x256 ![0, 1] bcast_S1x256_S1024x256_0_1 : (⟨S1x256, .f32⟩ : BufTy).Contents (Elt F) → (⟨S1024x256, .f32⟩ : BufTy).Contents (Elt F)),
    StableHlo.binary main_v133 main_v129 main_v134 (mulf : (⟨S1024x256, .f32⟩ : BufTy).Contents (Elt F) → (⟨S1024x256, .f32⟩ : BufTy).Contents (Elt F) → (⟨S1024x256, .f32⟩ : BufTy).Contents (Elt F)),
    StableHlo.unary main_v131 main_call21_v0 ((broadcastInDim S1024x256 ![1] bcast_S256_S1024x256_1) : (⟨S256, .i1⟩ : BufTy).Contents (Elt F) → (⟨S1024x256, .i1⟩ : BufTy).Contents (Elt F)),
    StableHlo.ternary main_call21_v0 main_v134 main_v128 main_v135 (select : (⟨S1024x256, .i1⟩ : BufTy).Contents (Elt F) → (⟨S1024x256, .f32⟩ : BufTy).Contents (Elt F) → (⟨S1024x256, .f32⟩ : BufTy).Contents (Elt F) → (⟨S1024x256, .f32⟩ : BufTy).Contents (Elt F)),
    StableHlo.unary main_v135 main_v136 ((transpose S256x1024 [1, 0] · transposes_S1024x256_S256x1024_1_0) : (⟨S1024x256, .f32⟩ : BufTy).Contents (Elt F) → (⟨S256x1024, .f32⟩ : BufTy).Contents (Elt F)),
    StableHlo.binary main_arg0 main_v136 main_v137 ((fun l r => Host.dotGeneral dot_S8192x256_S256x1024_S8192x1024_1_0_0_1_n_n none l r) : (⟨S8192x256, .f32⟩ : BufTy).Contents (Elt F) → (⟨S256x1024, .f32⟩ : BufTy).Contents (Elt F) → (⟨S8192x1024, .f32⟩ : BufTy).Contents (Elt F)),
    StableHlo.unary main_arg3 main_v138 ((extractStridedSlice S1x1024 ![2, 0] · slices_S4x1024_S1x1024_2_0) : (⟨S4x1024, .f32⟩ : BufTy).Contents (Elt F) → (⟨S1x1024, .f32⟩ : BufTy).Contents (Elt F)),
    StableHlo.reshape main_v138 main_v139 rfl shapeCasts_S1x1024_S1024,
    StableHlo.unary main_v139 main_v140 (broadcastInDim S1x1024 ![1] bcast_S1024_S1x1024_1 : (⟨S1024, .f32⟩ : BufTy).Contents (Elt F) → (⟨S1x1024, .f32⟩ : BufTy).Contents (Elt F)),
    StableHlo.unary main_v140 main_v141 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v137 main_v141 main_v142 (addf : (⟨S8192x1024, .f32⟩ : BufTy).Contents (Elt F) → (⟨S8192x1024, .f32⟩ : BufTy).Contents (Elt F) → (⟨S8192x1024, .f32⟩ : BufTy).Contents (Elt F)) ]
/-- The buffers these operations write. -/
abbrev c2w2_W : List (Ref sig .tc) := [main_v127, main_v128, main_call20_cst, main_call20_v0, main_call20_v1, main_call20_v2, main_call20_v3, main_call20_v4, main_call20_v5, main_call20_v6, main_call20_v7, main_call20_v8, main_call20_v9, main_call20_v10, main_call20_v11, main_v129, main_cst_8, main_v130, main_v131, main_v132, main_v133, main_v134, main_call21_v0, main_v135, main_v136, main_v137, main_v138, main_v139, main_v140, main_v141, main_v142]

/-- 32 operations of path u2 in window 2. -/
def u2w2 : List (HloOp τ sig (Elt F)) :=
  [ StableHlo.unary main_arg4 main_v143 ((extractStridedSlice S1x1024x256 ![2, 0, 0] · slices_S4x1024x256_S1x1024x256_2_0_0) : (⟨S4x1024x256, .f32⟩ : BufTy).Contents (Elt F) → (⟨S1x1024x256, .f32⟩ : BufTy).Contents (Elt F)),
    StableHlo.reshape main_v143 main_v144 rfl shapeCasts_S1x1024x256_S1024x256,
    StableHlo.nullary main_call22_cst ((constant S_ .f32 0x00000000#32) : (⟨S_, .f32⟩ : BufTy).Contents (Elt F)),
    StableHlo.unary main_call22_cst main_call22_v0 ((broadcastInDim S1024x256 ![] bcast_S_S1024x256) : (⟨S_, .f32⟩ : BufTy).Contents (Elt F) → (⟨S1024x256, .f32⟩ : BufTy).Contents (Elt F)),
    StableHlo.binary main_v144 main_call22_v0 main_call22_v1 (maximumf : (⟨S1024x256, .f32⟩ : BufTy).Contents (Elt F) → (⟨S1024x256, .f32⟩ : BufTy).Contents (Elt F) → (⟨S1024x256, .f32⟩ : BufTy).Contents (Elt F)),
    StableHlo.unary main_call22_cst main_call22_v2 ((broadcastInDim S1024x256 ![] bcast_S_S1024x256) : (⟨S_, .f32⟩ : BufTy).Contents (Elt F) → (⟨S1024x256, .f32⟩ : BufTy).Contents (Elt F)),
    StableHlo.binary main_v144 main_call22_v2 main_call22_v3 (subf : (⟨S1024x256, .f32⟩ : BufTy).Contents (Elt F) → (⟨S1024x256, .f32⟩ : BufTy).Contents (Elt F) → (⟨S1024x256, .f32⟩ : BufTy).Contents (Elt F)),
    StableHlo.binary main_call22_v3 main_call22_v3 main_call22_v4 ((cmpf .une) : (⟨S1024x256, .f32⟩ : BufTy).Contents (Elt F) → (⟨S1024x256, .f32⟩ : BufTy).Contents (Elt F) → (⟨S1024x256, .i1⟩ : BufTy).Contents (Elt F)),
    StableHlo.unary main_call22_cst main_call22_v5 ((broadcastInDim S1024x256 ![] bcast_S_S1024x256) : (⟨S_, .f32⟩ : BufTy).Contents (Elt F) → (⟨S1024x256, .f32⟩ : BufTy).Contents (Elt F)),
    StableHlo.binary main_v144 main_call22_v5 main_call22_v6 (addf : (⟨S1024x256, .f32⟩ : BufTy).Contents (Elt F) → (⟨S1024x256, .f32⟩ : BufTy).Contents (Elt F) → (⟨S1024x256, .f32⟩ : BufTy).Contents (Elt F)),
    StableHlo.unary main_call22_v3 main_call22_v7 (Host.absf : (⟨S1024x256, .f32⟩ : BufTy).Contents (Elt F) → (⟨S1024x256, .f32⟩ : BufTy).Contents (Elt F)),
    StableHlo.unary main_call22_v7 main_call22_v8 (Host.negf : (⟨S1024x256, .f32⟩ : BufTy).Contents (Elt F) → (⟨S1024x256, .f32⟩ : BufTy).Contents (Elt F)),
    StableHlo.unary main_call22_v8 main_call22_v9 (Host.exp : (⟨S1024x256, .f32⟩ : BufTy).Contents (Elt F) → (⟨S1024x256, .f32⟩ : BufTy).Contents (Elt F)),
    StableHlo.unary main_call22_v9 main_call22_v10 (Host.log1p : (⟨S1024x256, .f32⟩ : BufTy).Contents (Elt F) → (⟨S1024x256, .f32⟩ : BufTy).Contents (Elt F)),
    StableHlo.binary main_call22_v1 main_call22_v10 main_call22_v11 (addf : (⟨S1024x256, .f32⟩ : BufTy).Contents (Elt F) → (⟨S1024x256, .f32⟩ : BufTy).Contents (Elt F) → (⟨S1024x256, .f32⟩ : BufTy).Contents (Elt F)),
    StableHlo.ternary main_call22_v4 main_call22_v6 main_call22_v11 main_v145 (select : (⟨S1024x256, .i1⟩ : BufTy).Contents (Elt F) → (⟨S1024x256, .f32⟩ : BufTy).Contents (Elt F) → (⟨S1024x256, .f32⟩ : BufTy).Contents (Elt F) → (⟨S1024x256, .f32⟩ : BufTy).Contents (Elt F)),
    StableHlo.nullary main_cst_9 (constant S_ .f32 0x00000000#32),
    StableHlo.unary main_cst_9 main_v146 (broadcastInDim S256 ![] bcast_S_S256 : (⟨S_, .f32⟩ : BufTy).Contents (Elt F) → (⟨S256, .f32⟩ : BufTy).Contents (Elt F)),
    StableHlo.binary main_cst main_v146 main_v147 (cmpf .une : (⟨S256, .f32⟩ : BufTy).Contents (Elt F) → (⟨S256, .f32⟩ : BufTy).Contents (Elt F) → (⟨S256, .i1⟩ : BufTy).Contents (Elt F)),
    StableHlo.unary main_cst main_v148 (broadcastInDim S1x256 ![1] bcast_S256_S1x256_1 : (⟨S256, .f32⟩ : BufTy).Contents (Elt F) → (⟨S1x256, .f32⟩ : BufTy).Contents (Elt F)),
    StableHlo.unary main_v148 main_v149 (broadcastInDim S1024x256 ![0, 1] bcast_S1x256_S1024x256_0_1 : (⟨S1x256, .f32⟩ : BufTy).Contents (Elt F) → (⟨S1024x256, .f32⟩ : BufTy).Contents (Elt F)),
    StableHlo.binary main_v149 main_v145 main_v150 (mulf : (⟨S1024x256, .f32⟩ : BufTy).Contents (Elt F) → (⟨S1024x256, .f32⟩ : BufTy).Contents (Elt F) → (⟨S1024x256, .f32⟩ : BufTy).Contents (Elt F)),
    StableHlo.unary main_v147 main_call23_v0 ((broadcastInDim S1024x256 ![1] bcast_S256_S1024x256_1) : (⟨S256, .i1⟩ : BufTy).Contents (Elt F) → (⟨S1024x256, .i1⟩ : BufTy).Contents (Elt F)),
    StableHlo.ternary main_call23_v0 main_v150 main_v144 main_v151 (select : (⟨S1024x256, .i1⟩ : BufTy).Contents (Elt F) → (⟨S1024x256, .f32⟩ : BufTy).Contents (Elt F) → (⟨S1024x256, .f32⟩ : BufTy).Contents (Elt F) → (⟨S1024x256, .f32⟩ : BufTy).Contents (Elt F)),
    StableHlo.unary main_v151 main_v152 ((transpose S256x1024 [1, 0] · transposes_S1024x256_S256x1024_1_0) : (⟨S1024x256, .f32⟩ : BufTy).Contents (Elt F) → (⟨S256x1024, .f32⟩ : BufTy).Contents (Elt F)),
    StableHlo.binary main_arg1 main_v152 main_v153 ((fun l r => Host.dotGeneral dot_S8192x256_S256x1024_S8192x1024_1_0_0_1_n_n none l r) : (⟨S8192x256, .f32⟩ : BufTy).Contents (Elt F) → (⟨S256x1024, .f32⟩ : BufTy).Contents (Elt F) → (⟨S8192x1024, .f32⟩ : BufTy).Contents (Elt F)),
    StableHlo.binary main_v142 main_v153 main_v154 (addf : (⟨S8192x1024, .f32⟩ : BufTy).Contents (Elt F) → (⟨S8192x1024, .f32⟩ : BufTy).Contents (Elt F) → (⟨S8192x1024, .f32⟩ : BufTy).Contents (Elt F)),
    StableHlo.unary main_arg5 main_v155 ((extractStridedSlice S1x1024 ![2, 0] · slices_S4x1024_S1x1024_2_0) : (⟨S4x1024, .f32⟩ : BufTy).Contents (Elt F) → (⟨S1x1024, .f32⟩ : BufTy).Contents (Elt F)),
    StableHlo.reshape main_v155 main_v156 rfl shapeCasts_S1x1024_S1024,
    StableHlo.unary main_v156 main_v157 (broadcastInDim S1x1024 ![1] bcast_S1024_S1x1024_1 : (⟨S1024, .f32⟩ : BufTy).Contents (Elt F) → (⟨S1x1024, .f32⟩ : BufTy).Contents (Elt F)),
    StableHlo.unary main_v157 main_v158 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v154 main_v158 main_v159 (addf : (⟨S8192x1024, .f32⟩ : BufTy).Contents (Elt F) → (⟨S8192x1024, .f32⟩ : BufTy).Contents (Elt F) → (⟨S8192x1024, .f32⟩ : BufTy).Contents (Elt F)) ]
/-- The buffers these operations write. -/
abbrev u2w2_W : List (Ref sig .tc) := [main_v143, main_v144, main_call22_cst, main_call22_v0, main_call22_v1, main_call22_v2, main_call22_v3, main_call22_v4, main_call22_v5, main_call22_v6, main_call22_v7, main_call22_v8, main_call22_v9, main_call22_v10, main_call22_v11, main_v145, main_cst_9, main_v146, main_v147, main_v148, main_v149, main_v150, main_call23_v0, main_v151, main_v152, main_v153, main_v154, main_v155, main_v156, main_v157, main_v158, main_v159]

/-- 19 operations of path z2 in window 2. -/
def z2w2 : List (HloOp τ sig (Elt F)) :=
  [ StableHlo.unary main_arg8 main_v160 ((extractStridedSlice S1x1024x1024 ![1, 0, 0] · slices_S3x1024x1024_S1x1024x1024_1_0_0) : (⟨S3x1024x1024, .f32⟩ : BufTy).Contents (Elt F) → (⟨S1x1024x1024, .f32⟩ : BufTy).Contents (Elt F)),
    StableHlo.reshape main_v160 main_v161 rfl shapeCasts_S1x1024x1024_S1024x1024,
    StableHlo.nullary main_call24_cst ((constant S_ .f32 0x00000000#32) : (⟨S_, .f32⟩ : BufTy).Contents (Elt F)),
    StableHlo.unary main_call24_cst main_call24_v0 ((broadcastInDim S1024x1024 ![] bcast_S_S1024x1024) : (⟨S_, .f32⟩ : BufTy).Contents (Elt F) → (⟨S1024x1024, .f32⟩ : BufTy).Contents (Elt F)),
    StableHlo.binary main_v161 main_call24_v0 main_call24_v1 (maximumf : (⟨S1024x1024, .f32⟩ : BufTy).Contents (Elt F) → (⟨S1024x1024, .f32⟩ : BufTy).Contents (Elt F) → (⟨S1024x1024, .f32⟩ : BufTy).Contents (Elt F)),
    StableHlo.unary main_call24_cst main_call24_v2 ((broadcastInDim S1024x1024 ![] bcast_S_S1024x1024) : (⟨S_, .f32⟩ : BufTy).Contents (Elt F) → (⟨S1024x1024, .f32⟩ : BufTy).Contents (Elt F)),
    StableHlo.binary main_v161 main_call24_v2 main_call24_v3 (subf : (⟨S1024x1024, .f32⟩ : BufTy).Contents (Elt F) → (⟨S1024x1024, .f32⟩ : BufTy).Contents (Elt F) → (⟨S1024x1024, .f32⟩ : BufTy).Contents (Elt F)),
    StableHlo.binary main_call24_v3 main_call24_v3 main_call24_v4 ((cmpf .une) : (⟨S1024x1024, .f32⟩ : BufTy).Contents (Elt F) → (⟨S1024x1024, .f32⟩ : BufTy).Contents (Elt F) → (⟨S1024x1024, .i1⟩ : BufTy).Contents (Elt F)),
    StableHlo.unary main_call24_cst main_call24_v5 ((broadcastInDim S1024x1024 ![] bcast_S_S1024x1024) : (⟨S_, .f32⟩ : BufTy).Contents (Elt F) → (⟨S1024x1024, .f32⟩ : BufTy).Contents (Elt F)),
    StableHlo.binary main_v161 main_call24_v5 main_call24_v6 (addf : (⟨S1024x1024, .f32⟩ : BufTy).Contents (Elt F) → (⟨S1024x1024, .f32⟩ : BufTy).Contents (Elt F) → (⟨S1024x1024, .f32⟩ : BufTy).Contents (Elt F)),
    StableHlo.unary main_call24_v3 main_call24_v7 (Host.absf : (⟨S1024x1024, .f32⟩ : BufTy).Contents (Elt F) → (⟨S1024x1024, .f32⟩ : BufTy).Contents (Elt F)),
    StableHlo.unary main_call24_v7 main_call24_v8 (Host.negf : (⟨S1024x1024, .f32⟩ : BufTy).Contents (Elt F) → (⟨S1024x1024, .f32⟩ : BufTy).Contents (Elt F)),
    StableHlo.unary main_call24_v8 main_call24_v9 (Host.exp : (⟨S1024x1024, .f32⟩ : BufTy).Contents (Elt F) → (⟨S1024x1024, .f32⟩ : BufTy).Contents (Elt F)),
    StableHlo.unary main_call24_v9 main_call24_v10 (Host.log1p : (⟨S1024x1024, .f32⟩ : BufTy).Contents (Elt F) → (⟨S1024x1024, .f32⟩ : BufTy).Contents (Elt F)),
    StableHlo.binary main_call24_v1 main_call24_v10 main_call24_v11 (addf : (⟨S1024x1024, .f32⟩ : BufTy).Contents (Elt F) → (⟨S1024x1024, .f32⟩ : BufTy).Contents (Elt F) → (⟨S1024x1024, .f32⟩ : BufTy).Contents (Elt F)),
    StableHlo.ternary main_call24_v4 main_call24_v6 main_call24_v11 main_v162 (select : (⟨S1024x1024, .i1⟩ : BufTy).Contents (Elt F) → (⟨S1024x1024, .f32⟩ : BufTy).Contents (Elt F) → (⟨S1024x1024, .f32⟩ : BufTy).Contents (Elt F) → (⟨S1024x1024, .f32⟩ : BufTy).Contents (Elt F)),
    StableHlo.unary main_v162 main_v163 ((transpose S1024x1024 [1, 0] · transposes_S1024x1024_S1024x1024_1_0) : (⟨S1024x1024, .f32⟩ : BufTy).Contents (Elt F) → (⟨S1024x1024, .f32⟩ : BufTy).Contents (Elt F)),
    StableHlo.binary main_v109 main_v163 main_v164 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    StableHlo.binary main_v159 main_v164 main_v165 (addf : (⟨S8192x1024, .f32⟩ : BufTy).Contents (Elt F) → (⟨S8192x1024, .f32⟩ : BufTy).Contents (Elt F) → (⟨S8192x1024, .f32⟩ : BufTy).Contents (Elt F)) ]
/-- The buffers these operations write. -/
abbrev z2w2_W : List (Ref sig .tc) := [main_v160, main_v161, main_call24_cst, main_call24_v0, main_call24_v1, main_call24_v2, main_call24_v3, main_call24_v4, main_call24_v5, main_call24_v6, main_call24_v7, main_call24_v8, main_call24_v9, main_call24_v10, main_call24_v11, main_v162, main_v163, main_v164, main_v165]

/-- 4 operations of path f2 in window 2. -/
def f2w2 : List (HloOp τ sig (Elt F)) :=
  [ StableHlo.binary main_v165 main_v126 main_v166 (addf : (⟨S8192x1024, .f32⟩ : BufTy).Contents (Elt F) → (⟨S8192x1024, .f32⟩ : BufTy).Contents (Elt F) → (⟨S8192x1024, .f32⟩ : BufTy).Contents (Elt F)),
    StableHlo.nullary main_call25_cst ((constant S_ .f32 0x00000000#32) : (⟨S_, .f32⟩ : BufTy).Contents (Elt F)),
    StableHlo.unary main_call25_cst main_call25_v0 ((broadcastInDim S8192x1024 ![] bcast_S_S8192x1024) : (⟨S_, .f32⟩ : BufTy).Contents (Elt F) → (⟨S8192x1024, .f32⟩ : BufTy).Contents (Elt F)),
    StableHlo.binary main_v166 main_call25_v0 main_v167 (maximumf : (⟨S8192x1024, .f32⟩ : BufTy).Contents (Elt F) → (⟨S8192x1024, .f32⟩ : BufTy).Contents (Elt F) → (⟨S8192x1024, .f32⟩ : BufTy).Contents (Elt F)) ]
/-- The buffers these operations write. -/
abbrev f2w2_W : List (Ref sig .tc) := [main_v166, main_call25_cst, main_call25_v0, main_v167]

/-- 1 operations of path g3 in window 2. -/
def g3w2 : List (HloOp τ sig (Elt F)) :=
  [ StableHlo.unary main_arg6 main_v168 ((extractStridedSlice S1x1024x256 ![3, 0, 0] · slices_S4x1024x256_S1x1024x256_3_0_0) : (⟨S4x1024x256, .f32⟩ : BufTy).Contents (Elt F) → (⟨S1x1024x256, .f32⟩ : BufTy).Contents (Elt F)) ]
/-- The buffers these operations write. -/
abbrev g3w2_W : List (Ref sig .tc) := [main_v168]

/-- 33 operations of path g3 in window 3. -/
def g3w3 : List (HloOp τ sig (Elt F)) :=
  [ StableHlo.reshape main_v168 main_v169 rfl shapeCasts_S1x1024x256_S1024x256,
    StableHlo.nullary main_call26_cst ((constant S_ .f32 0x00000000#32) : (⟨S_, .f32⟩ : BufTy).Contents (Elt F)),
    StableHlo.unary main_call26_cst main_call26_v0 ((broadcastInDim S1024x256 ![] bcast_S_S1024x256) : (⟨S_, .f32⟩ : BufTy).Contents (Elt F) → (⟨S1024x256, .f32⟩ : BufTy).Contents (Elt F)),
    StableHlo.binary main_v169 main_call26_v0 main_call26_v1 (maximumf : (⟨S1024x256, .f32⟩ : BufTy).Contents (Elt F) → (⟨S1024x256, .f32⟩ : BufTy).Contents (Elt F) → (⟨S1024x256, .f32⟩ : BufTy).Contents (Elt F)),
    StableHlo.unary main_call26_cst main_call26_v2 ((broadcastInDim S1024x256 ![] bcast_S_S1024x256) : (⟨S_, .f32⟩ : BufTy).Contents (Elt F) → (⟨S1024x256, .f32⟩ : BufTy).Contents (Elt F)),
    StableHlo.binary main_v169 main_call26_v2 main_call26_v3 (subf : (⟨S1024x256, .f32⟩ : BufTy).Contents (Elt F) → (⟨S1024x256, .f32⟩ : BufTy).Contents (Elt F) → (⟨S1024x256, .f32⟩ : BufTy).Contents (Elt F)),
    StableHlo.binary main_call26_v3 main_call26_v3 main_call26_v4 ((cmpf .une) : (⟨S1024x256, .f32⟩ : BufTy).Contents (Elt F) → (⟨S1024x256, .f32⟩ : BufTy).Contents (Elt F) → (⟨S1024x256, .i1⟩ : BufTy).Contents (Elt F)),
    StableHlo.unary main_call26_cst main_call26_v5 ((broadcastInDim S1024x256 ![] bcast_S_S1024x256) : (⟨S_, .f32⟩ : BufTy).Contents (Elt F) → (⟨S1024x256, .f32⟩ : BufTy).Contents (Elt F)),
    StableHlo.binary main_v169 main_call26_v5 main_call26_v6 (addf : (⟨S1024x256, .f32⟩ : BufTy).Contents (Elt F) → (⟨S1024x256, .f32⟩ : BufTy).Contents (Elt F) → (⟨S1024x256, .f32⟩ : BufTy).Contents (Elt F)),
    StableHlo.unary main_call26_v3 main_call26_v7 (Host.absf : (⟨S1024x256, .f32⟩ : BufTy).Contents (Elt F) → (⟨S1024x256, .f32⟩ : BufTy).Contents (Elt F)),
    StableHlo.unary main_call26_v7 main_call26_v8 (Host.negf : (⟨S1024x256, .f32⟩ : BufTy).Contents (Elt F) → (⟨S1024x256, .f32⟩ : BufTy).Contents (Elt F)),
    StableHlo.unary main_call26_v8 main_call26_v9 (Host.exp : (⟨S1024x256, .f32⟩ : BufTy).Contents (Elt F) → (⟨S1024x256, .f32⟩ : BufTy).Contents (Elt F)),
    StableHlo.unary main_call26_v9 main_call26_v10 (Host.log1p : (⟨S1024x256, .f32⟩ : BufTy).Contents (Elt F) → (⟨S1024x256, .f32⟩ : BufTy).Contents (Elt F)),
    StableHlo.binary main_call26_v1 main_call26_v10 main_call26_v11 (addf : (⟨S1024x256, .f32⟩ : BufTy).Contents (Elt F) → (⟨S1024x256, .f32⟩ : BufTy).Contents (Elt F) → (⟨S1024x256, .f32⟩ : BufTy).Contents (Elt F)),
    StableHlo.ternary main_call26_v4 main_call26_v6 main_call26_v11 main_v170 (select : (⟨S1024x256, .i1⟩ : BufTy).Contents (Elt F) → (⟨S1024x256, .f32⟩ : BufTy).Contents (Elt F) → (⟨S1024x256, .f32⟩ : BufTy).Contents (Elt F) → (⟨S1024x256, .f32⟩ : BufTy).Contents (Elt F)),
    StableHlo.nullary main_cst_10 (constant S_ .f32 0x00000000#32),
    StableHlo.unary main_cst_10 main_v171 (broadcastInDim S256 ![] bcast_S_S256 : (⟨S_, .f32⟩ : BufTy).Contents (Elt F) → (⟨S256, .f32⟩ : BufTy).Contents (Elt F)),
    StableHlo.binary main_cst main_v171 main_v172 (cmpf .une : (⟨S256, .f32⟩ : BufTy).Contents (Elt F) → (⟨S256, .f32⟩ : BufTy).Contents (Elt F) → (⟨S256, .i1⟩ : BufTy).Contents (Elt F)),
    StableHlo.unary main_cst main_v173 (broadcastInDim S1x256 ![1] bcast_S256_S1x256_1 : (⟨S256, .f32⟩ : BufTy).Contents (Elt F) → (⟨S1x256, .f32⟩ : BufTy).Contents (Elt F)),
    StableHlo.unary main_v173 main_v174 (broadcastInDim S1024x256 ![0, 1] bcast_S1x256_S1024x256_0_1 : (⟨S1x256, .f32⟩ : BufTy).Contents (Elt F) → (⟨S1024x256, .f32⟩ : BufTy).Contents (Elt F)),
    StableHlo.binary main_v174 main_v170 main_v175 (mulf : (⟨S1024x256, .f32⟩ : BufTy).Contents (Elt F) → (⟨S1024x256, .f32⟩ : BufTy).Contents (Elt F) → (⟨S1024x256, .f32⟩ : BufTy).Contents (Elt F)),
    StableHlo.unary main_v172 main_call27_v0 ((broadcastInDim S1024x256 ![1] bcast_S256_S1024x256_1) : (⟨S256, .i1⟩ : BufTy).Contents (Elt F) → (⟨S1024x256, .i1⟩ : BufTy).Contents (Elt F)),
    StableHlo.ternary main_call27_v0 main_v175 main_v169 main_v176 (select : (⟨S1024x256, .i1⟩ : BufTy).Contents (Elt F) → (⟨S1024x256, .f32⟩ : BufTy).Contents (Elt F) → (⟨S1024x256, .f32⟩ : BufTy).Contents (Elt F) → (⟨S1024x256, .f32⟩ : BufTy).Contents (Elt F)),
    StableHlo.unary main_v176 main_v177 ((transpose S256x1024 [1, 0] · transposes_S1024x256_S256x1024_1_0) : (⟨S1024x256, .f32⟩ : BufTy).Contents (Elt F) → (⟨S256x1024, .f32⟩ : BufTy).Contents (Elt F)),
    StableHlo.binary main_arg1 main_v177 main_v178 ((fun l r => Host.dotGeneral dot_S8192x256_S256x1024_S8192x1024_1_0_0_1_n_n none l r) : (⟨S8192x256, .f32⟩ : BufTy).Contents (Elt F) → (⟨S256x1024, .f32⟩ : BufTy).Contents (Elt F) → (⟨S8192x1024, .f32⟩ : BufTy).Contents (Elt F)),
    StableHlo.unary main_arg7 main_v179 ((extractStridedSlice S1x1024 ![3, 0] · slices_S4x1024_S1x1024_3_0) : (⟨S4x1024, .f32⟩ : BufTy).Contents (Elt F) → (⟨S1x1024, .f32⟩ : BufTy).Contents (Elt F)),
    StableHlo.reshape main_v179 main_v180 rfl shapeCasts_S1x1024_S1024,
    StableHlo.unary main_v180 main_v181 (broadcastInDim S1x1024 ![1] bcast_S1024_S1x1024_1 : (⟨S1024, .f32⟩ : BufTy).Contents (Elt F) → (⟨S1x1024, .f32⟩ : BufTy).Contents (Elt F)),
    StableHlo.unary main_v181 main_v182 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v178 main_v182 main_v183 (addf : (⟨S8192x1024, .f32⟩ : BufTy).Contents (Elt F) → (⟨S8192x1024, .f32⟩ : BufTy).Contents (Elt F) → (⟨S8192x1024, .f32⟩ : BufTy).Contents (Elt F)),
    StableHlo.nullary main_call28_cst ((constant S_ .f32 0x00000000#32) : (⟨S_, .f32⟩ : BufTy).Contents (Elt F)),
    StableHlo.unary main_call28_cst main_call28_v0 ((broadcastInDim S8192x1024 ![] bcast_S_S8192x1024) : (⟨S_, .f32⟩ : BufTy).Contents (Elt F) → (⟨S8192x1024, .f32⟩ : BufTy).Contents (Elt F)),
    StableHlo.binary main_v183 main_call28_v0 main_v184 (maximumf : (⟨S8192x1024, .f32⟩ : BufTy).Contents (Elt F) → (⟨S8192x1024, .f32⟩ : BufTy).Contents (Elt F) → (⟨S8192x1024, .f32⟩ : BufTy).Contents (Elt F)) ]
/-- The buffers these operations write. -/
abbrev g3w3_W : List (Ref sig .tc) := [main_v169, main_call26_cst, main_call26_v0, main_call26_v1, main_call26_v2, main_call26_v3, main_call26_v4, main_call26_v5, main_call26_v6, main_call26_v7, main_call26_v8, main_call26_v9, main_call26_v10, main_call26_v11, main_v170, main_cst_10, main_v171, main_v172, main_v173, main_v174, main_v175, main_call27_v0, main_v176, main_v177, main_v178, main_v179, main_v180, main_v181, main_v182, main_v183, main_call28_cst, main_call28_v0, main_v184]

/-- 31 operations of path c3 in window 3. -/
def c3w3 : List (HloOp τ sig (Elt F)) :=
  [ StableHlo.unary main_arg2 main_v185 ((extractStridedSlice S1x1024x256 ![3, 0, 0] · slices_S4x1024x256_S1x1024x256_3_0_0) : (⟨S4x1024x256, .f32⟩ : BufTy).Contents (Elt F) → (⟨S1x1024x256, .f32⟩ : BufTy).Contents (Elt F)),
    StableHlo.reshape main_v185 main_v186 rfl shapeCasts_S1x1024x256_S1024x256,
    StableHlo.nullary main_call29_cst ((constant S_ .f32 0x00000000#32) : (⟨S_, .f32⟩ : BufTy).Contents (Elt F)),
    StableHlo.unary main_call29_cst main_call29_v0 ((broadcastInDim S1024x256 ![] bcast_S_S1024x256) : (⟨S_, .f32⟩ : BufTy).Contents (Elt F) → (⟨S1024x256, .f32⟩ : BufTy).Contents (Elt F)),
    StableHlo.binary main_v186 main_call29_v0 main_call29_v1 (maximumf : (⟨S1024x256, .f32⟩ : BufTy).Contents (Elt F) → (⟨S1024x256, .f32⟩ : BufTy).Contents (Elt F) → (⟨S1024x256, .f32⟩ : BufTy).Contents (Elt F)),
    StableHlo.unary main_call29_cst main_call29_v2 ((broadcastInDim S1024x256 ![] bcast_S_S1024x256) : (⟨S_, .f32⟩ : BufTy).Contents (Elt F) → (⟨S1024x256, .f32⟩ : BufTy).Contents (Elt F)),
    StableHlo.binary main_v186 main_call29_v2 main_call29_v3 (subf : (⟨S1024x256, .f32⟩ : BufTy).Contents (Elt F) → (⟨S1024x256, .f32⟩ : BufTy).Contents (Elt F) → (⟨S1024x256, .f32⟩ : BufTy).Contents (Elt F)),
    StableHlo.binary main_call29_v3 main_call29_v3 main_call29_v4 ((cmpf .une) : (⟨S1024x256, .f32⟩ : BufTy).Contents (Elt F) → (⟨S1024x256, .f32⟩ : BufTy).Contents (Elt F) → (⟨S1024x256, .i1⟩ : BufTy).Contents (Elt F)),
    StableHlo.unary main_call29_cst main_call29_v5 ((broadcastInDim S1024x256 ![] bcast_S_S1024x256) : (⟨S_, .f32⟩ : BufTy).Contents (Elt F) → (⟨S1024x256, .f32⟩ : BufTy).Contents (Elt F)),
    StableHlo.binary main_v186 main_call29_v5 main_call29_v6 (addf : (⟨S1024x256, .f32⟩ : BufTy).Contents (Elt F) → (⟨S1024x256, .f32⟩ : BufTy).Contents (Elt F) → (⟨S1024x256, .f32⟩ : BufTy).Contents (Elt F)),
    StableHlo.unary main_call29_v3 main_call29_v7 (Host.absf : (⟨S1024x256, .f32⟩ : BufTy).Contents (Elt F) → (⟨S1024x256, .f32⟩ : BufTy).Contents (Elt F)),
    StableHlo.unary main_call29_v7 main_call29_v8 (Host.negf : (⟨S1024x256, .f32⟩ : BufTy).Contents (Elt F) → (⟨S1024x256, .f32⟩ : BufTy).Contents (Elt F)),
    StableHlo.unary main_call29_v8 main_call29_v9 (Host.exp : (⟨S1024x256, .f32⟩ : BufTy).Contents (Elt F) → (⟨S1024x256, .f32⟩ : BufTy).Contents (Elt F)),
    StableHlo.unary main_call29_v9 main_call29_v10 (Host.log1p : (⟨S1024x256, .f32⟩ : BufTy).Contents (Elt F) → (⟨S1024x256, .f32⟩ : BufTy).Contents (Elt F)),
    StableHlo.binary main_call29_v1 main_call29_v10 main_call29_v11 (addf : (⟨S1024x256, .f32⟩ : BufTy).Contents (Elt F) → (⟨S1024x256, .f32⟩ : BufTy).Contents (Elt F) → (⟨S1024x256, .f32⟩ : BufTy).Contents (Elt F)),
    StableHlo.ternary main_call29_v4 main_call29_v6 main_call29_v11 main_v187 (select : (⟨S1024x256, .i1⟩ : BufTy).Contents (Elt F) → (⟨S1024x256, .f32⟩ : BufTy).Contents (Elt F) → (⟨S1024x256, .f32⟩ : BufTy).Contents (Elt F) → (⟨S1024x256, .f32⟩ : BufTy).Contents (Elt F)),
    StableHlo.nullary main_cst_11 (constant S_ .f32 0x00000000#32),
    StableHlo.unary main_cst_11 main_v188 (broadcastInDim S256 ![] bcast_S_S256 : (⟨S_, .f32⟩ : BufTy).Contents (Elt F) → (⟨S256, .f32⟩ : BufTy).Contents (Elt F)),
    StableHlo.binary main_cst_0 main_v188 main_v189 (cmpf .une : (⟨S256, .f32⟩ : BufTy).Contents (Elt F) → (⟨S256, .f32⟩ : BufTy).Contents (Elt F) → (⟨S256, .i1⟩ : BufTy).Contents (Elt F)),
    StableHlo.unary main_cst_0 main_v190 (broadcastInDim S1x256 ![1] bcast_S256_S1x256_1 : (⟨S256, .f32⟩ : BufTy).Contents (Elt F) → (⟨S1x256, .f32⟩ : BufTy).Contents (Elt F)),
    StableHlo.unary main_v190 main_v191 (broadcastInDim S1024x256 ![0, 1] bcast_S1x256_S1024x256_0_1 : (⟨S1x256, .f32⟩ : BufTy).Contents (Elt F) → (⟨S1024x256, .f32⟩ : BufTy).Contents (Elt F)),
    StableHlo.binary main_v191 main_v187 main_v192 (mulf : (⟨S1024x256, .f32⟩ : BufTy).Contents (Elt F) → (⟨S1024x256, .f32⟩ : BufTy).Contents (Elt F) → (⟨S1024x256, .f32⟩ : BufTy).Contents (Elt F)),
    StableHlo.unary main_v189 main_call30_v0 ((broadcastInDim S1024x256 ![1] bcast_S256_S1024x256_1) : (⟨S256, .i1⟩ : BufTy).Contents (Elt F) → (⟨S1024x256, .i1⟩ : BufTy).Contents (Elt F)),
    StableHlo.ternary main_call30_v0 main_v192 main_v186 main_v193 (select : (⟨S1024x256, .i1⟩ : BufTy).Contents (Elt F) → (⟨S1024x256, .f32⟩ : BufTy).Contents (Elt F) → (⟨S1024x256, .f32⟩ : BufTy).Contents (Elt F) → (⟨S1024x256, .f32⟩ : BufTy).Contents (Elt F)),
    StableHlo.unary main_v193 main_v194 ((transpose S256x1024 [1, 0] · transposes_S1024x256_S256x1024_1_0) : (⟨S1024x256, .f32⟩ : BufTy).Contents (Elt F) → (⟨S256x1024, .f32⟩ : BufTy).Contents (Elt F)),
    StableHlo.binary main_arg0 main_v194 main_v195 ((fun l r => Host.dotGeneral dot_S8192x256_S256x1024_S8192x1024_1_0_0_1_n_n none l r) : (⟨S8192x256, .f32⟩ : BufTy).Contents (Elt F) → (⟨S256x1024, .f32⟩ : BufTy).Contents (Elt F) → (⟨S8192x1024, .f32⟩ : BufTy).Contents (Elt F)),
    StableHlo.unary main_arg3 main_v196 ((extractStridedSlice S1x1024 ![3, 0] · slices_S4x1024_S1x1024_3_0) : (⟨S4x1024, .f32⟩ : BufTy).Contents (Elt F) → (⟨S1x1024, .f32⟩ : BufTy).Contents (Elt F)),
    StableHlo.reshape main_v196 main_v197 rfl shapeCasts_S1x1024_S1024,
    StableHlo.unary main_v197 main_v198 (broadcastInDim S1x1024 ![1] bcast_S1024_S1x1024_1 : (⟨S1024, .f32⟩ : BufTy).Contents (Elt F) → (⟨S1x1024, .f32⟩ : BufTy).Contents (Elt F)),
    StableHlo.unary main_v198 main_v199 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v195 main_v199 main_v200 (addf : (⟨S8192x1024, .f32⟩ : BufTy).Contents (Elt F) → (⟨S8192x1024, .f32⟩ : BufTy).Contents (Elt F) → (⟨S8192x1024, .f32⟩ : BufTy).Contents (Elt F)) ]
/-- The buffers these operations write. -/
abbrev c3w3_W : List (Ref sig .tc) := [main_v185, main_v186, main_call29_cst, main_call29_v0, main_call29_v1, main_call29_v2, main_call29_v3, main_call29_v4, main_call29_v5, main_call29_v6, main_call29_v7, main_call29_v8, main_call29_v9, main_call29_v10, main_call29_v11, main_v187, main_cst_11, main_v188, main_v189, main_v190, main_v191, main_v192, main_call30_v0, main_v193, main_v194, main_v195, main_v196, main_v197, main_v198, main_v199, main_v200]

/-- 32 operations of path u3 in window 3. -/
def u3w3 : List (HloOp τ sig (Elt F)) :=
  [ StableHlo.unary main_arg4 main_v201 ((extractStridedSlice S1x1024x256 ![3, 0, 0] · slices_S4x1024x256_S1x1024x256_3_0_0) : (⟨S4x1024x256, .f32⟩ : BufTy).Contents (Elt F) → (⟨S1x1024x256, .f32⟩ : BufTy).Contents (Elt F)),
    StableHlo.reshape main_v201 main_v202 rfl shapeCasts_S1x1024x256_S1024x256,
    StableHlo.nullary main_call31_cst ((constant S_ .f32 0x00000000#32) : (⟨S_, .f32⟩ : BufTy).Contents (Elt F)),
    StableHlo.unary main_call31_cst main_call31_v0 ((broadcastInDim S1024x256 ![] bcast_S_S1024x256) : (⟨S_, .f32⟩ : BufTy).Contents (Elt F) → (⟨S1024x256, .f32⟩ : BufTy).Contents (Elt F)),
    StableHlo.binary main_v202 main_call31_v0 main_call31_v1 (maximumf : (⟨S1024x256, .f32⟩ : BufTy).Contents (Elt F) → (⟨S1024x256, .f32⟩ : BufTy).Contents (Elt F) → (⟨S1024x256, .f32⟩ : BufTy).Contents (Elt F)),
    StableHlo.unary main_call31_cst main_call31_v2 ((broadcastInDim S1024x256 ![] bcast_S_S1024x256) : (⟨S_, .f32⟩ : BufTy).Contents (Elt F) → (⟨S1024x256, .f32⟩ : BufTy).Contents (Elt F)),
    StableHlo.binary main_v202 main_call31_v2 main_call31_v3 (subf : (⟨S1024x256, .f32⟩ : BufTy).Contents (Elt F) → (⟨S1024x256, .f32⟩ : BufTy).Contents (Elt F) → (⟨S1024x256, .f32⟩ : BufTy).Contents (Elt F)),
    StableHlo.binary main_call31_v3 main_call31_v3 main_call31_v4 ((cmpf .une) : (⟨S1024x256, .f32⟩ : BufTy).Contents (Elt F) → (⟨S1024x256, .f32⟩ : BufTy).Contents (Elt F) → (⟨S1024x256, .i1⟩ : BufTy).Contents (Elt F)),
    StableHlo.unary main_call31_cst main_call31_v5 ((broadcastInDim S1024x256 ![] bcast_S_S1024x256) : (⟨S_, .f32⟩ : BufTy).Contents (Elt F) → (⟨S1024x256, .f32⟩ : BufTy).Contents (Elt F)),
    StableHlo.binary main_v202 main_call31_v5 main_call31_v6 (addf : (⟨S1024x256, .f32⟩ : BufTy).Contents (Elt F) → (⟨S1024x256, .f32⟩ : BufTy).Contents (Elt F) → (⟨S1024x256, .f32⟩ : BufTy).Contents (Elt F)),
    StableHlo.unary main_call31_v3 main_call31_v7 (Host.absf : (⟨S1024x256, .f32⟩ : BufTy).Contents (Elt F) → (⟨S1024x256, .f32⟩ : BufTy).Contents (Elt F)),
    StableHlo.unary main_call31_v7 main_call31_v8 (Host.negf : (⟨S1024x256, .f32⟩ : BufTy).Contents (Elt F) → (⟨S1024x256, .f32⟩ : BufTy).Contents (Elt F)),
    StableHlo.unary main_call31_v8 main_call31_v9 (Host.exp : (⟨S1024x256, .f32⟩ : BufTy).Contents (Elt F) → (⟨S1024x256, .f32⟩ : BufTy).Contents (Elt F)),
    StableHlo.unary main_call31_v9 main_call31_v10 (Host.log1p : (⟨S1024x256, .f32⟩ : BufTy).Contents (Elt F) → (⟨S1024x256, .f32⟩ : BufTy).Contents (Elt F)),
    StableHlo.binary main_call31_v1 main_call31_v10 main_call31_v11 (addf : (⟨S1024x256, .f32⟩ : BufTy).Contents (Elt F) → (⟨S1024x256, .f32⟩ : BufTy).Contents (Elt F) → (⟨S1024x256, .f32⟩ : BufTy).Contents (Elt F)),
    StableHlo.ternary main_call31_v4 main_call31_v6 main_call31_v11 main_v203 (select : (⟨S1024x256, .i1⟩ : BufTy).Contents (Elt F) → (⟨S1024x256, .f32⟩ : BufTy).Contents (Elt F) → (⟨S1024x256, .f32⟩ : BufTy).Contents (Elt F) → (⟨S1024x256, .f32⟩ : BufTy).Contents (Elt F)),
    StableHlo.nullary main_cst_12 (constant S_ .f32 0x00000000#32),
    StableHlo.unary main_cst_12 main_v204 (broadcastInDim S256 ![] bcast_S_S256 : (⟨S_, .f32⟩ : BufTy).Contents (Elt F) → (⟨S256, .f32⟩ : BufTy).Contents (Elt F)),
    StableHlo.binary main_cst main_v204 main_v205 (cmpf .une : (⟨S256, .f32⟩ : BufTy).Contents (Elt F) → (⟨S256, .f32⟩ : BufTy).Contents (Elt F) → (⟨S256, .i1⟩ : BufTy).Contents (Elt F)),
    StableHlo.unary main_cst main_v206 (broadcastInDim S1x256 ![1] bcast_S256_S1x256_1 : (⟨S256, .f32⟩ : BufTy).Contents (Elt F) → (⟨S1x256, .f32⟩ : BufTy).Contents (Elt F)),
    StableHlo.unary main_v206 main_v207 (broadcastInDim S1024x256 ![0, 1] bcast_S1x256_S1024x256_0_1 : (⟨S1x256, .f32⟩ : BufTy).Contents (Elt F) → (⟨S1024x256, .f32⟩ : BufTy).Contents (Elt F)),
    StableHlo.binary main_v207 main_v203 main_v208 (mulf : (⟨S1024x256, .f32⟩ : BufTy).Contents (Elt F) → (⟨S1024x256, .f32⟩ : BufTy).Contents (Elt F) → (⟨S1024x256, .f32⟩ : BufTy).Contents (Elt F)),
    StableHlo.unary main_v205 main_call32_v0 ((broadcastInDim S1024x256 ![1] bcast_S256_S1024x256_1) : (⟨S256, .i1⟩ : BufTy).Contents (Elt F) → (⟨S1024x256, .i1⟩ : BufTy).Contents (Elt F)),
    StableHlo.ternary main_call32_v0 main_v208 main_v202 main_v209 (select : (⟨S1024x256, .i1⟩ : BufTy).Contents (Elt F) → (⟨S1024x256, .f32⟩ : BufTy).Contents (Elt F) → (⟨S1024x256, .f32⟩ : BufTy).Contents (Elt F) → (⟨S1024x256, .f32⟩ : BufTy).Contents (Elt F)),
    StableHlo.unary main_v209 main_v210 ((transpose S256x1024 [1, 0] · transposes_S1024x256_S256x1024_1_0) : (⟨S1024x256, .f32⟩ : BufTy).Contents (Elt F) → (⟨S256x1024, .f32⟩ : BufTy).Contents (Elt F)),
    StableHlo.binary main_arg1 main_v210 main_v211 ((fun l r => Host.dotGeneral dot_S8192x256_S256x1024_S8192x1024_1_0_0_1_n_n none l r) : (⟨S8192x256, .f32⟩ : BufTy).Contents (Elt F) → (⟨S256x1024, .f32⟩ : BufTy).Contents (Elt F) → (⟨S8192x1024, .f32⟩ : BufTy).Contents (Elt F)),
    StableHlo.binary main_v200 main_v211 main_v212 (addf : (⟨S8192x1024, .f32⟩ : BufTy).Contents (Elt F) → (⟨S8192x1024, .f32⟩ : BufTy).Contents (Elt F) → (⟨S8192x1024, .f32⟩ : BufTy).Contents (Elt F)),
    StableHlo.unary main_arg5 main_v213 ((extractStridedSlice S1x1024 ![3, 0] · slices_S4x1024_S1x1024_3_0) : (⟨S4x1024, .f32⟩ : BufTy).Contents (Elt F) → (⟨S1x1024, .f32⟩ : BufTy).Contents (Elt F)),
    StableHlo.reshape main_v213 main_v214 rfl shapeCasts_S1x1024_S1024,
    StableHlo.unary main_v214 main_v215 (broadcastInDim S1x1024 ![1] bcast_S1024_S1x1024_1 : (⟨S1024, .f32⟩ : BufTy).Contents (Elt F) → (⟨S1x1024, .f32⟩ : BufTy).Contents (Elt F)),
    StableHlo.unary main_v215 main_v216 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v212 main_v216 main_v217 (addf : (⟨S8192x1024, .f32⟩ : BufTy).Contents (Elt F) → (⟨S8192x1024, .f32⟩ : BufTy).Contents (Elt F) → (⟨S8192x1024, .f32⟩ : BufTy).Contents (Elt F)) ]
/-- The buffers these operations write. -/
abbrev u3w3_W : List (Ref sig .tc) := [main_v201, main_v202, main_call31_cst, main_call31_v0, main_call31_v1, main_call31_v2, main_call31_v3, main_call31_v4, main_call31_v5, main_call31_v6, main_call31_v7, main_call31_v8, main_call31_v9, main_call31_v10, main_call31_v11, main_v203, main_cst_12, main_v204, main_v205, main_v206, main_v207, main_v208, main_call32_v0, main_v209, main_v210, main_v211, main_v212, main_v213, main_v214, main_v215, main_v216, main_v217]

/-- 19 operations of path z3 in window 3. -/
def z3w3 : List (HloOp τ sig (Elt F)) :=
  [ StableHlo.unary main_arg8 main_v218 ((extractStridedSlice S1x1024x1024 ![2, 0, 0] · slices_S3x1024x1024_S1x1024x1024_2_0_0) : (⟨S3x1024x1024, .f32⟩ : BufTy).Contents (Elt F) → (⟨S1x1024x1024, .f32⟩ : BufTy).Contents (Elt F)),
    StableHlo.reshape main_v218 main_v219 rfl shapeCasts_S1x1024x1024_S1024x1024,
    StableHlo.nullary main_call33_cst ((constant S_ .f32 0x00000000#32) : (⟨S_, .f32⟩ : BufTy).Contents (Elt F)),
    StableHlo.unary main_call33_cst main_call33_v0 ((broadcastInDim S1024x1024 ![] bcast_S_S1024x1024) : (⟨S_, .f32⟩ : BufTy).Contents (Elt F) → (⟨S1024x1024, .f32⟩ : BufTy).Contents (Elt F)),
    StableHlo.binary main_v219 main_call33_v0 main_call33_v1 (maximumf : (⟨S1024x1024, .f32⟩ : BufTy).Contents (Elt F) → (⟨S1024x1024, .f32⟩ : BufTy).Contents (Elt F) → (⟨S1024x1024, .f32⟩ : BufTy).Contents (Elt F)),
    StableHlo.unary main_call33_cst main_call33_v2 ((broadcastInDim S1024x1024 ![] bcast_S_S1024x1024) : (⟨S_, .f32⟩ : BufTy).Contents (Elt F) → (⟨S1024x1024, .f32⟩ : BufTy).Contents (Elt F)),
    StableHlo.binary main_v219 main_call33_v2 main_call33_v3 (subf : (⟨S1024x1024, .f32⟩ : BufTy).Contents (Elt F) → (⟨S1024x1024, .f32⟩ : BufTy).Contents (Elt F) → (⟨S1024x1024, .f32⟩ : BufTy).Contents (Elt F)),
    StableHlo.binary main_call33_v3 main_call33_v3 main_call33_v4 ((cmpf .une) : (⟨S1024x1024, .f32⟩ : BufTy).Contents (Elt F) → (⟨S1024x1024, .f32⟩ : BufTy).Contents (Elt F) → (⟨S1024x1024, .i1⟩ : BufTy).Contents (Elt F)),
    StableHlo.unary main_call33_cst main_call33_v5 ((broadcastInDim S1024x1024 ![] bcast_S_S1024x1024) : (⟨S_, .f32⟩ : BufTy).Contents (Elt F) → (⟨S1024x1024, .f32⟩ : BufTy).Contents (Elt F)),
    StableHlo.binary main_v219 main_call33_v5 main_call33_v6 (addf : (⟨S1024x1024, .f32⟩ : BufTy).Contents (Elt F) → (⟨S1024x1024, .f32⟩ : BufTy).Contents (Elt F) → (⟨S1024x1024, .f32⟩ : BufTy).Contents (Elt F)),
    StableHlo.unary main_call33_v3 main_call33_v7 (Host.absf : (⟨S1024x1024, .f32⟩ : BufTy).Contents (Elt F) → (⟨S1024x1024, .f32⟩ : BufTy).Contents (Elt F)),
    StableHlo.unary main_call33_v7 main_call33_v8 (Host.negf : (⟨S1024x1024, .f32⟩ : BufTy).Contents (Elt F) → (⟨S1024x1024, .f32⟩ : BufTy).Contents (Elt F)),
    StableHlo.unary main_call33_v8 main_call33_v9 (Host.exp : (⟨S1024x1024, .f32⟩ : BufTy).Contents (Elt F) → (⟨S1024x1024, .f32⟩ : BufTy).Contents (Elt F)),
    StableHlo.unary main_call33_v9 main_call33_v10 (Host.log1p : (⟨S1024x1024, .f32⟩ : BufTy).Contents (Elt F) → (⟨S1024x1024, .f32⟩ : BufTy).Contents (Elt F)),
    StableHlo.binary main_call33_v1 main_call33_v10 main_call33_v11 (addf : (⟨S1024x1024, .f32⟩ : BufTy).Contents (Elt F) → (⟨S1024x1024, .f32⟩ : BufTy).Contents (Elt F) → (⟨S1024x1024, .f32⟩ : BufTy).Contents (Elt F)),
    StableHlo.ternary main_call33_v4 main_call33_v6 main_call33_v11 main_v220 (select : (⟨S1024x1024, .i1⟩ : BufTy).Contents (Elt F) → (⟨S1024x1024, .f32⟩ : BufTy).Contents (Elt F) → (⟨S1024x1024, .f32⟩ : BufTy).Contents (Elt F) → (⟨S1024x1024, .f32⟩ : BufTy).Contents (Elt F)),
    StableHlo.unary main_v220 main_v221 ((transpose S1024x1024 [1, 0] · transposes_S1024x1024_S1024x1024_1_0) : (⟨S1024x1024, .f32⟩ : BufTy).Contents (Elt F) → (⟨S1024x1024, .f32⟩ : BufTy).Contents (Elt F)),
    StableHlo.binary main_v167 main_v221 main_v222 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    StableHlo.binary main_v217 main_v222 main_v223 (addf : (⟨S8192x1024, .f32⟩ : BufTy).Contents (Elt F) → (⟨S8192x1024, .f32⟩ : BufTy).Contents (Elt F) → (⟨S8192x1024, .f32⟩ : BufTy).Contents (Elt F)) ]
/-- The buffers these operations write. -/
abbrev z3w3_W : List (Ref sig .tc) := [main_v218, main_v219, main_call33_cst, main_call33_v0, main_call33_v1, main_call33_v2, main_call33_v3, main_call33_v4, main_call33_v5, main_call33_v6, main_call33_v7, main_call33_v8, main_call33_v9, main_call33_v10, main_call33_v11, main_v220, main_v221, main_v222, main_v223]

/-- 4 operations of path f3 in window 3. -/
def f3w3 : List (HloOp τ sig (Elt F)) :=
  [ StableHlo.binary main_v223 main_v184 main_v224 (addf : (⟨S8192x1024, .f32⟩ : BufTy).Contents (Elt F) → (⟨S8192x1024, .f32⟩ : BufTy).Contents (Elt F) → (⟨S8192x1024, .f32⟩ : BufTy).Contents (Elt F)),
    StableHlo.nullary main_call34_cst ((constant S_ .f32 0x00000000#32) : (⟨S_, .f32⟩ : BufTy).Contents (Elt F)),
    StableHlo.unary main_call34_cst main_call34_v0 ((broadcastInDim S8192x1024 ![] bcast_S_S8192x1024) : (⟨S_, .f32⟩ : BufTy).Contents (Elt F) → (⟨S8192x1024, .f32⟩ : BufTy).Contents (Elt F)),
    StableHlo.binary main_v224 main_call34_v0 main_v225 (maximumf : (⟨S8192x1024, .f32⟩ : BufTy).Contents (Elt F) → (⟨S8192x1024, .f32⟩ : BufTy).Contents (Elt F) → (⟨S8192x1024, .f32⟩ : BufTy).Contents (Elt F)) ]
/-- The buffers these operations write. -/
abbrev f3w3_W : List (Ref sig .tc) := [main_v224, main_call34_cst, main_call34_v0, main_v225]

/-- Printed window 0. -/
def win0 : List (HloOp τ sig (Elt F)) := prew0 ++ g0w0 ++ c0w0 ++ u0w0 ++ f0w0 ++ g1w0
/-- Printed window 1. -/
def win1 : List (HloOp τ sig (Elt F)) := g1w1 ++ c1w1 ++ u1w1 ++ z1w1 ++ f1w1 ++ g2w1
/-- Printed window 2. -/
def win2 : List (HloOp τ sig (Elt F)) := g2w2 ++ c2w2 ++ u2w2 ++ z2w2 ++ f2w2 ++ g3w2
/-- Printed window 3. -/
def win3 : List (HloOp τ sig (Elt F)) := g3w3 ++ c3w3 ++ u3w3 ++ z3w3 ++ f3w3
/-- Printed window 4. -/
def win4 : List (HloOp τ sig (Elt F)) := []

/-- Path pre. -/
def path_pre : List (HloOp τ sig (Elt F)) := prew0
abbrev path_pre_W : List (Ref sig .tc) := prew0_W
/-- Path g0. -/
def path_g0 : List (HloOp τ sig (Elt F)) := g0w0
abbrev path_g0_W : List (Ref sig .tc) := g0w0_W
/-- Path c0. -/
def path_c0 : List (HloOp τ sig (Elt F)) := c0w0
abbrev path_c0_W : List (Ref sig .tc) := c0w0_W
/-- Path u0. -/
def path_u0 : List (HloOp τ sig (Elt F)) := u0w0
abbrev path_u0_W : List (Ref sig .tc) := u0w0_W
/-- Path f0. -/
def path_f0 : List (HloOp τ sig (Elt F)) := f0w0
abbrev path_f0_W : List (Ref sig .tc) := f0w0_W
/-- Path g1. -/
def path_g1 : List (HloOp τ sig (Elt F)) := g1w0 ++ g1w1
abbrev path_g1_W : List (Ref sig .tc) := g1w0_W ++ g1w1_W
/-- Path c1. -/
def path_c1 : List (HloOp τ sig (Elt F)) := c1w1
abbrev path_c1_W : List (Ref sig .tc) := c1w1_W
/-- Path u1. -/
def path_u1 : List (HloOp τ sig (Elt F)) := u1w1
abbrev path_u1_W : List (Ref sig .tc) := u1w1_W
/-- Path z1. -/
def path_z1 : List (HloOp τ sig (Elt F)) := z1w1
abbrev path_z1_W : List (Ref sig .tc) := z1w1_W
/-- Path f1. -/
def path_f1 : List (HloOp τ sig (Elt F)) := f1w1
abbrev path_f1_W : List (Ref sig .tc) := f1w1_W
/-- Path g2. -/
def path_g2 : List (HloOp τ sig (Elt F)) := g2w1 ++ g2w2
abbrev path_g2_W : List (Ref sig .tc) := g2w1_W ++ g2w2_W
/-- Path c2. -/
def path_c2 : List (HloOp τ sig (Elt F)) := c2w2
abbrev path_c2_W : List (Ref sig .tc) := c2w2_W
/-- Path u2. -/
def path_u2 : List (HloOp τ sig (Elt F)) := u2w2
abbrev path_u2_W : List (Ref sig .tc) := u2w2_W
/-- Path z2. -/
def path_z2 : List (HloOp τ sig (Elt F)) := z2w2
abbrev path_z2_W : List (Ref sig .tc) := z2w2_W
/-- Path f2. -/
def path_f2 : List (HloOp τ sig (Elt F)) := f2w2
abbrev path_f2_W : List (Ref sig .tc) := f2w2_W
/-- Path g3. -/
def path_g3 : List (HloOp τ sig (Elt F)) := g3w2 ++ g3w3
abbrev path_g3_W : List (Ref sig .tc) := g3w2_W ++ g3w3_W
/-- Path c3. -/
def path_c3 : List (HloOp τ sig (Elt F)) := c3w3
abbrev path_c3_W : List (Ref sig .tc) := c3w3_W
/-- Path u3. -/
def path_u3 : List (HloOp τ sig (Elt F)) := u3w3
abbrev path_u3_W : List (Ref sig .tc) := u3w3_W
/-- Path z3. -/
def path_z3 : List (HloOp τ sig (Elt F)) := z3w3
abbrev path_z3_W : List (Ref sig .tc) := z3w3_W
/-- Path f3. -/
def path_f3 : List (HloOp τ sig (Elt F)) := f3w3
abbrev path_f3_W : List (Ref sig .tc) := f3w3_W

end Cert.ReferenceIdeal.RefValue

end
-- ==== Proof.LibAfterAppend.lean ====
/-
  A straight line of host operations run in two stretches: the fold of the operations' results over a valuation
  (`StableHlo.after`) of a concatenation is the fold of the second stretch over the fold of the first. It lets a
  long line be read stretch by stretch, each against an arbitrary valuation.
-/
import Idealize.ShloMosaic.Lib.StableHlo.Run

namespace Idealize.ShloMosaic.StableHlo

variable {τ : Topo} {sig : RefSig} {Val : EltTy → Type}

/-- The results after `a ++ b` are the results after `b` of the results after `a`. -/
theorem after_append (a b : List (HloOp τ sig Val)) (V : Valuation τ sig Val) :
    after (a ++ b) V = after b (after a V) := by
  induction a generalizing V with
  | nil => rfl
  | cons op a ih => exact ih (op.result V)

end Idealize.ShloMosaic.StableHlo
-- ==== Proof.RefRun.lean ====
import proofs.«150220_j44581760532841_2_alg».proof.Proof.RefOps
import proofs.«150220_j44581760532841_2_alg».proof.Proof.LibAfterAppend
/-
  The reference program's @main is the straight line of its host operations: each printed window is the line of its
  lists, the whole the windows one after the other; every operation touches TensorCore references only, so every weakly
  fair execution ends with every buffer at the fold of the operations' results over the launch contents. Each list
  writes only the buffers named beside it, so a buffer outside a path's names keeps its contents through the path. The
  line regrouped by paths is the same list.
-/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The lists' side conditions

The same two facts hold of every list of the table, by the same argument: each is stated once, as a command over the
list's name, and instantiated list by list. -/

/-- Every operation of a literal list touches TensorCore references only: one builder fact per operation. -/
macro "bufs_sub_list" : tactic =>
  `(tactic| simp only [List.Forall, nullary_bufs_sub, unary_bufs_sub, binary_bufs_sub, ternary_bufs_sub, reshape_bufs_sub, and_self])

/-- Every operation of a literal list writes a buffer of the list named beside it: each builder writes its result
    buffer alone, and that buffer is found in the list. -/
macro "writes_list" : tactic =>
  `(tactic| (simp only [List.Forall, nullary_writes, unary_writes, binary_writes, ternary_writes, reshape_writes,
      Finset.singleton_subset_iff, List.mem_toFinset]
             repeat' refine And.intro ?_ ?_
             all_goals exact List.mem_map_of_mem (by decide)))

set_option hygiene false in
open Lean in
/-- `list_facts X`: the list `X` touches TensorCore references only (`X_sub`) and writes only the buffers `X_W` (`X_writes`). -/
macro "list_facts " p:ident : command => do
  let n := p.getId.toString
  let sub := mkIdent (Name.mkSimple (n ++ "_sub"))
  let wr := mkIdent (Name.mkSimple (n ++ "_writes"))
  let w := mkIdent (Name.mkSimple (n ++ "_W"))
  `(theorem $sub : ($p : List (HloOp τ sig (Elt F))).Forall fun op => op.bufs ⊆ tcRefs τ sig := by
      unfold $p; bufs_sub_list
    theorem $wr : ($p : List (HloOp τ sig (Elt F))).Forall fun op =>
        op.writes ⊆ (List.map (Proc.devRef (τ := τ) .tc) $w).toFinset := by
      unfold $p; writes_list)

set_option hygiene false in
open Lean in
/-- `path_keep p of X`: a buffer that path `p`, the one list `X`, does not write keeps its contents through it (`p_keep`). -/
macro "path_keep " p:ident " of " a:ident : command => do
  let n := p.getId.toString
  let keep := mkIdent (Name.mkSimple (n ++ "_keep"))
  let path := mkIdent (Name.mkSimple ("path_" ++ n))
  let pw := mkIdent (Name.mkSimple ("path_" ++ n ++ "_W"))
  let awr := mkIdent (Name.mkSimple (a.getId.toString ++ "_writes"))
  `(theorem $keep (W : Valuation τ sig (Elt F)) (r : Ref sig .tc) (h : r ∉ $pw) :
        after $path W (no_index (Proc.devRef .tc r)) = W (Proc.devRef .tc r) :=
      after_of_writes_sub $a W $awr h)

set_option hygiene false in
open Lean in
/-- `path_keep2 p of X Y`: the same for a path of two lists, `X` then `Y`: the buffer is kept through each. -/
macro "path_keep2 " p:ident " of " a:ident b:ident : command => do
  let n := p.getId.toString
  let keep := mkIdent (Name.mkSimple (n ++ "_keep"))
  let path := mkIdent (Name.mkSimple ("path_" ++ n))
  let pw := mkIdent (Name.mkSimple ("path_" ++ n ++ "_W"))
  let awr := mkIdent (Name.mkSimple (a.getId.toString ++ "_writes"))
  let bwr := mkIdent (Name.mkSimple (b.getId.toString ++ "_writes"))
  `(theorem $keep (W : Valuation τ sig (Elt F)) (r : Ref sig .tc) (h : r ∉ $pw) :
        after $path W (no_index (Proc.devRef .tc r)) = W (Proc.devRef .tc r) := by
      show after ($a ++ $b) W (Proc.devRef .tc r) = _
      rw [after_append, after_of_writes_sub $b _ $bwr (fun h' => h (List.mem_append_right _ h')),
        after_of_writes_sub $a _ $awr (fun h' => h (List.mem_append_left _ h'))])

list_facts prew0
list_facts g0w0
list_facts c0w0
list_facts u0w0
list_facts f0w0
list_facts g1w0
list_facts g1w1
list_facts c1w1
list_facts u1w1
list_facts z1w1
list_facts f1w1
list_facts g2w1
list_facts g2w2
list_facts c2w2
list_facts u2w2
list_facts z2w2
list_facts f2w2
list_facts g3w2
list_facts g3w3
list_facts c3w3
list_facts u3w3
list_facts z3w3
list_facts f3w3

/-! ## A buffer a path does not write keeps its contents through it -/

path_keep pre of prew0
path_keep g0 of g0w0
path_keep c0 of c0w0
path_keep u0 of u0w0
path_keep f0 of f0w0
path_keep2 g1 of g1w0 g1w1
path_keep c1 of c1w1
path_keep u1 of u1w1
path_keep z1 of z1w1
path_keep f1 of f1w1
path_keep2 g2 of g2w1 g2w2
path_keep c2 of c2w2
path_keep u2 of u2w2
path_keep z2 of z2w2
path_keep f2 of f2w2
path_keep2 g3 of g3w2 g3w3
path_keep c3 of c3w3
path_keep u3 of u3w3
path_keep z3 of z3w3
path_keep f3 of f3w3

/-! ## @main is the line -/

/-- @main's operations, window after window. -/
def ops : List (HloOp τ sig (Elt F)) := win0 ++ (win1 ++ (win2 ++ (win3 ++ win4)))

-- a window is sixty statements, more than a hundred operations once the calls are unfolded: the two sides are one
-- chain of steps, compared step by step
set_option maxRecDepth 8192 in
set_option maxHeartbeats 4000000 in
theorem main_part0_eq (c : Dev nD) : main_part0 (F := F) c = seq win0 := rfl
set_option maxRecDepth 8192 in
set_option maxHeartbeats 4000000 in
theorem main_part1_eq (c : Dev nD) : main_part1 (F := F) c = seq win1 := rfl
set_option maxRecDepth 8192 in
set_option maxHeartbeats 4000000 in
theorem main_part2_eq (c : Dev nD) : main_part2 (F := F) c = seq win2 := rfl
set_option maxRecDepth 8192 in
set_option maxHeartbeats 4000000 in
theorem main_part3_eq (c : Dev nD) : main_part3 (F := F) c = seq win3 := rfl
theorem main_part4_eq (c : Dev nD) : main_part4 (F := F) c = seq win4 := rfl

theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, win0, win1, win2, win3, win4, List.forall_append]
  exact ⟨⟨⟨⟨⟨⟨prew0_sub, g0w0_sub⟩, c0w0_sub⟩, u0w0_sub⟩, f0w0_sub⟩, g1w0_sub⟩,
    ⟨⟨⟨⟨⟨g1w1_sub, c1w1_sub⟩, u1w1_sub⟩, z1w1_sub⟩, f1w1_sub⟩, g2w1_sub⟩,
    ⟨⟨⟨⟨⟨g2w2_sub, c2w2_sub⟩, u2w2_sub⟩, z2w2_sub⟩, f2w2_sub⟩, g3w2_sub⟩,
    ⟨⟨⟨⟨g3w3_sub, c3w3_sub⟩, u3w3_sub⟩, z3w3_sub⟩, f3w3_sub⟩, trivial⟩

/-- On every device, from any memory with zero counters: every weakly fair execution of @main terminates, and every
    final state has each TensorCore buffer at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The line regrouped by paths: the two sign tables, then layer by layer the gate, the xc side, the xf side, from the
    second layer on the previous layer's side, and the close. -/
theorem ops_paths : (ops : List (HloOp τ sig (Elt F))) =
    path_pre ++ (path_g0 ++ (path_c0 ++ (path_u0 ++ (path_f0 ++
      (path_g1 ++ (path_c1 ++ (path_u1 ++ (path_z1 ++ (path_f1 ++
      (path_g2 ++ (path_c2 ++ (path_u2 ++ (path_z2 ++ (path_f2 ++
      (path_g3 ++ (path_c3 ++ (path_u3 ++ (path_z3 ++ path_f3)))))))))))))))))) := by
  simp only [ops, win0, win1, win2, win3, win4, path_pre, path_g0, path_c0, path_u0, path_f0, path_g1, path_c1, path_u1,
    path_z1, path_f1, path_g2, path_c2, path_u2, path_z2, path_f2, path_g3, path_c3, path_u3, path_z3, path_f3,
    List.append_assoc, List.append_nil]

end Cert.ReferenceIdeal.RefValue

end
-- ==== Proof.RefStages.lean ====
import proofs.«150220_j44581760532841_2_alg».proof.Proof.Gen.ReferenceIdeal
import proofs.«150220_j44581760532841_2_alg».proof.Proof.Spec
import proofs.«150220_j44581760532841_2_alg».proof.Proof.LibPlainDot
import Idealize.ShloMosaic.Lib.ValueIdx
import Idealize.ShloMosaic.Lib.Pipeline.Value
import Idealize.ShloMosaic.PureOps.Ideal.Laws
/-
  The reference's layers as whole-array functions, and each of them read at an entry.

  A path of a layer computes, from the argument arrays and a sign vector, one array: the layer's slice of a stacked
  weight (rowsOf) or bias (rowOf); the signed weights (mwV: where the column's sign is not zero, sign times softplus,
  elsewhere the raw entry); a product with the transposed weights (dotV), a bias added along the rows (biasV), relu
  (reluV). The definitions are spelt operation by operation as the program composes them, for any float values. On the
  extended reals each is read at one entry: the slice at (o, k) is the stacked array at (l, o, k); the product is the
  sum over the contracted coordinate; softplus, the signed weight and relu at an entry are the specification's scalar
  functions of the entries.
-/

noncomputable section

open scoped BigOperators

namespace Cert.ReferenceIdeal.RefValue

open Cert.ReferenceIdeal Cert.ReferenceIdeal.Gen Idealize.ShloMosaic Idealize.ShloMosaic.ValueIdx

/-- The contents of an f32 buffer of shape `s`. -/
abbrev Cf (F : FTy → Type) (s : Shape) : Type := (⟨s, .f32⟩ : BufTy).Contents (Elt F)

section Stages

variable {F : FTy → Type} [FloatOps F]

/-- softplus of a whole array of shape `t`, as the outlined function composes it. -/
def spV (t : Shape) (h : S_.BroadcastsInDim t (![] : Fin 0 → Fin t.rank)) (x : Cf F t) : Cf F t :=
  select (cmpf .une (subf x (broadcastInDim t ![] h (constant S_ .f32 0x00000000#32)))
      (subf x (broadcastInDim t ![] h (constant S_ .f32 0x00000000#32))))
    (addf x (broadcastInDim t ![] h (constant S_ .f32 0x00000000#32)))
    (addf (maximumf x (broadcastInDim t ![] h (constant S_ .f32 0x00000000#32)))
      (Host.log1p (Host.exp (Host.negf (Host.absf (subf x (broadcastInDim t ![] h (constant S_ .f32 0x00000000#32))))))))

/-- The signed weights: per column, `s · softplus w` where the sign `s` is not zero, `w` elsewhere. -/
def mwV (s : Cf F S256) (w : Cf F S1024x256) : Cf F S1024x256 :=
  select (broadcastInDim S1024x256 ![1] bcast_S256_S1024x256_1
      (cmpf .une s (broadcastInDim S256 ![] bcast_S_S256 (constant S_ .f32 0x00000000#32))))
    (mulf (broadcastInDim S1024x256 ![0, 1] bcast_S1x256_S1024x256_0_1 (broadcastInDim S1x256 ![1] bcast_S256_S1x256_1 s))
      (spV S1024x256 bcast_S_S1024x256 w))
    w

/-- Rows times the transposed weights: [8192,256] by [1024,256] to [8192,1024]. -/
def dotV (x : Cf F S8192x256) (w : Cf F S1024x256) : Cf F S8192x1024 :=
  Host.dotGeneral dot_S8192x256_S256x1024_S8192x1024_1_0_0_1_n_n none x
    (transpose S256x1024 [1, 0] w transposes_S1024x256_S256x1024_1_0)

/-- The previous layer's rows times the transposed square weights: [8192,1024] by [1024,1024]. -/
def dotZ (z : Cf F S8192x1024) (u : Cf F S1024x1024) : Cf F S8192x1024 :=
  Host.dotGeneral dot_S8192x1024_S1024x1024_S8192x1024_1_0_0_1_n_n none z
    (transpose S1024x1024 [1, 0] u transposes_S1024x1024_S1024x1024_1_0)

/-- A bias vector along every row. -/
def biasV (b : Cf F S1024) : Cf F S8192x1024 :=
  broadcastInDim S8192x1024 ![0, 1] bcast_S1x1024_S8192x1024_0_1 (broadcastInDim S1x1024 ![1] bcast_S1024_S1x1024_1 b)

/-- relu of a whole array. -/
def reluV (x : Cf F S8192x1024) : Cf F S8192x1024 :=
  maximumf x (broadcastInDim S8192x1024 ![] bcast_S_S8192x1024 (constant S_ .f32 0x00000000#32))

theorem slicesW : ∀ l : Fin 4, S4x1024x256.Slices ![l.val, 0, 0] S1x1024x256 := by decide
theorem slicesB : ∀ l : Fin 4, S4x1024.Slices ![l.val, 0] S1x1024 := by decide
theorem slicesU : ∀ l : Fin 3, S3x1024x1024.Slices ![l.val, 0, 0] S1x1024x1024 := by decide

/-- Layer `l`'s [1024,256] weights out of a stacked [4,1024,256] array. -/
def rowsOf (l : Fin 4) (w : Cf F S4x1024x256) : Cf F S1024x256 :=
  fun i => shapeCast S1024x256 (extractStridedSlice S1x1024x256 ![l.val, 0, 0] w (slicesW l)) shapeCasts_S1x1024x256_S1024x256 i

/-- Layer `l`'s bias out of a stacked [4,1024] array. -/
def rowOf (l : Fin 4) (b : Cf F S4x1024) : Cf F S1024 :=
  fun i => shapeCast S1024 (extractStridedSlice S1x1024 ![l.val, 0] b (slicesB l)) shapeCasts_S1x1024_S1024 i

/-- Square weights `l` out of the stacked [3,1024,1024] array. -/
def rowsU (l : Fin 3) (u : Cf F S3x1024x1024) : Cf F S1024x1024 :=
  fun i => shapeCast S1024x1024 (extractStridedSlice S1x1024x1024 ![l.val, 0, 0] u (slicesU l)) shapeCasts_S1x1024x1024_S1024x1024 i

/-- The gate path: relu(xf · signed(Wut_l)ᵀ + but_l). -/
def gateV (l : Fin 4) (sf : Cf F S256) (xf : Cf F S8192x256) (wut : Cf F S4x1024x256) (but : Cf F S4x1024) : Cf F S8192x1024 :=
  reluV (addf (dotV xf (mwV sf (rowsOf l wut))) (biasV (rowOf l but)))

/-- The xc side: xc · signed(Wc_l)ᵀ + bc_l. -/
def sideC (l : Fin 4) (sc : Cf F S256) (xc : Cf F S8192x256) (wc : Cf F S4x1024x256) (bc : Cf F S4x1024) : Cf F S8192x1024 :=
  addf (dotV xc (mwV sc (rowsOf l wc))) (biasV (rowOf l bc))

/-- The xf side on top of the xc side `c`: (c + xf · signed(Wu_l)ᵀ) + bu_l. -/
def sideU (l : Fin 4) (sf : Cf F S256) (xf : Cf F S8192x256) (wu : Cf F S4x1024x256) (bu : Cf F S4x1024) (c : Cf F S8192x1024) :
    Cf F S8192x1024 :=
  addf (addf c (dotV xf (mwV sf (rowsOf l wu)))) (biasV (rowOf l bu))

/-- The previous layer's side on top of `u`: u + z · softplus(U_l)ᵀ. -/
def sideZ (l : Fin 3) (ru : Cf F S3x1024x1024) (z u : Cf F S8192x1024) : Cf F S8192x1024 :=
  addf u (dotZ z (spV S1024x1024 bcast_S_S1024x1024 (rowsU l ru)))

/-- The close of a layer: relu(a + gate). -/
def closeV (a g : Cf F S8192x1024) : Cf F S8192x1024 := reluV (addf a g)

end Stages

/-! ## At an entry, on the extended reals -/

open Cert.Spec

theorem spV_apply (t : Shape) (h : S_.BroadcastsInDim t (![] : Fin 0 → Fin t.rank)) (x : Cf Ideal t) (j : t.Idx) :
    spV t h x j = sp (x j) := rfl

theorem reluV_apply (x : Cf Ideal S8192x1024) (j : S8192x1024.Idx) : reluV x j = relu (x j) := rfl

theorem closeV_apply (a g : Cf Ideal S8192x1024) (j : S8192x1024.Idx) : closeV a g j = relu (a j + g j) := rfl

/-! ### Slices -/

section Layout

variable {F : FTy → Type} [FloatOps F]

theorem rowsOf_apply (l : Fin 4) (w : Cf F S4x1024x256) (o : Fin 1024) (k : Fin 256) :
    rowsOf l w (ix2 o k) = w (ix3 l o k) := by
  unfold rowsOf
  refine (shapeCast_apply _ shapeCasts_S1x1024x256_S1024x256 (ix2 o k) (ix3 (0 : Fin 1) o k) ?_).trans ?_
  · rw [Shape.rowMajor_val_three, Shape.rowMajor_val_two]
    show ((0 : ℕ) * 1024 + o.val) * 256 + k.val = o.val * 256 + k.val
    omega
  · exact extractStridedSlice_apply _ w (slicesW l) (ix3 (0 : Fin 1) o k) (ix3 l o k) fun a =>
      match a with
      | ⟨0, _⟩ => by show l.val = l.val + 0; rfl
      | ⟨1, _⟩ => by show o.val = 0 + o.val; omega
      | ⟨2, _⟩ => by show k.val = 0 + k.val; omega

theorem rowsU_apply (l : Fin 3) (u : Cf F S3x1024x1024) (o j : Fin 1024) :
    rowsU l u (ix2 o j) = u (ix3 l o j) := by
  unfold rowsU
  refine (shapeCast_apply _ shapeCasts_S1x1024x1024_S1024x1024 (ix2 o j) (ix3 (0 : Fin 1) o j) ?_).trans ?_
  · rw [Shape.rowMajor_val_three, Shape.rowMajor_val_two]
    show ((0 : ℕ) * 1024 + o.val) * 1024 + j.val = o.val * 1024 + j.val
    omega
  · exact extractStridedSlice_apply _ u (slicesU l) (ix3 (0 : Fin 1) o j) (ix3 l o j) fun a =>
      match a with
      | ⟨0, _⟩ => by show l.val = l.val + 0; rfl
      | ⟨1, _⟩ => by show o.val = 0 + o.val; omega
      | ⟨2, _⟩ => by show j.val = 0 + j.val; omega

theorem rowOf_apply (l : Fin 4) (b : Cf F S4x1024) (o : Fin 1024) :
    rowOf l b (ix1 o) = b (ix2 l o) := by
  unfold rowOf
  refine (shapeCast_apply _ shapeCasts_S1x1024_S1024 (ix1 o) (ix2 (0 : Fin 1) o) ?_).trans ?_
  · rw [Shape.rowMajor_val_two, Shape.rowMajor_val_one]
    show (0 : ℕ) * 1024 + o.val = o.val
    omega
  · exact extractStridedSlice_apply _ b (slicesB l) (ix2 (0 : Fin 1) o) (ix2 l o) fun a =>
      match a with
      | ⟨0, _⟩ => by show l.val = l.val + 0; rfl
      | ⟨1, _⟩ => by show o.val = 0 + o.val; omega

/-- A bias along the rows, at (r, o): the bias at o. -/
theorem biasV_apply (b : Cf F S1024) (r : Fin 8192) (o : Fin 1024) : biasV b (ix2 r o) = b (ix1 o) := by
  unfold biasV
  refine (broadcastInDim_apply _ bcast_S1x1024_S8192x1024_0_1 _ (ix2 r o) (ix2 (0 : Fin 1) o) fun a =>
    match a with
    | ⟨0, _⟩ => rfl
    | ⟨1, _⟩ => rfl).trans ?_
  exact broadcastInDim_apply _ bcast_S1024_S1x1024_1 b (ix2 (0 : Fin 1) o) (ix1 o) fun a =>
    match a with
    | ⟨0, _⟩ => rfl

/-- A vector over the columns laid along every row of [1024,256], at (o, k): the vector at k. -/
theorem colsV_apply {α : Type} (s : S256.Idx → α) (o : Fin 1024) (k : Fin 256) :
    broadcastInDim S1024x256 ![0, 1] bcast_S1x256_S1024x256_0_1 (broadcastInDim S1x256 ![1] bcast_S256_S1x256_1 s) (ix2 o k)
      = s (ix1 k) := by
  refine (broadcastInDim_apply _ bcast_S1x256_S1024x256_0_1 _ (ix2 o k) (ix2 (0 : Fin 1) k) fun a =>
    match a with
    | ⟨0, _⟩ => rfl
    | ⟨1, _⟩ => rfl).trans ?_
  exact broadcastInDim_apply _ bcast_S256_S1x256_1 s (ix2 (0 : Fin 1) k) (ix1 k) fun a =>
    match a with
    | ⟨0, _⟩ => rfl

/-- The same in one step (the outlined select's condition). -/
theorem colsV1_apply {α : Type} (s : S256.Idx → α) (o : Fin 1024) (k : Fin 256) :
    broadcastInDim S1024x256 ![1] bcast_S256_S1024x256_1 s (ix2 o k) = s (ix1 k) :=
  broadcastInDim_apply _ bcast_S256_S1024x256_1 s (ix2 o k) (ix1 k) fun a =>
    match a with
    | ⟨0, _⟩ => rfl

end Layout

/-! ### The signed weights, the products, the paths -/

theorem mwV_apply (s : Cf Ideal S256) (w : Cf Ideal S1024x256) (o : Fin 1024) (k : Fin 256) :
    mwV s w (ix2 o k) = mw (s (ix1 k)) (w (ix2 o k)) := by
  unfold mwV
  rw [select_apply, mulf_apply, colsV1_apply, colsV_apply, spV_apply]
  rfl

abbrev D1 := dot_S8192x256_S256x1024_S8192x1024_1_0_0_1_n_n
abbrev D2 := dot_S8192x1024_S1024x1024_S8192x1024_1_0_0_1_n_n

theorem D1_rank : D1.contr.rank = 1 := rfl
theorem D1_size : D1.contr.size ⟨0, by rw [D1_rank]; exact Nat.one_pos⟩ = 256 := rfl
theorem D2_rank : D2.contr.rank = 1 := rfl
theorem D2_size : D2.contr.size ⟨0, by rw [D2_rank]; exact Nat.one_pos⟩ = 1024 := rfl

/-- The left operand's index at result (r, o) and contraction coordinate k is (r, k) … -/
theorem D1_l (j : S8192x1024.Idx) (q : D1.contr.Idx) :
    D1.lhsIdx j q = ix2 (j 0) (contrEquiv1 D1 256 D1_rank D1_size q) := by
  funext a
  refine Fin.ext ?_
  match a with
  | ⟨0, _⟩ => rfl
  | ⟨1, _⟩ => exact D1.lhsIdx_val_of_single (cl := 1) rfl j q

/-- … and the right operand's is (k, o). -/
theorem D1_r (j : S8192x1024.Idx) (q : D1.contr.Idx) :
    D1.rhsIdx j q = ix2 (contrEquiv1 D1 256 D1_rank D1_size q) (j 1) := by
  funext a
  refine Fin.ext ?_
  match a with
  | ⟨0, _⟩ => exact D1.rhsIdx_val_of_single (cr := 0) rfl j q
  | ⟨1, _⟩ => rfl

theorem D2_l (j : S8192x1024.Idx) (q : D2.contr.Idx) :
    D2.lhsIdx j q = ix2 (j 0) (contrEquiv1 D2 1024 D2_rank D2_size q) := by
  funext a
  refine Fin.ext ?_
  match a with
  | ⟨0, _⟩ => rfl
  | ⟨1, _⟩ => exact D2.lhsIdx_val_of_single (cl := 1) rfl j q

theorem D2_r (j : S8192x1024.Idx) (q : D2.contr.Idx) :
    D2.rhsIdx j q = ix2 (contrEquiv1 D2 1024 D2_rank D2_size q) (j 1) := by
  funext a
  refine Fin.ext ?_
  match a with
  | ⟨0, _⟩ => exact D2.rhsIdx_val_of_single (cr := 0) rfl j q
  | ⟨1, _⟩ => rfl

/-- Rows times transposed weights at (r, o): the sum over k of x (r, k) · w (o, k). -/
theorem dotV_apply (x : Cf Ideal S8192x256) (w : Cf Ideal S1024x256) (r : Fin 8192) (o : Fin 1024) :
    dotV x w (ix2 r o) = ∑ k : Fin 256, x (ix2 r k) * w (ix2 o k) := by
  unfold dotV
  refine (Cert.LibPlainDot.dotGeneral_apply D1 none .single 256 D1_rank D1_size x _ (ix2 r o) (fun k => ix2 r k)
    (fun k => ix2 k o) (fun q => D1_l _ q) (fun q => D1_r _ q)).trans ?_
  refine Finset.sum_congr rfl fun k _ => ?_
  rw [transpose_apply [1, 0] w transposes_S1024x256_S256x1024_1_0 (ix2 k o) (ix2 o k) fun b =>
    match b with
    | ⟨0, _⟩ => rfl
    | ⟨1, _⟩ => rfl]

theorem dotZ_apply (z : Cf Ideal S8192x1024) (u : Cf Ideal S1024x1024) (r : Fin 8192) (o : Fin 1024) :
    dotZ z u (ix2 r o) = ∑ j : Fin 1024, z (ix2 r j) * u (ix2 o j) := by
  unfold dotZ
  refine (Cert.LibPlainDot.dotGeneral_apply D2 none .single 1024 D2_rank D2_size z _ (ix2 r o) (fun k => ix2 r k)
    (fun k => ix2 k o) (fun q => D2_l _ q) (fun q => D2_r _ q)).trans ?_
  refine Finset.sum_congr rfl fun k _ => ?_
  rw [transpose_apply [1, 0] u transposes_S1024x1024_S1024x1024_1_0 (ix2 k o) (ix2 o k) fun b =>
    match b with
    | ⟨0, _⟩ => rfl
    | ⟨1, _⟩ => rfl]

/-- A product with the signed weights of layer `l`, at (r, o). -/
theorem dot_mw_apply (l : Fin 4) (s : Cf Ideal S256) (x : Cf Ideal S8192x256) (w : Cf Ideal S4x1024x256) (r : Fin 8192) (o : Fin 1024) :
    dotV x (mwV s (rowsOf l w)) (ix2 r o) = ∑ k : Fin 256, x (ix2 r k) * mw (s (ix1 k)) (w (ix3 l o k)) := by
  rw [dotV_apply]
  refine Finset.sum_congr rfl fun k _ => ?_
  rw [mwV_apply, rowsOf_apply]

theorem gateV_apply (l : Fin 4) (sf : Cf Ideal S256) (xf : Cf Ideal S8192x256) (wut : Cf Ideal S4x1024x256) (but : Cf Ideal S4x1024)
    (r : Fin 8192) (o : Fin 1024) :
    gateV l sf xf wut but (ix2 r o)
      = relu ((∑ k : Fin 256, xf (ix2 r k) * mw (sf (ix1 k)) (wut (ix3 l o k))) + but (ix2 l o)) := by
  unfold gateV
  rw [reluV_apply, addf_apply, dot_mw_apply, biasV_apply, rowOf_apply]

theorem sideC_apply (l : Fin 4) (sc : Cf Ideal S256) (xc : Cf Ideal S8192x256) (wc : Cf Ideal S4x1024x256) (bc : Cf Ideal S4x1024)
    (r : Fin 8192) (o : Fin 1024) :
    sideC l sc xc wc bc (ix2 r o)
      = (∑ k : Fin 256, xc (ix2 r k) * mw (sc (ix1 k)) (wc (ix3 l o k))) + bc (ix2 l o) := by
  unfold sideC
  rw [addf_apply, dot_mw_apply, biasV_apply, rowOf_apply]

theorem sideU_apply (l : Fin 4) (sf : Cf Ideal S256) (xf : Cf Ideal S8192x256) (wu : Cf Ideal S4x1024x256) (bu : Cf Ideal S4x1024)
    (c : Cf Ideal S8192x1024) (r : Fin 8192) (o : Fin 1024) :
    sideU l sf xf wu bu c (ix2 r o)
      = (c (ix2 r o) + ∑ k : Fin 256, xf (ix2 r k) * mw (sf (ix1 k)) (wu (ix3 l o k))) + bu (ix2 l o) := by
  unfold sideU
  rw [addf_apply, addf_apply, dot_mw_apply, biasV_apply, rowOf_apply]

theorem sideZ_apply (l : Fin 3) (ru : Cf Ideal S3x1024x1024) (z u : Cf Ideal S8192x1024) (r : Fin 8192) (o : Fin 1024) :
    sideZ l ru z u (ix2 r o) = u (ix2 r o) + ∑ j : Fin 1024, z (ix2 r j) * sp (ru (ix3 l o j)) := by
  unfold sideZ
  rw [addf_apply, dotZ_apply]
  congr 1
  refine Finset.sum_congr rfl fun j _ => ?_
  rw [spV_apply, rowsU_apply]

end Cert.ReferenceIdeal.RefValue

end
-- ==== Proof.RefPaths.lean ====
import proofs.«150220_j44581760532841_2_alg».proof.Proof.RefRun
import proofs.«150220_j44581760532841_2_alg».proof.Proof.RefStages
/-
  Each path of the reference's line read back from ARBITRARY contents of the buffers: the path's result buffer holds
  the path's whole-array function (RefStages) of the buffers the path reads. The operations' results are composed
  along the path; what is left is the stage's definition unfolded.
-/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Reads a path's result: the path's lists unfolded, the operations' results composed in one pass, and the composed
    term is the stage by definition. -/
macro "read_path" : tactic =>
  `(tactic| (simp only [path_pre, path_g0, path_c0, path_u0, path_f0, path_g1, path_c1, path_u1, path_z1, path_f1,
      path_g2, path_c2, path_u2, path_z2, path_f2, path_g3, path_c3, path_u3, path_z3, path_f3,
      prew0, g0w0, c0w0, u0w0, f0w0, g1w0, g1w1, c1w1, u1w1, z1w1, f1w1, g2w1, g2w2, c2w2, u2w2, z2w2, f2w2,
      g3w2, g3w3, c3w3, u3w3, z3w3, f3w3, List.cons_append, List.nil_append]
             after_results_simp
             first | done | rfl))

/-! ## The two sign tables -/

theorem pre_cst (W : Valuation τ sig (Elt F)) :
    after path_pre W (no_index (Proc.devRef .tc main_cst)) = fun i => FloatOps.ofBits .f32 (lit0 (S256.rowMajor i)) := by
  read_path

theorem pre_cst_0 (W : Valuation τ sig (Elt F)) :
    after path_pre W (no_index (Proc.devRef .tc main_cst_0)) = fun i => FloatOps.ofBits .f32 (lit1 (S256.rowMajor i)) := by
  read_path

/-! ## Layer 0 -/

theorem g0_res (W : Valuation τ sig (Elt F)) :
    after path_g0 W (no_index (Proc.devRef .tc main_v16))
      = gateV 0 (W (Proc.devRef .tc main_cst)) (W (Proc.devRef .tc main_arg1)) (W (Proc.devRef .tc main_arg6))
          (W (Proc.devRef .tc main_arg7)) := by
  read_path

theorem c0_res (W : Valuation τ sig (Elt F)) :
    after path_c0 W (no_index (Proc.devRef .tc main_v32))
      = sideC 0 (W (Proc.devRef .tc main_cst_0)) (W (Proc.devRef .tc main_arg0)) (W (Proc.devRef .tc main_arg2))
          (W (Proc.devRef .tc main_arg3)) := by
  read_path

theorem u0_res (W : Valuation τ sig (Elt F)) :
    after path_u0 W (no_index (Proc.devRef .tc main_v49))
      = sideU 0 (W (Proc.devRef .tc main_cst)) (W (Proc.devRef .tc main_arg1)) (W (Proc.devRef .tc main_arg4))
          (W (Proc.devRef .tc main_arg5)) (W (Proc.devRef .tc main_v32)) := by
  read_path

theorem f0_res (W : Valuation τ sig (Elt F)) :
    after path_f0 W (no_index (Proc.devRef .tc main_v51))
      = closeV (W (Proc.devRef .tc main_v49)) (W (Proc.devRef .tc main_v16)) := by
  read_path

/-! ## Layer 1 -/

theorem g1_res (W : Valuation τ sig (Elt F)) :
    after path_g1 W (no_index (Proc.devRef .tc main_v68))
      = gateV 1 (W (Proc.devRef .tc main_cst)) (W (Proc.devRef .tc main_arg1)) (W (Proc.devRef .tc main_arg6))
          (W (Proc.devRef .tc main_arg7)) := by
  read_path

theorem c1_res (W : Valuation τ sig (Elt F)) :
    after path_c1 W (no_index (Proc.devRef .tc main_v84))
      = sideC 1 (W (Proc.devRef .tc main_cst_0)) (W (Proc.devRef .tc main_arg0)) (W (Proc.devRef .tc main_arg2))
          (W (Proc.devRef .tc main_arg3)) := by
  read_path

theorem u1_res (W : Valuation τ sig (Elt F)) :
    after path_u1 W (no_index (Proc.devRef .tc main_v101))
      = sideU 1 (W (Proc.devRef .tc main_cst)) (W (Proc.devRef .tc main_arg1)) (W (Proc.devRef .tc main_arg4))
          (W (Proc.devRef .tc main_arg5)) (W (Proc.devRef .tc main_v84)) := by
  read_path

theorem z1_res (W : Valuation τ sig (Elt F)) :
    after path_z1 W (no_index (Proc.devRef .tc main_v107))
      = sideZ 0 (W (Proc.devRef .tc main_arg8)) (W (Proc.devRef .tc main_v51)) (W (Proc.devRef .tc main_v101)) := by
  read_path

theorem f1_res (W : Valuation τ sig (Elt F)) :
    after path_f1 W (no_index (Proc.devRef .tc main_v109))
      = closeV (W (Proc.devRef .tc main_v107)) (W (Proc.devRef .tc main_v68)) := by
  read_path

/-! ## Layer 2 -/

theorem g2_res (W : Valuation τ sig (Elt F)) :
    after path_g2 W (no_index (Proc.devRef .tc main_v126))
      = gateV 2 (W (Proc.devRef .tc main_cst)) (W (Proc.devRef .tc main_arg1)) (W (Proc.devRef .tc main_arg6))
          (W (Proc.devRef .tc main_arg7)) := by
  read_path

theorem c2_res (W : Valuation τ sig (Elt F)) :
    after path_c2 W (no_index (Proc.devRef .tc main_v142))
      = sideC 2 (W (Proc.devRef .tc main_cst_0)) (W (Proc.devRef .tc main_arg0)) (W (Proc.devRef .tc main_arg2))
          (W (Proc.devRef .tc main_arg3)) := by
  read_path

theorem u2_res (W : Valuation τ sig (Elt F)) :
    after path_u2 W (no_index (Proc.devRef .tc main_v159))
      = sideU 2 (W (Proc.devRef .tc main_cst)) (W (Proc.devRef .tc main_arg1)) (W (Proc.devRef .tc main_arg4))
          (W (Proc.devRef .tc main_arg5)) (W (Proc.devRef .tc main_v142)) := by
  read_path

theorem z2_res (W : Valuation τ sig (Elt F)) :
    after path_z2 W (no_index (Proc.devRef .tc main_v165))
      = sideZ 1 (W (Proc.devRef .tc main_arg8)) (W (Proc.devRef .tc main_v109)) (W (Proc.devRef .tc main_v159)) := by
  read_path

theorem f2_res (W : Valuation τ sig (Elt F)) :
    after path_f2 W (no_index (Proc.devRef .tc main_v167))
      = closeV (W (Proc.devRef .tc main_v165)) (W (Proc.devRef .tc main_v126)) := by
  read_path

/-! ## Layer 3 -/

theorem g3_res (W : Valuation τ sig (Elt F)) :
    after path_g3 W (no_index (Proc.devRef .tc main_v184))
      = gateV 3 (W (Proc.devRef .tc main_cst)) (W (Proc.devRef .tc main_arg1)) (W (Proc.devRef .tc main_arg6))
          (W (Proc.devRef .tc main_arg7)) := by
  read_path

theorem c3_res (W : Valuation τ sig (Elt F)) :
    after path_c3 W (no_index (Proc.devRef .tc main_v200))
      = sideC 3 (W (Proc.devRef .tc main_cst_0)) (W (Proc.devRef .tc main_arg0)) (W (Proc.devRef .tc main_arg2))
          (W (Proc.devRef .tc main_arg3)) := by
  read_path

theorem u3_res (W : Valuation τ sig (Elt F)) :
    after path_u3 W (no_index (Proc.devRef .tc main_v217))
      = sideU 3 (W (Proc.devRef .tc main_cst)) (W (Proc.devRef .tc main_arg1)) (W (Proc.devRef .tc main_arg4))
          (W (Proc.devRef .tc main_arg5)) (W (Proc.devRef .tc main_v200)) := by
  read_path

theorem z3_res (W : Valuation τ sig (Elt F)) :
    after path_z3 W (no_index (Proc.devRef .tc main_v223))
      = sideZ 2 (W (Proc.devRef .tc main_arg8)) (W (Proc.devRef .tc main_v167)) (W (Proc.devRef .tc main_v217)) := by
  read_path

theorem f3_res (W : Valuation τ sig (Elt F)) :
    after path_f3 W (no_index (Proc.devRef .tc main_v225))
      = closeV (W (Proc.devRef .tc main_v223)) (W (Proc.devRef .tc main_v184)) := by
  read_path

end Cert.ReferenceIdeal.RefValue

end
-- ==== Proof.RefValue.lean ====
import proofs.«150220_j44581760532841_2_alg».proof.Proof.RefPaths

/-
  The reference's run read back as the specification.

  The paths are composed layer by layer. From arbitrary contents, a layer's operations leave in the layer's result
  buffer the layer's whole-array function of the argument arrays, the two sign tables and the previous layer's result,
  and leave those arrays as they were; so the whole line leaves in the last result buffer the fourth layer's array, a
  function of the launch contents of the arguments alone, and the arguments unchanged. Read at an entry on the extended
  reals, the layers are the specification's: the first layer entry by entry, each later one given the previous layer
  entry by entry.
-/

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

section Layers

variable {F : FTy → Type} [FloatOps F]

/-- The nine argument arrays and the two sign tables. -/
structure VIn (F : FTy → Type) where
  xc : Cf F S8192x256
  xf : Cf F S8192x256
  wc : Cf F S4x1024x256
  bc : Cf F S4x1024
  wu : Cf F S4x1024x256
  bu : Cf F S4x1024
  wut : Cf F S4x1024x256
  but : Cf F S4x1024
  ru : Cf F S3x1024x1024
  sc : Cf F S256
  sf : Cf F S256

/-- Them, as the buffers hold them at contents `W`. -/
def vin (W : Valuation τ sig (Elt F)) : VIn F where
  xc := W (Proc.devRef .tc main_arg0)
  xf := W (Proc.devRef .tc main_arg1)
  wc := W (Proc.devRef .tc main_arg2)
  bc := W (Proc.devRef .tc main_arg3)
  wu := W (Proc.devRef .tc main_arg4)
  bu := W (Proc.devRef .tc main_arg5)
  wut := W (Proc.devRef .tc main_arg6)
  but := W (Proc.devRef .tc main_arg7)
  ru := W (Proc.devRef .tc main_arg8)
  sc := W (Proc.devRef .tc main_cst_0)
  sf := W (Proc.devRef .tc main_cst)

/-- The arguments as held at `V`, with the two sign tables as the program writes them. -/
def vin0 (V : Valuation τ sig (Elt F)) : VIn F :=
  { vin V with
    sc := fun i => FloatOps.ofBits .f32 (lit1 (S256.rowMajor i))
    sf := fun i => FloatOps.ofBits .f32 (lit0 (S256.rowMajor i)) }

/-- The two input sides of layer `l`. -/
def baseV (l : Fin 4) (a : VIn F) : Cf F S8192x1024 := sideU l a.sf a.xf a.wu a.bu (sideC l a.sc a.xc a.wc a.bc)
/-- The gate of layer `l`. -/
def gV (l : Fin 4) (a : VIn F) : Cf F S8192x1024 := gateV l a.sf a.xf a.wut a.but
/-- The first layer. -/
def zV0 (a : VIn F) : Cf F S8192x1024 := closeV (baseV 0 a) (gV 0 a)
/-- Layer `l` from the previous layer's array `z`, through the square weights `u`. -/
def zVn (l : Fin 4) (u : Fin 3) (a : VIn F) (z : Cf F S8192x1024) : Cf F S8192x1024 :=
  closeV (sideZ u a.ru z (baseV l a)) (gV l a)
def zV1 (a : VIn F) : Cf F S8192x1024 := zVn 1 0 a (zV0 a)
def zV2 (a : VIn F) : Cf F S8192x1024 := zVn 2 1 a (zV1 a)
def zV3 (a : VIn F) : Cf F S8192x1024 := zVn 3 2 a (zV2 a)

/-- The layers' operations. -/
def layer0 : List (HloOp τ sig (Elt F)) := path_g0 ++ (path_c0 ++ (path_u0 ++ path_f0))
def layer1 : List (HloOp τ sig (Elt F)) := path_g1 ++ (path_c1 ++ (path_u1 ++ (path_z1 ++ path_f1)))
def layer2 : List (HloOp τ sig (Elt F)) := path_g2 ++ (path_c2 ++ (path_u2 ++ (path_z2 ++ path_f2)))
def layer3 : List (HloOp τ sig (Elt F)) := path_g3 ++ (path_c3 ++ (path_u3 ++ (path_z3 ++ path_f3)))

theorem ops_layers : (ops : List (HloOp τ sig (Elt F))) = path_pre ++ (layer0 ++ (layer1 ++ (layer2 ++ layer3))) := by
  rw [ops_paths]
  simp only [layer0, layer1, layer2, layer3, List.append_assoc]

/-! ## A layer from arbitrary contents: its result, and the inputs kept -/

theorem layer0_res (W : Valuation τ sig (Elt F)) :
    after layer0 W (no_index (Proc.devRef .tc main_v51)) = zV0 (vin W) := by
  simp only [layer0, after_append]
  simp (disch := decide) only [f0_res, u0_res, u0_keep, c0_res, c0_keep, g0_res, g0_keep]
  rfl

theorem layer0_vin (W : Valuation τ sig (Elt F)) : vin (after layer0 W) = vin W := by
  simp only [layer0, after_append, vin]
  simp (disch := decide) only [f0_keep, u0_keep, c0_keep, g0_keep]

theorem layer1_res (W : Valuation τ sig (Elt F)) :
    after layer1 W (no_index (Proc.devRef .tc main_v109)) = zVn 1 0 (vin W) (W (Proc.devRef .tc main_v51)) := by
  simp only [layer1, after_append]
  simp (disch := decide) only [f1_res, z1_res, z1_keep, u1_res, u1_keep, c1_res, c1_keep, g1_res, g1_keep]
  rfl

theorem layer1_vin (W : Valuation τ sig (Elt F)) : vin (after layer1 W) = vin W := by
  simp only [layer1, after_append, vin]
  simp (disch := decide) only [f1_keep, z1_keep, u1_keep, c1_keep, g1_keep]

theorem layer2_res (W : Valuation τ sig (Elt F)) :
    after layer2 W (no_index (Proc.devRef .tc main_v167)) = zVn 2 1 (vin W) (W (Proc.devRef .tc main_v109)) := by
  simp only [layer2, after_append]
  simp (disch := decide) only [f2_res, z2_res, z2_keep, u2_res, u2_keep, c2_res, c2_keep, g2_res, g2_keep]
  rfl

theorem layer2_vin (W : Valuation τ sig (Elt F)) : vin (after layer2 W) = vin W := by
  simp only [layer2, after_append, vin]
  simp (disch := decide) only [f2_keep, z2_keep, u2_keep, c2_keep, g2_keep]

theorem layer3_res (W : Valuation τ sig (Elt F)) :
    after layer3 W (no_index (Proc.devRef .tc main_v225)) = zVn 3 2 (vin W) (W (Proc.devRef .tc main_v167)) := by
  simp only [layer3, after_append]
  simp (disch := decide) only [f3_res, z3_res, z3_keep, u3_res, u3_keep, c3_res, c3_keep, g3_res, g3_keep]
  rfl

theorem pre_vin (V : Valuation τ sig (Elt F)) : vin (after path_pre V) = vin0 V := by
  simp only [vin, vin0]
  simp (disch := decide) only [pre_cst, pre_cst_0, pre_keep]

/-- The whole line: the last result buffer holds the fourth layer's array of the launch arguments. -/
theorem out_res (V : Valuation τ sig (Elt F)) : after ops V (Proc.devRef .tc main_v225) = zV3 (vin0 V) := by
  rw [ops_layers]
  simp only [after_append]
  simp only [layer3_res, layer2_res, layer1_res, layer0_res, layer2_vin, layer1_vin, layer0_vin, pre_vin]
  rfl

/-- An argument buffer is written by no path. -/
macro "arg_kept" : tactic =>
  `(tactic| (rw [ops_paths]
             simp only [after_append]
             simp (disch := decide) only [pre_keep, g0_keep, c0_keep, u0_keep, f0_keep, g1_keep, c1_keep, u1_keep, z1_keep, f1_keep,
               g2_keep, c2_keep, u2_keep, z2_keep, f2_keep, g3_keep, c3_keep, u3_keep, z3_keep, f3_keep]))

theorem arg0_kept (V : Valuation τ sig (Elt F)) : after ops V (Proc.devRef .tc main_arg0) = V (Proc.devRef .tc main_arg0) := by arg_kept
theorem arg1_kept (V : Valuation τ sig (Elt F)) : after ops V (Proc.devRef .tc main_arg1) = V (Proc.devRef .tc main_arg1) := by arg_kept
theorem arg2_kept (V : Valuation τ sig (Elt F)) : after ops V (Proc.devRef .tc main_arg2) = V (Proc.devRef .tc main_arg2) := by arg_kept
theorem arg3_kept (V : Valuation τ sig (Elt F)) : after ops V (Proc.devRef .tc main_arg3) = V (Proc.devRef .tc main_arg3) := by arg_kept
theorem arg4_kept (V : Valuation τ sig (Elt F)) : after ops V (Proc.devRef .tc main_arg4) = V (Proc.devRef .tc main_arg4) := by arg_kept
theorem arg5_kept (V : Valuation τ sig (Elt F)) : after ops V (Proc.devRef .tc main_arg5) = V (Proc.devRef .tc main_arg5) := by arg_kept
theorem arg6_kept (V : Valuation τ sig (Elt F)) : after ops V (Proc.devRef .tc main_arg6) = V (Proc.devRef .tc main_arg6) := by arg_kept
theorem arg7_kept (V : Valuation τ sig (Elt F)) : after ops V (Proc.devRef .tc main_arg7) = V (Proc.devRef .tc main_arg7) := by arg_kept
theorem arg8_kept (V : Valuation τ sig (Elt F)) : after ops V (Proc.devRef .tc main_arg8) = V (Proc.devRef .tc main_arg8) := by arg_kept

end Layers

/-! ## The layers at an entry are the specification's -/

/-- The arrays as the specification's input. -/
def toInp (A : VIn Ideal) : Cert.Spec.Inp :=
  { xc := A.xc, xf := A.xf, wc := A.wc, bc := A.bc, wu := A.wu, bu := A.bu, wut := A.wut, but := A.but, ru := A.ru,
    sc := A.sc, sf := A.sf }

theorem gV_apply (l : Fin 4) (A : VIn Ideal) (r : Fin 8192) (o : Fin 1024) :
    gV l A (ix2 r o) = Cert.Spec.gate (toInp A) l r o := by
  unfold gV Cert.Spec.gate Cert.Spec.wutM
  rw [gateV_apply]
  rfl

theorem baseV_apply (l : Fin 4) (A : VIn Ideal) (r : Fin 8192) (o : Fin 1024) :
    baseV l A (ix2 r o) = Cert.Spec.base (toInp A) l r o := by
  unfold baseV Cert.Spec.base Cert.Spec.wcM Cert.Spec.wuM
  rw [sideU_apply, sideC_apply]
  rfl

theorem zV0_apply (A : VIn Ideal) (r : Fin 8192) (o : Fin 1024) : zV0 A (ix2 r o) = Cert.Spec.z0 (toInp A) r o := by
  unfold zV0 Cert.Spec.z0
  rw [closeV_apply, baseV_apply, gV_apply]

/-- A later layer, given that the previous layer's array is `zs` entry by entry. -/
theorem zVn_apply (l : Fin 4) (u : Fin 3) (A : VIn Ideal) (z : Cf Ideal S8192x1024) (zs : Fin 8192 → Fin 1024 → EReal)
    (hz : ∀ r j, z (ix2 r j) = zs r j) (r : Fin 8192) (o : Fin 1024) :
    zVn l u A z (ix2 r o) = Cert.Spec.next (toInp A) l u zs r o := by
  unfold zVn Cert.Spec.next Cert.Spec.uM
  rw [closeV_apply, sideZ_apply, baseV_apply, gV_apply]
  simp only [hz]
  rfl

theorem zV3_spec (A : VIn Ideal) : zV3 A = Cert.Spec.out (toInp A) := by
  funext i
  obtain ⟨r, o, rfl⟩ : ∃ (r : Fin 8192) (o : Fin 1024), i = ix2 r o := ⟨i 0, i 1, eq_ix2 i⟩
  show zV3 A (ix2 r o) = Cert.Spec.z3 (toInp A) r o
  unfold zV3 zV2 zV1 Cert.Spec.z3 Cert.Spec.z2 Cert.Spec.z1
  exact zVn_apply 3 2 A _ _ (fun r j => zVn_apply 2 1 A _ _ (fun r j => zVn_apply 1 0 A _ _
    (fun r j => zV0_apply A r j) r j) r j) r o

/-! ## The run -/

/-- the reference's argument arrays and its two sign tables as the specification's input -/
def inp (xc xf : FVec Ideal S8192x256 .f32) (wc : FVec Ideal S4x1024x256 .f32) (bc : FVec Ideal S4x1024 .f32) (wu : FVec Ideal S4x1024x256 .f32) (bu : FVec Ideal S4x1024 .f32) (wut : FVec Ideal S4x1024x256 .f32) (but : FVec Ideal S4x1024 .f32) (ru : FVec Ideal S3x1024x1024 .f32) : Cert.Spec.Inp :=
  { xc := xc, xf := xf, wc := wc, bc := bc, wu := wu, bu := bu, wut := wut, but := but, ru := ru,
    sc := fun i => FloatOps.ofBits (F := Ideal) .f32 (lit1 (S256.rowMajor i)), sf := fun i => FloatOps.ofBits (F := Ideal) .f32 (lit0 (S256.rowMajor i)) }

/-- The last result buffer after the line, from the launch contents: the specification's output of the arguments. -/
theorem out_eq (m : (ℓ : Loc nD τ sig) → Buf (Elt Ideal) ℓ) (c : Dev nD) :
    after ops (launchContents m c) (Proc.devRef .tc main_v225)
      = Cert.Spec.out (inp (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8))) :=
  (out_res (launchContents m c)).trans (zV3_spec (vin0 (launchContents m c)))

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v225)
          = Cert.Spec.out (inp (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v225).trans (out_eq m c),
      (h c main_arg0).trans (arg0_kept _), (h c main_arg1).trans (arg1_kept _), (h c main_arg2).trans (arg2_kept _),
      (h c main_arg3).trans (arg3_kept _), (h c main_arg4).trans (arg4_kept _), (h c main_arg5).trans (arg5_kept _),
      (h c main_arg6).trans (arg6_kept _), (h c main_arg7).trans (arg7_kept _), (h c main_arg8).trans (arg8_kept _)⟩)
    (run_main m ρ)

end Cert.ReferenceIdeal.RefValue

end
-- ==== Proof.lean ====
/-
  The certificate of a four-layer input-convex network block, fused into one kernel over blocks of 512 batch rows,
  against its layer-by-layer jnp reference.

  Both programs compute, on the extended reals, the function `Cert.Spec.out` of the nine argument arrays (Proof/Spec.lean):
  every weight entry passes its column's sign (sign · softplus(w) where the sign is not zero, w elsewhere), and layer l is
  z_l = relu((xc·Wc + bc) + xf·Wu + bu [+ z_{l-1}·softplus(U)] + relu(xf·Wut + but)), every product a sum over the contracted
  axis. The kernel signs and joins the weights on the host before the call (Wut and Wu stacked into one 2048-row array, so that
  one product serves the gate and the free path, which the body cuts back into halves), keeps all weights resident and runs the
  four layers on each block of rows; the reference slices one layer's weights at a time and transposes them before each product.
  The two sides differ by the grouping of one sum per layer, (A + bc) + (H + bu) against ((A + bc) + H) + bu, which is
  associativity of addition on the extended reals and needs no finiteness: the precondition is never opened. The two
  programs' sign tables are the same 256 words.

  The three frames: the kernel's two are the generated frame certificates; the reference's is its run with the result dropped.
  The idealization rewrote nothing, so `preserves` is `True`.
-/
import proofs.«150220_j44581760532841_2_alg».proof.Defs
import proofs.«150220_j44581760532841_2_alg».proof.Proof.Gen.Kernel
import proofs.«150220_j44581760532841_2_alg».proof.Proof.Gen.Kernel.Skeleton
import proofs.«150220_j44581760532841_2_alg».proof.Proof.Gen.Kernel.Launch
import proofs.«150220_j44581760532841_2_alg».proof.Proof.Gen.Kernel.Points
import proofs.«150220_j44581760532841_2_alg».proof.Proof.Gen.Kernel.Frame
import proofs.«150220_j44581760532841_2_alg».proof.Proof.Gen.KernelIdeal
import proofs.«150220_j44581760532841_2_alg».proof.Proof.Gen.KernelIdeal.Skeleton
import proofs.«150220_j44581760532841_2_alg».proof.Proof.Gen.KernelIdeal.Launch
import proofs.«150220_j44581760532841_2_alg».proof.Proof.Gen.KernelIdeal.Points
import proofs.«150220_j44581760532841_2_alg».proof.Proof.Gen.KernelIdeal.Frame
import proofs.«150220_j44581760532841_2_alg».proof.Proof.Gen.KernelIdeal.Value
import proofs.«150220_j44581760532841_2_alg».proof.Proof.Gen.ReferenceIdeal
import proofs.«150220_j44581760532841_2_alg».proof.Proof.Gen.Pre_finite_inputs
import proofs.«150220_j44581760532841_2_alg».proof.Proof.KValue
import proofs.«150220_j44581760532841_2_alg».proof.Proof.KHost
import proofs.«150220_j44581760532841_2_alg».proof.Proof.RefValue
import Idealize.ShloMosaic.Adequacy
import Idealize.ShloMosaic.Init

noncomputable section

namespace Cert.Proof

open Idealize.ShloMosaic Idealize.SL.Sem

/-- The two programs' sign tables hold the same words (each program prints the xc side's and the xf side's table; all
    four are the same 256 words). -/
theorem sign_c : Cert.ReferenceIdeal.lit1 = Cert.KernelIdeal.lit0 := by funext k; revert k; decide
theorem sign_f : Cert.ReferenceIdeal.lit0 = Cert.KernelIdeal.lit1 := by funext k; revert k; decide

/-- What the kernel's staged arrays hold when the region is entered: the arguments as launched, and the host's signed,
    joined weights entry by entry. -/
theorem entry (m : (ℓ : Loc Cert.KernelIdeal.nD Cert.KernelIdeal.τ Cert.KernelIdeal.sig) → Buf (Elt Ideal) ℓ) (c : Dev Cert.KernelIdeal.nD) :
    Cert.KernelIdeal.KValue.Entry m c (Cert.KernelIdeal.KHost.inpM m c) where
  xc := fun i => congrFun (Cert.KernelIdeal.Gen.V_main_arg0 m c) i
  xf := fun i => congrFun (Cert.KernelIdeal.Gen.V_main_arg1 m c) i
  wc := Cert.KernelIdeal.KHost.V_wc m c
  bc := fun l o => congrFun (Cert.KernelIdeal.Gen.V_main_arg3 m c) _
  wlo := Cert.KernelIdeal.KHost.V_wcat_lo m c
  whi := Cert.KernelIdeal.KHost.V_wcat_hi m c
  blo := Cert.KernelIdeal.KHost.V_bcat_lo m c
  bhi := Cert.KernelIdeal.KHost.V_bcat_hi m c
  u := Cert.KernelIdeal.KHost.V_u m c

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

/-- Both runs end with the result array at the specification's `out`: of the kernel's arguments and sign tables on one
    side, of the reference's on the other; the arguments agree and the tables are the same words. -/
theorem algebraic : Cert.algebraic_KernelIdeal_ReferenceIdeal := by
  intro m ρ m' ρ' _ hagree
  refine ⟨fun c => Cert.Spec.out (Cert.KernelIdeal.KHost.inpM m c), Cert.KernelIdeal.KValue.run m ρ _ (entry m), ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8⟩ := hagree c
  rw [e0, e1, e2, e3, e4, e5, e6, e7, e8]
  unfold Cert.ReferenceIdeal.RefValue.inp Cert.KernelIdeal.KHost.inpM Cert.KernelIdeal.KHost.inp
  rw [sign_c, sign_f]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
